-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_tau" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x64 : Shape := ⟨2, ![4096, 64]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : IVec S4096x64 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1 : Shape := ⟨1, ![1]⟩
abbrev S1x4096x4096 : Shape := ⟨3, ![1, 4096, 4096]⟩
abbrev S2x4096x4096 : Shape := ⟨3, ![2, 4096, 4096]⟩
abbrev S2x4096x1 : Shape := ⟨3, ![2, 4096, 1]⟩
abbrev S1x1024x4096 : Shape := ⟨3, ![1, 1024, 4096]⟩
abbrev S1x512x4096 : Shape := ⟨3, ![1, 512, 4096]⟩
abbrev S1x1024x1 : Shape := ⟨3, ![1, 1024, 1]⟩
abbrev S1024x4096 : Shape := ⟨2, ![1024, 4096]⟩
abbrev S512x4096 : Shape := ⟨2, ![512, 4096]⟩
abbrev S1024x512 : Shape := ⟨2, ![1024, 512]⟩
abbrev S1024x1 : Shape := ⟨2, ![1024, 1]⟩
abbrev S1024 : Shape := ⟨1, ![1024]⟩
abbrev S1x4096x1 : Shape := ⟨3, ![1, 4096, 1]⟩

abbrev nBuf : Space → Nat
  | .hbm => 106
  | .vmem => 6
  | .smem => 1
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x64, .i32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S4096x64, .i32⟩
  | .hbm, ⟨33, _⟩ => ⟨S4096x64, .i1⟩
  | .hbm, ⟨34, _⟩ => ⟨S4096x64, .i32⟩
  | .hbm, ⟨35, _⟩ => ⟨S_, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S4096, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096x4096, .bf16⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S4096x4096, .bf16⟩
  | .hbm, ⟨65, _⟩ => ⟨S4096x4096, .bf16⟩
  | .hbm, ⟨66, _⟩ => ⟨S_, .i32⟩
  | .hbm, ⟨67, _⟩ => ⟨S4096, .i32⟩
  | .hbm, ⟨68, _⟩ => ⟨S4096, .i1⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S4096, .i32⟩
  | .hbm, ⟨73, _⟩ => ⟨S4096x1, .i32⟩
  | .hbm, ⟨74, _⟩ => ⟨S4096x4096, .bf16⟩
  | .hbm, ⟨75, _⟩ => ⟨S1x4096x4096, .bf16⟩
  | .hbm, ⟨76, _⟩ => ⟨S1x4096x4096, .bf16⟩
  | .hbm, ⟨77, _⟩ => ⟨S2x4096x4096, .bf16⟩
  | .hbm, ⟨78, _⟩ => ⟨S2x4096x1, .f32⟩
  | .hbm, ⟨79, _⟩ => ⟨S1x4096x1, .f32⟩
  | .hbm, ⟨80, _⟩ => ⟨S4096x1, .f32⟩
  | .hbm, ⟨81, _⟩ => ⟨S_, .f32⟩
  | .hbm, ⟨82, _⟩ => ⟨S_, .f32⟩
  | .hbm, ⟨83, _⟩ => ⟨S1x4096x1, .f32⟩
  | .hbm, ⟨84, _⟩ => ⟨S4096x1, .f32⟩
  | .hbm, ⟨85, _⟩ => ⟨S_, .f32⟩
  | .hbm, ⟨86, _⟩ => ⟨S_, .f32⟩
  | .hbm, ⟨87, _⟩ => ⟨S_, .i32⟩
  | .hbm, ⟨88, _⟩ => ⟨S_, .i32⟩
  | .hbm, ⟨89, _⟩ => ⟨S_, .f32⟩
  | .hbm, ⟨90, _⟩ => ⟨S_, .i32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .i32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1x1024x1, .f32⟩
  | .local _ .vmem, ⟨5, _⟩ => ⟨S1x1024x1, .f32⟩
  | .local _ .smem, ⟨0, _⟩ => ⟨S1, .i32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_c_7 : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_c_9 : Ref sig .tc := ⟨.hbm, 47, rfl⟩
abbrev main_call2_v0 : Ref sig .tc := ⟨.hbm, 48, rfl⟩
abbrev main_call2_v1 : Ref sig .tc := ⟨.hbm, 49, rfl⟩
abbrev main_v25 : Ref sig .tc := ⟨.hbm, 50, rfl⟩
abbrev main_v26 : Ref sig .tc := ⟨.hbm, 51, rfl⟩
abbrev main_call3_v0 : Ref sig .tc := ⟨.hbm, 52, rfl⟩
abbrev main_call3_v1_0 : Ref sig .tc := ⟨.hbm, 53, rfl⟩
abbrev main_v27 : Ref sig .tc := ⟨.hbm, 54, rfl⟩
abbrev main_v28 : Ref sig .tc := ⟨.hbm, 55, rfl⟩
abbrev main_c_10 : Ref sig .tc := ⟨.hbm, 56, rfl⟩
abbrev main_v29 : Ref sig .tc := ⟨.hbm, 57, rfl⟩
abbrev main_v30 : Ref sig .tc := ⟨.hbm, 58, rfl⟩
abbrev main_c_11 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_12 : Ref sig .tc := ⟨.hbm, 66, rfl⟩
abbrev main_v37 : Ref sig .tc := ⟨.hbm, 67, rfl⟩
abbrev main_v38 : Ref sig .tc := ⟨.hbm, 68, rfl⟩
abbrev main_c_13 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_c_16 : Ref sig .tc := ⟨.hbm, 87, rfl⟩
abbrev main_v55 : Ref sig .tc := ⟨.hbm, 88, rfl⟩
abbrev main_v56 : Ref sig .tc := ⟨.hbm, 89, rfl⟩
abbrev main_c_17 : Ref sig .tc := ⟨.hbm, 90, rfl⟩
abbrev main_v57 : Ref sig .tc := ⟨.hbm, 91, rfl⟩
abbrev main_v58 : Ref sig .tc := ⟨.hbm, 92, rfl⟩
abbrev main_cst_18 : Ref sig .tc := ⟨.hbm, 93, rfl⟩
abbrev main_call4_v0 : Ref sig .tc := ⟨.hbm, 94, rfl⟩
abbrev main_v59 : Ref sig .tc := ⟨.hbm, 95, rfl⟩
abbrev main_c_19 : Ref sig .tc := ⟨.hbm, 96, rfl⟩
abbrev main_v60 : Ref sig .tc := ⟨.hbm, 97, rfl⟩
abbrev main_v61 : Ref sig .tc := ⟨.hbm, 98, rfl⟩
abbrev main_cst_20 : Ref sig .tc := ⟨.hbm, 99, rfl⟩
abbrev main_call5_v0 : Ref sig .tc := ⟨.hbm, 100, rfl⟩
abbrev main_v62 : Ref sig .tc := ⟨.hbm, 101, rfl⟩
abbrev main_v63 : Ref sig .tc := ⟨.hbm, 102, rfl⟩
abbrev main_cst_21 : Ref sig .tc := ⟨.hbm, 103, rfl⟩
abbrev main_v64 : Ref sig .tc := ⟨.hbm, 104, rfl⟩
abbrev main_v65 : Ref sig .tc := ⟨.hbm, 105, rfl⟩
abbrev main_v44 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

abbrev pre0 : Pipeline.Prefetch sig := ⟨1, ![main_v44.idx], fun | 0 => main_v44.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg1 : BitVec 32 := BitVec.ofNat 32 (i 1).val
  let c1024_i32 : BitVec 32 := 1024#32
  let v4 : BitVec 32 := Scalar.muli arg1 c1024_i32
  let v6 : BitVec 1 := Scalar.cmpi .slt v4 v3
  let arg2 : BitVec 32 := BitVec.ofNat 32 (i 2).val
  let c512_i32 : BitVec 32 := 512#32
  let v5 : BitVec 32 := Scalar.muli arg2 c512_i32
  let c512_i32_1 : BitVec 32 := 512#32
  let v7 : BitVec 32 := Scalar.addi v5 c512_i32_1
  let v8 : BitVec 1 := Scalar.cmpi .sgt v7 v3
  let v9 : BitVec 1 := Scalar.andi v6 v8
  let v10 : BitVec 32 := Scalar.extui v9
  let c0_i32_2 : BitVec 32 := 0#32
  let v11 : BitVec 1 := Scalar.cmpi .ne v10 c0_i32_2
  v11

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1024_i32 : BitVec 32 := 1024#32
  let v1 : BitVec 32 := Scalar.muli arg1 c1024_i32
  let v2 : BitVec 1 := Scalar.cmpi .slt v1 v0
  let c0_i32 : BitVec 32 := 0#32
  let v3 : BitVec 32 := Scalar.select v2 arg1 c0_i32
  let c0_i32_0 : BitVec 32 := 0#32
  let c0_i32_1 : BitVec 32 := 0#32
  ![arg0.toNat, v3.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1024_i32 : BitVec 32 := 1024#32
  let v1 : BitVec 32 := Scalar.muli arg1 c1024_i32
  let v2 : BitVec 1 := Scalar.cmpi .slt v1 v0
  let c512_i32 : BitVec 32 := 512#32
  let v3 : BitVec 32 := Scalar.muli arg2 c512_i32
  let c512_i32_0 : BitVec 32 := 512#32
  let v4 : BitVec 32 := Scalar.addi v3 c512_i32_0
  let v5 : BitVec 1 := Scalar.cmpi .sgt v4 v0
  let v6 : BitVec 1 := Scalar.andi v2 v5
  let c0_i32 : BitVec 32 := 0#32
  let v7 : BitVec 32 := Scalar.select v6 arg2 c0_i32
  let c0_i32_1 : BitVec 32 := 0#32
  let c0_i32_2 : BitVec 32 := 0#32
  ![arg0.toNat, v7.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  natLt_1_32 : 1 < 32
  reducesTo_S4096x64_S4096_d1 : S4096x64.ReducesTo [1] S4096
  bitsLt_bf16_f32 : FTy.bits .bf16 < FTy.bits .f32
  shapeCasts_S_S1 : S_.ShapeCasts S1
  bcast_S4096x4096_S1x4096x4096_1_2 : S4096x4096.BroadcastsInDim S1x4096x4096 (![1, 2] : Fin 2 → Fin S1x4096x4096.rank)
  concatenates_S1x4096x4096_S1x4096x4096_S2x4096x4096_d0 : Shape.Concatenates [S1x4096x4096, S1x4096x4096] S2x4096x4096 0
  inb_S1_S1_0 : ∀ a, (![0] : Fin 1 → Nat) a + S1.size a ≤ S1.size a
  numel1_S1 : S1.numel = 1
  inb_S1x1024x1_S1x1024x1_0_0_0 : ∀ a, (![0, 0, 0] : Fin 3 → Nat) a + S1x1024x1.size a ≤ S1x1024x1.size a
  h_S1x1024x1 : 0 < S1x1024x1.numel
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  iota_S1024x512_d0_w32 : S1024x512.Iotas .tc 32 [0]
  iota_S1024x512_d1_w32 : S1024x512.Iotas .tc 32 [1]
  shapeCasts_S1x1024x1_S1024x1 : S1x1024x1.ShapeCasts S1024x1
  reduces_S1024x512_S1024 : S1024x512.Reduces [1] S1024
  shapeCasts_S1024_S1024x1 : S1024.ShapeCasts S1024x1
  shapeCasts_S1024x1_S1x1024x1 : S1024x1.ShapeCasts S1x1024x1
  slices_S2x4096x1_S1x4096x1_0_0_0 : S2x4096x1.Slices ![0, 0, 0] S1x4096x1
  shapeCasts_S1x4096x1_S4096x1 : S1x4096x1.ShapeCasts S4096x1
  reducesTo_S4096x1_S_d0_1 : S4096x1.ReducesTo [0, 1] S_
  slices_S2x4096x1_S1x4096x1_1_0_0 : S2x4096x1.Slices ![1, 0, 0] S1x4096x1
  gather_S4096x4096_S4096x1_S4096x4096_1_0_n_n_0_1_14096_wf : GatherDims.WF S4096x4096 S4096x1 S4096x4096 [1] [0] [] [0] [] 1 ![1, 4096]
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 inb_S1_S1_0 numel1_S1 pf i = cc0_transform_0 inb_S1_S1_0 numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 inb_S1_S1_0 numel1_S1 pf i = cc0_transform_1 inb_S1_S1_0 numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S2x4096x1.size a
  hwx0_2 : ∀ i : grid0.Coords, EltTy.bits .f32 = 32 ∨ (Rect.block (s := S2x4096x1) S1x1024x1.size (cc0_transform_2 i) (hinb0_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S4096x4096_S4096x1_S4096x4096_1_0_n_n_0_1_14096 : GatherDims S4096x4096 S4096x1 S4096x4096 where
  offsetDims := [1]
  collapsedSliceDims := [0]
  operandBatchingDims := []
  startIndicesBatchingDims := []
  startIndexMap := [0]
  indexVectorDim := 1
  sliceSizes := ![1, 4096]
  wf := gather_S4096x4096_S4096x1_S4096x4096_1_0_n_n_0_1_14096_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev spec0_0 : Pipeline.WinSpec sig grid0.rank :=
  Pipeline.WinSpec.ofSpec (Memref.whole main_v47) S1x1024x4096.size reads0_0 false false 2 stage0_0 sem0_0 nbuf0_0 hstage0_0

abbrev spec0_1 : Pipeline.WinSpec sig grid0.rank :=
  Pipeline.WinSpec.ofSpec (Memref.whole main_v47) S1x512x4096.size reads0_1 false false 2 stage0_1 sem0_1 nbuf0_1 hstage0_1

abbrev spec0_2 : Pipeline.WinSpec sig grid0.rank :=
  Pipeline.WinSpec.ofSpec (Memref.whole main_v48) S1x1024x1.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 inb_S1_S1_0 numel1_S1 pf | 1 => cc0_transform_1 inb_S1_S1_0 numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 inb_S1_S1_0 numel1_S1 pf i a + 1) * S1x1024x4096.size a ≤ S2x4096x4096.size a), EltTy.bits .bf16 = 32 ∨ (Rect.block (s := S2x4096x4096) S1x1024x4096.size (cc0_transform_0 inb_S1_S1_0 numel1_S1 pf i) h).WholeWords (EltTy.packing .bf16)) ∧
  (∀ i : grid0.Coords, ∃ h : (∀ a, (cc0_transform_1 inb_S1_S1_0 numel1_S1 pf i a + 1) * S1x512x4096.size a ≤ S2x4096x4096.size a), EltTy.bits .bf16 = 32 ∨ (Rect.block (s := S2x4096x4096) S1x512x4096.size (cc0_transform_1 inb_S1_S1_0 numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev idle0 (pf : pre0.Contents (Elt F)) : Fin 3 → grid0.Coords → Bool := fun | 0 => fun _ => false | 1 => fun _ => false | 2 => fun i => !(k0_cond1 i == 1#1) && !(k0_cond2 i (pf.atD 0 ![0]) == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4096x4096 : Shape := ⟨2, ![4096, 4096]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 91
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x64, .i32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S4096x64, .i32⟩
  | .hbm, ⟨33, _⟩ => ⟨S4096x64, .i1⟩
  | .hbm, ⟨34, _⟩ => ⟨S4096x64, .i32⟩
  | .hbm, ⟨35, _⟩ => ⟨S_, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S4096x1, .i1⟩
  | .hbm, ⟨41, _⟩ => ⟨S4096, .i1⟩
  | .hbm, ⟨42, _⟩ => ⟨S1x4096, .i1⟩
  | .hbm, ⟨43, _⟩ => ⟨S4096x4096, .i1⟩
  | .hbm, ⟨44, _⟩ => ⟨S4096x4096, .i1⟩
  | .hbm, ⟨45, _⟩ => ⟨S4096x4096, .i1⟩
  | .hbm, ⟨46, _⟩ => ⟨S4096x4096, .i32⟩
  | .hbm, ⟨47, _⟩ => ⟨S_, .i32⟩
  | .hbm, ⟨48, _⟩ => ⟨S_, .i32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S_, .f32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S_, .f32⟩
  | .hbm, ⟨77, _⟩ => ⟨S_, .f32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_11 : Ref sig .tc := ⟨.hbm, 65, rfl⟩
abbrev main_call2_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_c_14 : Ref sig .tc := ⟨.hbm, 78, rfl⟩
abbrev main_v50 : Ref sig .tc := ⟨.hbm, 79, rfl⟩
abbrev main_c_15 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_16 : Ref sig .tc := ⟨.hbm, 84, rfl⟩
abbrev main_call3_v0 : Ref sig .tc := ⟨.hbm, 85, rfl⟩
abbrev main_v54 : Ref sig .tc := ⟨.hbm, 86, rfl⟩
abbrev main_v55 : Ref sig .tc := ⟨.hbm, 87, rfl⟩
abbrev main_cst_17 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  natLt_1_32 : 1 < 32
  reducesTo_S4096x64_S4096_d1 : S4096x64.ReducesTo [1] S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_
  transposes_S4096x4096_S4096x4096_1_0 : S4096x4096.Transposes [1, 0] S4096x4096
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.TableBits.lean ====
/-
  The prefetched scalar is the number of rows marked negative. Both input windows' index maps read it, but only
  to choose between a grid coordinate and zero: a dead tile's block index is clamped to block 0. Whatever the
  scalar holds, the chosen block index is therefore below the grid extent on that axis, so every block lies inside
  the stacked [2, 4096, 4096] array; and a block of 1024 (or 512) whole rows starts at an even row and has an even
  number of rows, so its transfer moves whole words of the two-to-a-word element type. The pipeline's side condition
  on the table holds at EVERY contents of it.
-/
import proofs.«120018_j30030411333999_2_alg».proof.Proof.Gen.Kernel

noncomputable section

namespace Cert.Kernel.Table

open Cert.Kernel Cert.Kernel.Facts₀ Cert.Kernel.Facts Idealize.ShloMosaic

variable {F : FTy → Type} [FloatOps F]

/-- A selected value is one of the two it selects between. -/
theorem select_cases {α : Type} (c : BitVec 1) (a b : α) : Scalar.select c a b = a ∨ Scalar.select c a b = b := by
  unfold Scalar.select; split
  · exact Or.inl rfl
  · exact Or.inr rfl

/-- A small number survives the round trip through a 32-bit word. -/
theorem toNat_ofNat_small (n : Nat) (h : n < 4096) : (BitVec.ofNat 32 n).toNat = n := by
  rw [BitVec.toNat_ofNat]; exact Nat.mod_eq_of_lt (by omega)

/-- The clamped coordinate: the coordinate itself or zero, in either case below the extent. -/
theorem clamp_lt (c : BitVec 1) (b n : Nat) (hb : b < n) (hn : n ≤ 4096) :
    (Scalar.select c (BitVec.ofNat 32 b) (0#32)).toNat < n := by
  rcases select_cases c (BitVec.ofNat 32 b) (0#32) with e | e <;> rw [e]
  · rw [toNat_ofNat_small b (by omega)]; exact hb
  · show 0 < n; omega

/-- A block of 1024 whole rows at block index (a, w, 0), a < 2 and w < 4, lies inside the stacked array and is whole words. -/
theorem rowBlock_ok (a w : Nat) (ha : a < 2) (hw : w < 4) :
    ∃ h : (∀ x, ((![a, w, 0] : Fin 3 → Nat) x + 1) * S1x1024x4096.size x ≤ S2x4096x4096.size x),
      EltTy.bits .bf16 = 32 ∨ (Rect.block (s := S2x4096x4096) S1x1024x4096.size (![a, w, 0]) h).WholeWords (EltTy.packing .bf16) := by
  refine ⟨fun x => ?_, Or.inr (Or.inl (Or.inr ⟨by decide, rfl, Or.inl ⟨?_, ?_⟩⟩))⟩
  · fin_cases x
    · show (a + 1) * 1 ≤ 2; omega
    · show (w + 1) * 1024 ≤ 4096; omega
    · show (0 + 1) * 4096 ≤ 4096; omega
  · show 2 ∣ w * 1024; exact ⟨w * 512, by omega⟩
  · show 2 ∣ 1024; exact ⟨512, rfl⟩

/-- The same for a block of 512 whole rows at block index (a, w, 0), w < 8. -/
theorem colBlock_ok (a w : Nat) (ha : a < 2) (hw : w < 8) :
    ∃ h : (∀ x, ((![a, w, 0] : Fin 3 → Nat) x + 1) * S1x512x4096.size x ≤ S2x4096x4096.size x),
      EltTy.bits .bf16 = 32 ∨ (Rect.block (s := S2x4096x4096) S1x512x4096.size (![a, w, 0]) h).WholeWords (EltTy.packing .bf16) := by
  refine ⟨fun x => ?_, Or.inr (Or.inl (Or.inr ⟨by decide, rfl, Or.inl ⟨?_, ?_⟩⟩))⟩
  · fin_cases x
    · show (a + 1) * 1 ≤ 2; omega
    · show (w + 1) * 512 ≤ 4096; omega
    · show (0 + 1) * 4096 ≤ 4096; omega
  · show 2 ∣ w * 512; exact ⟨w * 256, by omega⟩
  · show 2 ∣ 512; exact ⟨256, rfl⟩

/-- The pipeline's side condition holds at every contents of the prefetched scalar. -/
theorem ok_all (pf : pre0.Contents (Elt F)) : ok0 (F := F) pf := by
  refine ⟨fun i => ?_, fun i => ?_⟩
  · have h0 : (i 0).val < 2 := (i 0).isLt
    have h1 : (i 1).val < 4 := (i 1).isLt
    obtain ⟨c, e⟩ : ∃ c : BitVec 1, cc0_transform_0 inb_S1_S1_0 numel1_S1 pf i
        = ![(BitVec.ofNat 32 (i 0).val).toNat, (Scalar.select c (BitVec.ofNat 32 (i 1).val) (0#32)).toNat, (0#32 : BitVec 32).toNat] := ⟨_, rfl⟩
    rw [e, toNat_ofNat_small _ (by omega)]
    exact rowBlock_ok _ _ h0 (clamp_lt c _ 4 h1 (by omega))
  · have h0 : (i 0).val < 2 := (i 0).isLt
    have h2 : (i 2).val < 8 := (i 2).isLt
    obtain ⟨c, e⟩ : ∃ c : BitVec 1, cc0_transform_1 inb_S1_S1_0 numel1_S1 pf i
        = ![(BitVec.ofNat 32 (i 0).val).toNat, (Scalar.select c (BitVec.ofNat 32 (i 2).val) (0#32)).toNat, (0#32 : BitVec 32).toNat] := ⟨_, rfl⟩
    rw [e, toNat_ofNat_small _ (by omega)]
    exact colBlock_ok _ _ h0 (clamp_lt c _ 8 h2 (by omega))

end Cert.Kernel.Table

end
-- ==== Proof.BodyBits.lean ====
/-
  The kernel body at one grid point, read only for what a frame needs. The body first resets its output block when
  the innermost coordinate is zero; then it loads the prefetched scalar and, only when the tile meets both the
  negative rows and the non-negative columns, loads the two row blocks and the running output block and stores the
  output block again. Whichever of the four ways the two tests fall, it reads the two input buffers and the scalar
  without changing them and leaves the output buffer at SOME contents. So: from any contents of the three staging
  buffers and of the scalar, the body runs to its end without a fault, returning the input buffers and the scalar as
  it found them.
-/
import proofs.«120018_j30030411333999_2_alg».proof.Proof.Gen.Kernel.Launch
import proofs.«120018_j30030411333999_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The prefetched scalar's buffer as the body is handed it: the whole buffer as a memref. -/
abbrev tbM : Memref sig .tc .smem S1 .i32 := Memref.whole main_v44
abbrev htbM : tbM.IsWhole := Memref.isWhole_whole _

/-- Its contents type on core `c`, and the buffer held at half the full share: the body only reads it. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f

/-- The word the body loads from the scalar's buffer. -/
abbrev word (c : Dev nD) (xt : TbBuf (F := F) c) : Elt F .i32 :=
  tbM.view.readAt (Elt F) (Rect.unit (s := S1) ![0] S1.size Gen.inb_S1_S1_0).toLoadRect xt (Shape.Idx.first (Gen.numel1_S1.symm ▸ Nat.one_pos))

set_option maxHeartbeats 2000000 in
/-- The body runs from any contents, returning the inputs and the scalar unchanged and the output at some contents:
    the two tests are split four ways, and in each the body's memory operations are run one after the other. -/
theorem runs (c : Dev nD) (i : grid0.Coords)
    (arg4 : Memref sig .tc .vmem S1x1024x4096 .bf16) (harg4 : arg4.IsWhole)
    (arg5 : Memref sig .tc .vmem S1x512x4096 .bf16) (harg5 : arg5.IsWhole)
    (arg6 : Memref sig .tc .vmem S1x1024x1 .f32) (harg6 : arg6.IsWhole)
    (x4 : Vec F S1x1024x4096 .bf16) (x5 : Vec F S1x512x4096 .bf16) (x6 : Vec F S1x1024x1 .f32) (xt : TbBuf (F := F) c)
    (E : Set ℕ) (K : PUnit → sProp 𝕄) :
    iprop(owns (c : Thread nD τ) arg4 fullShare x4 ∗ owns (c : Thread nD τ) arg5 fullShare x5 ∗ owns (c : Thread nD τ) arg6 fullShare x6 ∗ tbPt c xt
        ∗ (iprop(owns (c : Thread nD τ) arg4 fullShare x4 ∗ owns (c : Thread nD τ) arg5 fullShare x5
              ∗ (∃ f, arg6.view.loc (c : Thread nD τ) ↦[arg6.view.set]{fullShare} f) ∗ tbPt c xt) -∗ K ⟨⟩))
      ⊢ wp frame (wpE (defs₀ (F := F)) Variants.none c none) E (cc0__neg_error_kernel i tbM htbM arg4 harg4 arg5 harg5 arg6 harg6) K := by
  simp only [cc0__neg_error_kernel_eq_skeleton]; unfold cc0__neg_error_kernel_skel
  unfold owns
  iintro ⟨⟨%f4, %hf4, H4⟩, ⟨%f5, %hf5, H5⟩, ⟨%f6, %hf6, H6⟩, HT, Hk⟩
  obtain rfl := harg4.eq_unread hf4; obtain rfl := harg5.eq_unread hf5; obtain rfl := harg6.eq_unread hf6
  by_cases h1 : k0_cond1 i = 1#1 <;> by_cases h2 : k0_cond2 i (word c xt) = 1#1
  all_goals
    sl_exec (disch := first | exact h1 | sl_exact h2 | exact h2)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; iexact H6
    iexact HT

end Cert.Kernel.Body

end
-- ==== Proof.RegionBits.lean ====
/-
  The one pallas_call's region, as the pipeline library wants it described. @main is eight stretches of host
  operations (row norms, the normalised rows, the count of negative rows, the sort that brings the negative rows first,
  the two gathers and the stack), the call, and five stretches after it (the two sums and the final quotient). The call's
  table is the count of negative rows as those stretches leave it; it is admissible whatever it holds. The proof data
  say only what a frame needs: the two input windows stage blocks of ONE array, the stack, which the region only reads —
  each window holds half of it —, their buffers are left as found at every point, and of the output buffer nothing is
  said.
-/
import proofs.«120018_j30030411333999_2_alg».proof.Proof.TableBits
import proofs.«120018_j30030411333999_2_alg».proof.Proof.BodyBits
import Idealize.ShloMosaic.Lib.Pipeline.FrameSuffix

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

/-- The host stretches before the call, in order, and those after it. -/
abbrev preOps : List (List (HloOp τ sig (Elt F))) :=
  [hostOps0, hostOps0_1, hostOps0_2, hostOps0_3, hostOps0_4, hostOps0_5, hostOps0_6, hostOps0_7]
abbrev tailOps : List (List (HloOp τ sig (Elt F))) := [hostOps1, hostOps1_1, hostOps1_2, hostOps1_3, hostOps1_4]

/-- Core `c`'s buffers when the call is entered: the launch contents after the stretches before it. -/
abbrev V0 (c : Dev nD) : Valuation τ sig (Elt F) := StableHlo.after (preOps (F := F)).flatten (fun b => m (c, b))
abbrev V (c : Dev nD) (b : Ref sig .tc) : Buf (Elt F) ((c : Thread nD τ).loc b) := V0 m c (Proc.devRef .tc b)

theorem preOps_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub⟩

/-- No host operation allocates. -/
theorem preOps_fresh : (preOps (F := F)).Forall fun ops => ops.Forall fun op => op.fresh = ∅ := by
  simp only [List.Forall]; repeat' constructor

/-- @main reduces to the call continued by the later stretches, entered at the contents the earlier ones leave. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ((tailOps (F := F)).map StableHlo.seq)) :=
  Pipeline.hmainP_around pcfgs 0 defs₀ 𝒱₀ m main preOps tailOps preOps_sub preOps_fresh fun c => (main_chain c).trans rfl

/-! ## The table -/

/-- The count of negative rows as the call finds it (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- Admissible, whatever it holds; and the pipeline at it. -/
abbrev adm : (pcfg0 (F := F)).Adm := ⟨tbl m, Table.ok_all (tbl m)⟩
abbrev cfgM : Pipeline.Cfg sig Λ₀ := cfg0 (adm m)

/-- The table's half the region hands the body is the body's one table buffer. -/
theorem PhiT_eq (c : Dev nD) : (Pipeline.ΦT pre0 (tbl m) c : sProp 𝕄) = Body.tbPt c (tbl m 0) := by
  unfold Pipeline.ΦT Pipeline.prefHeld
  rw [show (Finset.univ : Finset (Fin 1)) = {(0 : Fin 1)} from by decide, bigSep_singleton]
  rfl

/-! ## The proof data -/

/-- The relational proof data on core `c`. -/
def rdat (c : Dev nD) : RDat τ (Elt F) Unit ℕ (UR sig nD τ) ℕ (cfgM m) c where
  A w := V m c (Pipeline.arrRef spec0 w)
  after w _ Y X := match w with
    | ⟨0, _⟩ => X = Y
    | ⟨1, _⟩ => X = Y
    | ⟨2, _⟩ => True
  Φ _ := iprop(Pipeline.ΦA spec0 c ∗ Pipeline.ΦT pre0 (tbl m) c)
  q w := match w with
    | ⟨0, _⟩ => fullShare.left
    | ⟨1, _⟩ => fullShare.right
    | ⟨2, _⟩ => fullShare
  owed _ := 0

/-- The body obligation: at every point, from any contents of the current buffers, the body runs and hands the input
    buffers back as found. -/
theorem body_obligation (c : Dev nD) : (rdat m c).BodyObligation (defs₀ (F := F)) Variants.none () Set.univ := by
  unfold RDat.BodyObligation
  intro t Y _
  rw [bigSep_W0, bigSep_W0]
  show iprop(iprop(Pipeline.ΦA spec0 c ∗ Pipeline.ΦT pre0 (tbl m) c) ∗ (rdat m c).owesAt () t.castSucc
      ∗ owns (c : Thread nD τ) (((cfgM m).win 0).stage ((cfgM m).slots t 0)) fullShare (Y 0)
      ∗ owns (c : Thread nD τ) (((cfgM m).win 1).stage ((cfgM m).slots t 1)) fullShare (Y 1)
      ∗ owns (c : Thread nD τ) (((cfgM m).win 2).stage ((cfgM m).slots t 2)) fullShare (Y 2)) ⊢ _
  rw [PhiT_eq]
  iintro ⟨⟨HΦ, HT⟩, Ho, H0, H1, H2⟩
  iapply (Body.runs c (grid0.coords t)
    (spec0_0.stage ((cfgM m).slots t 0)) (Facts₀.hstage0_0 (((cfgM m).slots t 0).cast Facts₀.nbuf0_0))
    (spec0_1.stage ((cfgM m).slots t 1)) (Facts₀.hstage0_1 (((cfgM m).slots t 1).cast Facts₀.nbuf0_1))
    (spec0_2.stage ((cfgM m).slots t 2)) (Facts₀.hstage0_2 (((cfgM m).slots t 2).cast Facts₀.nbuf0_2))
    (Y 0) (Y 1) (Y 2) (tbl m 0) Set.univ _)
  isplitl [H0]; · iexact H0
  isplitl [H1]; · iexact H1
  isplitl [H2]; · iexact H2
  isplitl [HT]; · iexact HT
  iintro ⟨H0, H1, ⟨%f, H2⟩, HT⟩
  rw [show (rdat m c).Φ t.succ = iprop(Pipeline.ΦA spec0 c ∗ Pipeline.ΦT pre0 (tbl m) c) from rfl]
  isplitl [HΦ HT]
  · isplitl [HΦ]
    · iexact HΦ
    · rw [PhiT_eq]; iexact HT
  isplitl [Ho]
  · iexact Ho
  isplitl [H0]
  · iexists _; isplitr
    · ipureintro; rfl
    · iexact H0
  isplitl [H1]
  · iexists _; isplitr
    · ipureintro; rfl
    · iexact H1
  iexists ((spec0_2.stage ((cfgM m).slots t 2)).view.read (Elt F) f); isplitr
  · ipureintro; trivial
  unfold owns; iexists f; isplitr
  · ipureintro; rfl
  iexact H2

end Cert.Kernel.Region

end
-- ==== Proof.ApartBits.lean ====
/-
  Which buffers each host operation touches and writes, told apart from the few buffers the frame cares about. Every host
  operation touches only the buffers its line names and writes only its result. So: no operation after the call touches the
  stack of normalised rows or the prefetched count; none writes the call's output array; and no operation, before or after
  the call, writes an argument array.
-/
import proofs.«120018_j30030411333999_2_alg».proof.Proof.Gen.Kernel.Launch
import Idealize.ShloMosaic.Lib.StableHlo.Run

set_option maxRecDepth 16384

noncomputable section

namespace Cert.Kernel.Apart

open Cert.Kernel Cert.Kernel.Gen
open Idealize.ShloMosaic Idealize.ShloMosaic.TcCoe

variable {F : FTy → Type} [FloatOps F]

/-- A reference is in none of a few given ones when it differs from each. -/
theorem apart1 {x a : Ref sig .tc} (ha : x ≠ a) :
    Proc.devRef (τ := τ) .tc x ∉ ({Proc.devRef .tc a} : Finset (DevRef τ sig)) := by
  rw [Finset.mem_singleton]; exact StableHlo.devRef_ne_of_ne ha
theorem apart2 {x a b : Ref sig .tc} (ha : x ≠ a) (hb : x ≠ b) :
    Proc.devRef (τ := τ) .tc x ∉ ({Proc.devRef .tc a, Proc.devRef .tc b} : Finset (DevRef τ sig)) := by
  simp only [Finset.mem_insert, Finset.mem_singleton, not_or]
  exact ⟨StableHlo.devRef_ne_of_ne ha, StableHlo.devRef_ne_of_ne hb⟩
theorem apart3 {x a b d : Ref sig .tc} (ha : x ≠ a) (hb : x ≠ b) (hd : x ≠ d) :
    Proc.devRef (τ := τ) .tc x ∉ ({Proc.devRef .tc a, Proc.devRef .tc b, Proc.devRef .tc d} : Finset (DevRef τ sig)) := by
  simp only [Finset.mem_insert, Finset.mem_singleton, not_or]
  exact ⟨StableHlo.devRef_ne_of_ne ha, StableHlo.devRef_ne_of_ne hb, StableHlo.devRef_ne_of_ne hd⟩
theorem apart4 {x a b d e : Ref sig .tc} (ha : x ≠ a) (hb : x ≠ b) (hd : x ≠ d) (he : x ≠ e) :
    Proc.devRef (τ := τ) .tc x ∉ ({Proc.devRef .tc a, Proc.devRef .tc b, Proc.devRef .tc d, Proc.devRef .tc e} : Finset (DevRef τ sig)) := by
  simp only [Finset.mem_insert, Finset.mem_singleton, not_or]
  exact ⟨StableHlo.devRef_ne_of_ne ha, StableHlo.devRef_ne_of_ne hb, StableHlo.devRef_ne_of_ne hd, StableHlo.devRef_ne_of_ne he⟩

/-- What the frame asks of an operation after the call. -/
abbrev TailOk (op : HloOp τ sig (Elt F)) : Prop :=
  Proc.devRef (τ := τ) .tc main_v47 ∉ op.bufs ∧ Proc.devRef (τ := τ) .tc main_v44 ∉ op.bufs
  ∧ Proc.devRef (τ := τ) .tc main_v48 ∉ op.writes ∧ Proc.devRef (τ := τ) .tc main_arg0 ∉ op.writes
  ∧ Proc.devRef (τ := τ) .tc main_arg1 ∉ op.writes ∧ Proc.devRef (τ := τ) .tc main_arg2 ∉ op.writes

/-- What it asks of an operation before the call. -/
abbrev PreOk (op : HloOp τ sig (Elt F)) : Prop :=
  Proc.devRef (τ := τ) .tc main_arg0 ∉ op.writes ∧ Proc.devRef (τ := τ) .tc main_arg1 ∉ op.writes
  ∧ Proc.devRef (τ := τ) .tc main_arg2 ∉ op.writes

theorem hostOps1_ok : (hostOps1 (F := F)).Forall TailOk :=
  ⟨⟨apart2 (by decide : main_v47 ≠ main_v48) (by decide : main_v47 ≠ main_v49), apart2 (by decide : main_v44 ≠ main_v48) (by decide : main_v44 ≠ main_v49), apart1 (by decide : main_v48 ≠ main_v49), apart1 (by decide : main_arg0 ≠ main_v49), apart1 (by decide : main_arg1 ≠ main_v49), apart1 (by decide : main_arg2 ≠ main_v49)⟩,
    ⟨apart2 (by decide : main_v47 ≠ main_v49) (by decide : main_v47 ≠ main_v50), apart2 (by decide : main_v44 ≠ main_v49) (by decide : main_v44 ≠ main_v50), apart1 (by decide : main_v48 ≠ main_v50), apart1 (by decide : main_arg0 ≠ main_v50), apart1 (by decide : main_arg1 ≠ main_v50), apart1 (by decide : main_arg2 ≠ main_v50)⟩,
    ⟨apart1 (by decide : main_v47 ≠ main_cst_14), apart1 (by decide : main_v44 ≠ main_cst_14), apart1 (by decide : main_v48 ≠ main_cst_14), apart1 (by decide : main_arg0 ≠ main_cst_14), apart1 (by decide : main_arg1 ≠ main_cst_14), apart1 (by decide : main_arg2 ≠ main_cst_14)⟩,
    ⟨apart3 (by decide : main_v47 ≠ main_v50) (by decide : main_v47 ≠ main_cst_14) (by decide : main_v47 ≠ main_v51), apart3 (by decide : main_v44 ≠ main_v50) (by decide : main_v44 ≠ main_cst_14) (by decide : main_v44 ≠ main_v51), apart1 (by decide : main_v48 ≠ main_v51), apart1 (by decide : main_arg0 ≠ main_v51), apart1 (by decide : main_arg1 ≠ main_v51), apart1 (by decide : main_arg2 ≠ main_v51)⟩,
    ⟨apart2 (by decide : main_v47 ≠ main_v48) (by decide : main_v47 ≠ main_v52), apart2 (by decide : main_v44 ≠ main_v48) (by decide : main_v44 ≠ main_v52), apart1 (by decide : main_v48 ≠ main_v52), apart1 (by decide : main_arg0 ≠ main_v52), apart1 (by decide : main_arg1 ≠ main_v52), apart1 (by decide : main_arg2 ≠ main_v52)⟩,
    ⟨apart2 (by decide : main_v47 ≠ main_v52) (by decide : main_v47 ≠ main_v53), apart2 (by decide : main_v44 ≠ main_v52) (by decide : main_v44 ≠ main_v53), apart1 (by decide : main_v48 ≠ main_v53), apart1 (by decide : main_arg0 ≠ main_v53), apart1 (by decide : main_arg1 ≠ main_v53), apart1 (by decide : main_arg2 ≠ main_v53)⟩,
    ⟨apart1 (by decide : main_v47 ≠ main_cst_15), apart1 (by decide : main_v44 ≠ main_cst_15), apart1 (by decide : main_v48 ≠ main_cst_15), apart1 (by decide : main_arg0 ≠ main_cst_15), apart1 (by decide : main_arg1 ≠ main_cst_15), apart1 (by decide : main_arg2 ≠ main_cst_15)⟩,
    ⟨apart3 (by decide : main_v47 ≠ main_v53) (by decide : main_v47 ≠ main_cst_15) (by decide : main_v47 ≠ main_v54), apart3 (by decide : main_v44 ≠ main_v53) (by decide : main_v44 ≠ main_cst_15) (by decide : main_v44 ≠ main_v54), apart1 (by decide : main_v48 ≠ main_v54), apart1 (by decide : main_arg0 ≠ main_v54), apart1 (by decide : main_arg1 ≠ main_v54), apart1 (by decide : main_arg2 ≠ main_v54)⟩,
    ⟨apart1 (by decide : main_v47 ≠ main_c_16), apart1 (by decide : main_v44 ≠ main_c_16), apart1 (by decide : main_v48 ≠ main_c_16), apart1 (by decide : main_arg0 ≠ main_c_16), apart1 (by decide : main_arg1 ≠ main_c_16), apart1 (by decide : main_arg2 ≠ main_c_16)⟩,
    ⟨apart3 (by decide : main_v47 ≠ main_v24) (by decide : main_v47 ≠ main_c_16) (by decide : main_v47 ≠ main_v55), apart3 (by decide : main_v44 ≠ main_v24) (by decide : main_v44 ≠ main_c_16) (by decide : main_v44 ≠ main_v55), apart1 (by decide : main_v48 ≠ main_v55), apart1 (by decide : main_arg0 ≠ main_v55), apart1 (by decide : main_arg1 ≠ main_v55), apart1 (by decide : main_arg2 ≠ main_v55)⟩,
    ⟨apart2 (by decide : main_v47 ≠ main_v55) (by decide : main_v47 ≠ main_v56), apart2 (by decide : main_v44 ≠ main_v55) (by decide : main_v44 ≠ main_v56), apart1 (by decide : main_v48 ≠ main_v56), apart1 (by decide : main_arg0 ≠ main_v56), apart1 (by decide : main_arg1 ≠ main_v56), apart1 (by decide : main_arg2 ≠ main_v56)⟩,
    ⟨apart1 (by decide : main_v47 ≠ main_c_17), apart1 (by decide : main_v44 ≠ main_c_17), apart1 (by decide : main_v48 ≠ main_c_17), apart1 (by decide : main_arg0 ≠ main_c_17), apart1 (by decide : main_arg1 ≠ main_c_17), apart1 (by decide : main_arg2 ≠ main_c_17)⟩,
    ⟨apart3 (by decide : main_v47 ≠ main_v24) (by decide : main_v47 ≠ main_c_17) (by decide : main_v47 ≠ main_v57), apart3 (by decide : main_v44 ≠ main_v24) (by decide : main_v44 ≠ main_c_17) (by decide : main_v44 ≠ main_v57), apart1 (by decide : main_v48 ≠ main_v57), apart1 (by decide : main_arg0 ≠ main_v57), apart1 (by decide : main_arg1 ≠ main_v57), apart1 (by decide : main_arg2 ≠ main_v57)⟩,
    ⟨apart3 (by decide : main_v47 ≠ main_v51) (by decide : main_v47 ≠ main_v56) (by decide : main_v47 ≠ main_v58), apart3 (by decide : main_v44 ≠ main_v51) (by decide : main_v44 ≠ main_v56) (by decide : main_v44 ≠ main_v58), apart1 (by decide : main_v48 ≠ main_v58), apart1 (by decide : main_arg0 ≠ main_v58), apart1 (by decide : main_arg1 ≠ main_v58), apart1 (by decide : main_arg2 ≠ main_v58)⟩,
    ⟨apart1 (by decide : main_v47 ≠ main_cst_18), apart1 (by decide : main_v44 ≠ main_cst_18), apart1 (by decide : main_v48 ≠ main_cst_18), apart1 (by decide : main_arg0 ≠ main_cst_18), apart1 (by decide : main_arg1 ≠ main_cst_18), apart1 (by decide : main_arg2 ≠ main_cst_18)⟩⟩

theorem hostOps1_1_ok : (hostOps1_1 (F := F)).Forall TailOk :=
  ⟨⟨apart2 (by decide : main_v47 ≠ main_cst_18) (by decide : main_v47 ≠ main_call4_v0), apart2 (by decide : main_v44 ≠ main_cst_18) (by decide : main_v44 ≠ main_call4_v0), apart1 (by decide : main_v48 ≠ main_call4_v0), apart1 (by decide : main_arg0 ≠ main_call4_v0), apart1 (by decide : main_arg1 ≠ main_call4_v0), apart1 (by decide : main_arg2 ≠ main_call4_v0)⟩,
    ⟨apart4 (by decide : main_v47 ≠ main_v57) (by decide : main_v47 ≠ main_v58) (by decide : main_v47 ≠ main_call4_v0) (by decide : main_v47 ≠ main_v59), apart4 (by decide : main_v44 ≠ main_v57) (by decide : main_v44 ≠ main_v58) (by decide : main_v44 ≠ main_call4_v0) (by decide : main_v44 ≠ main_v59), apart1 (by decide : main_v48 ≠ main_v59), apart1 (by decide : main_arg0 ≠ main_v59), apart1 (by decide : main_arg1 ≠ main_v59), apart1 (by decide : main_arg2 ≠ main_v59)⟩⟩

theorem hostOps1_2_ok : (hostOps1_2 (F := F)).Forall TailOk :=
  ⟨⟨apart1 (by decide : main_v47 ≠ main_c_19), apart1 (by decide : main_v44 ≠ main_c_19), apart1 (by decide : main_v48 ≠ main_c_19), apart1 (by decide : main_arg0 ≠ main_c_19), apart1 (by decide : main_arg1 ≠ main_c_19), apart1 (by decide : main_arg2 ≠ main_c_19)⟩,
    ⟨apart3 (by decide : main_v47 ≠ main_v24) (by decide : main_v47 ≠ main_c_19) (by decide : main_v47 ≠ main_v60), apart3 (by decide : main_v44 ≠ main_v24) (by decide : main_v44 ≠ main_c_19) (by decide : main_v44 ≠ main_v60), apart1 (by decide : main_v48 ≠ main_v60), apart1 (by decide : main_arg0 ≠ main_v60), apart1 (by decide : main_arg1 ≠ main_v60), apart1 (by decide : main_arg2 ≠ main_v60)⟩,
    ⟨apart3 (by decide : main_v47 ≠ main_v54) (by decide : main_v47 ≠ main_v56) (by decide : main_v47 ≠ main_v61), apart3 (by decide : main_v44 ≠ main_v54) (by decide : main_v44 ≠ main_v56) (by decide : main_v44 ≠ main_v61), apart1 (by decide : main_v48 ≠ main_v61), apart1 (by decide : main_arg0 ≠ main_v61), apart1 (by decide : main_arg1 ≠ main_v61), apart1 (by decide : main_arg2 ≠ main_v61)⟩,
    ⟨apart1 (by decide : main_v47 ≠ main_cst_20), apart1 (by decide : main_v44 ≠ main_cst_20), apart1 (by decide : main_v48 ≠ main_cst_20), apart1 (by decide : main_arg0 ≠ main_cst_20), apart1 (by decide : main_arg1 ≠ main_cst_20), apart1 (by decide : main_arg2 ≠ main_cst_20)⟩⟩

theorem hostOps1_3_ok : (hostOps1_3 (F := F)).Forall TailOk :=
  ⟨⟨apart2 (by decide : main_v47 ≠ main_cst_20) (by decide : main_v47 ≠ main_call5_v0), apart2 (by decide : main_v44 ≠ main_cst_20) (by decide : main_v44 ≠ main_call5_v0), apart1 (by decide : main_v48 ≠ main_call5_v0), apart1 (by decide : main_arg0 ≠ main_call5_v0), apart1 (by decide : main_arg1 ≠ main_call5_v0), apart1 (by decide : main_arg2 ≠ main_call5_v0)⟩,
    ⟨apart4 (by decide : main_v47 ≠ main_v60) (by decide : main_v47 ≠ main_v61) (by decide : main_v47 ≠ main_call5_v0) (by decide : main_v47 ≠ main_v62), apart4 (by decide : main_v44 ≠ main_v60) (by decide : main_v44 ≠ main_v61) (by decide : main_v44 ≠ main_call5_v0) (by decide : main_v44 ≠ main_v62), apart1 (by decide : main_v48 ≠ main_v62), apart1 (by decide : main_arg0 ≠ main_v62), apart1 (by decide : main_arg1 ≠ main_v62), apart1 (by decide : main_arg2 ≠ main_v62)⟩⟩

theorem hostOps1_4_ok : (hostOps1_4 (F := F)).Forall TailOk :=
  ⟨⟨apart3 (by decide : main_v47 ≠ main_v59) (by decide : main_v47 ≠ main_v62) (by decide : main_v47 ≠ main_v63), apart3 (by decide : main_v44 ≠ main_v59) (by decide : main_v44 ≠ main_v62) (by decide : main_v44 ≠ main_v63), apart1 (by decide : main_v48 ≠ main_v63), apart1 (by decide : main_arg0 ≠ main_v63), apart1 (by decide : main_arg1 ≠ main_v63), apart1 (by decide : main_arg2 ≠ main_v63)⟩,
    ⟨apart1 (by decide : main_v47 ≠ main_cst_21), apart1 (by decide : main_v44 ≠ main_cst_21), apart1 (by decide : main_v48 ≠ main_cst_21), apart1 (by decide : main_arg0 ≠ main_cst_21), apart1 (by decide : main_arg1 ≠ main_cst_21), apart1 (by decide : main_arg2 ≠ main_cst_21)⟩,
    ⟨apart3 (by decide : main_v47 ≠ main_cst_21) (by decide : main_v47 ≠ main_v63) (by decide : main_v47 ≠ main_v64), apart3 (by decide : main_v44 ≠ main_cst_21) (by decide : main_v44 ≠ main_v63) (by decide : main_v44 ≠ main_v64), apart1 (by decide : main_v48 ≠ main_v64), apart1 (by decide : main_arg0 ≠ main_v64), apart1 (by decide : main_arg1 ≠ main_v64), apart1 (by decide : main_arg2 ≠ main_v64)⟩,
    ⟨apart3 (by decide : main_v47 ≠ main_v14) (by decide : main_v47 ≠ main_v64) (by decide : main_v47 ≠ main_v65), apart3 (by decide : main_v44 ≠ main_v14) (by decide : main_v44 ≠ main_v64) (by decide : main_v44 ≠ main_v65), apart1 (by decide : main_v48 ≠ main_v65), apart1 (by decide : main_arg0 ≠ main_v65), apart1 (by decide : main_arg1 ≠ main_v65), apart1 (by decide : main_arg2 ≠ main_v65)⟩⟩

theorem hostOps0_ok : (hostOps0 (F := F)).Forall PreOk :=
  ⟨⟨apart1 (by decide : main_arg0 ≠ main_call0_v0), apart1 (by decide : main_arg1 ≠ main_call0_v0), apart1 (by decide : main_arg2 ≠ main_call0_v0)⟩,
    ⟨apart1 (by decide : main_arg0 ≠ main_call0_cst), apart1 (by decide : main_arg1 ≠ main_call0_cst), apart1 (by decide : main_arg2 ≠ main_call0_cst)⟩,
    ⟨apart1 (by decide : main_arg0 ≠ main_call0_v1), apart1 (by decide : main_arg1 ≠ main_call0_v1), apart1 (by decide : main_arg2 ≠ main_call0_v1)⟩,
    ⟨apart1 (by decide : main_arg0 ≠ main_call0_v2), apart1 (by decide : main_arg1 ≠ main_call0_v2), apart1 (by decide : main_arg2 ≠ main_call0_v2)⟩,
    ⟨apart1 (by decide : main_arg0 ≠ main_v0), apart1 (by decide : main_arg1 ≠ main_v0), apart1 (by decide : main_arg2 ≠ main_v0)⟩⟩

theorem hostOps0_1_ok : (hostOps0_1 (F := F)).Forall PreOk :=
  ⟨⟨apart1 (by decide : main_arg0 ≠ main_v1), apart1 (by decide : main_arg1 ≠ main_v1), apart1 (by decide : main_arg2 ≠ main_v1)⟩,
    ⟨apart1 (by decide : main_arg0 ≠ main_v2), apart1 (by decide : main_arg1 ≠ main_v2), apart1 (by decide : main_arg2 ≠ main_v2)⟩⟩

theorem hostOps0_2_ok : (hostOps0_2 (F := F)).Forall PreOk :=
  ⟨⟨apart1 (by decide : main_arg0 ≠ main_call1_v0), apart1 (by decide : main_arg1 ≠ main_call1_v0), apart1 (by decide : main_arg2 ≠ main_call1_v0)⟩,
    ⟨apart1 (by decide : main_arg0 ≠ main_call1_cst), apart1 (by decide : main_arg1 ≠ main_call1_cst), apart1 (by decide : main_arg2 ≠ main_call1_cst)⟩,
    ⟨apart1 (by decide : main_arg0 ≠ main_call1_v1), apart1 (by decide : main_arg1 ≠ main_call1_v1), apart1 (by decide : main_arg2 ≠ main_call1_v1)⟩,
    ⟨apart1 (by decide : main_arg0 ≠ main_call1_v2), apart1 (by decide : main_arg1 ≠ main_call1_v2), apart1 (by decide : main_arg2 ≠ main_call1_v2)⟩,
    ⟨apart1 (by decide : main_arg0 ≠ main_v3), apart1 (by decide : main_arg1 ≠ main_v3), apart1 (by decide : main_arg2 ≠ main_v3)⟩⟩

theorem hostOps0_3_ok : (hostOps0_3 (F := F)).Forall PreOk :=
  ⟨⟨apart1 (by decide : main_arg0 ≠ main_v4), apart1 (by decide : main_arg1 ≠ main_v4), apart1 (by decide : main_arg2 ≠ main_v4)⟩,
    ⟨apart1 (by decide : main_arg0 ≠ main_v5), apart1 (by decide : main_arg1 ≠ main_v5), apart1 (by decide : main_arg2 ≠ main_v5)⟩,
    ⟨apart1 (by decide : main_arg0 ≠ main_v6), apart1 (by decide : main_arg1 ≠ main_v6), apart1 (by decide : main_arg2 ≠ main_v6)⟩,
    ⟨apart1 (by decide : main_arg0 ≠ main_cst), apart1 (by decide : main_arg1 ≠ main_cst), apart1 (by decide : main_arg2 ≠ main_cst)⟩,
    ⟨apart1 (by decide : main_arg0 ≠ main_v7), apart1 (by decide : main_arg1 ≠ main_v7), apart1 (by decide : main_arg2 ≠ main_v7)⟩,
    ⟨apart1 (by decide : main_arg0 ≠ main_cst_0), apart1 (by decide : main_arg1 ≠ main_cst_0), apart1 (by decide : main_arg2 ≠ main_cst_0)⟩,
    ⟨apart1 (by decide : main_arg0 ≠ main_v8), apart1 (by decide : main_arg1 ≠ main_v8), apart1 (by decide : main_arg2 ≠ main_v8)⟩,
    ⟨apart1 (by decide : main_arg0 ≠ main_v9), apart1 (by decide : main_arg1 ≠ main_v9), apart1 (by decide : main_arg2 ≠ main_v9)⟩,
    ⟨apart1 (by decide : main_arg0 ≠ main_cst_1), apart1 (by decide : main_arg1 ≠ main_cst_1), apart1 (by decide : main_arg2 ≠ main_cst_1)⟩,
    ⟨apart1 (by decide : main_arg0 ≠ main_v10), apart1 (by decide : main_arg1 ≠ main_v10), apart1 (by decide : main_arg2 ≠ main_v10)⟩,
    ⟨apart1 (by decide : main_arg0 ≠ main_v11), apart1 (by decide : main_arg1 ≠ main_v11), apart1 (by decide : main_arg2 ≠ main_v11)⟩,
    ⟨apart1 (by decide : main_arg0 ≠ main_v12), apart1 (by decide : main_arg1 ≠ main_v12), apart1 (by decide : main_arg2 ≠ main_v12)⟩,
    ⟨apart1 (by decide : main_arg0 ≠ main_cst_2), apart1 (by decide : main_arg1 ≠ main_cst_2), apart1 (by decide : main_arg2 ≠ main_cst_2)⟩,
    ⟨apart1 (by decide : main_arg0 ≠ main_v13), apart1 (by decide : main_arg1 ≠ main_v13), apart1 (by decide : main_arg2 ≠ main_v13)⟩,
    ⟨apart1 (by decide : main_arg0 ≠ main_cst_3), apart1 (by decide : main_arg1 ≠ main_cst_3), apart1 (by decide : main_arg2 ≠ main_cst_3)⟩,
    ⟨apart1 (by decide : main_arg0 ≠ main_v14), apart1 (by decide : main_arg1 ≠ main_v14), apart1 (by decide : main_arg2 ≠ main_v14)⟩,
    ⟨apart1 (by decide : main_arg0 ≠ main_c), apart1 (by decide : main_arg1 ≠ main_c), apart1 (by decide : main_arg2 ≠ main_c)⟩,
    ⟨apart1 (by decide : main_arg0 ≠ main_v15), apart1 (by decide : main_arg1 ≠ main_v15), apart1 (by decide : main_arg2 ≠ main_v15)⟩,
    ⟨apart1 (by decide : main_arg0 ≠ main_v16), apart1 (by decide : main_arg1 ≠ main_v16), apart1 (by decide : main_arg2 ≠ main_v16)⟩,
    ⟨apart1 (by decide : main_arg0 ≠ main_v17), apart1 (by decide : main_arg1 ≠ main_v17), apart1 (by decide : main_arg2 ≠ main_v17)⟩,
    ⟨apart1 (by decide : main_arg0 ≠ main_c_4), apart1 (by decide : main_arg1 ≠ main_c_4), apart1 (by decide : main_arg2 ≠ main_c_4)⟩,
    ⟨apart1 (by decide : main_arg0 ≠ main_v18), apart1 (by decide : main_arg1 ≠ main_v18), apart1 (by decide : main_arg2 ≠ main_v18)⟩,
    ⟨apart1 (by decide : main_arg0 ≠ main_c_5), apart1 (by decide : main_arg1 ≠ main_c_5), apart1 (by decide : main_arg2 ≠ main_c_5)⟩,
    ⟨apart1 (by decide : main_arg0 ≠ main_v19), apart1 (by decide : main_arg1 ≠ main_v19), apart1 (by decide : main_arg2 ≠ main_v19)⟩,
    ⟨apart1 (by decide : main_arg0 ≠ main_v20), apart1 (by decide : main_arg1 ≠ main_v20), apart1 (by decide : main_arg2 ≠ main_v20)⟩,
    ⟨apart1 (by decide : main_arg0 ≠ main_v21), apart1 (by decide : main_arg1 ≠ main_v21), apart1 (by decide : main_arg2 ≠ main_v21)⟩,
    ⟨apart1 (by decide : main_arg0 ≠ main_c_6), apart1 (by decide : main_arg1 ≠ main_c_6), apart1 (by decide : main_arg2 ≠ main_c_6)⟩,
    ⟨apart1 (by decide : main_arg0 ≠ main_v22), apart1 (by decide : main_arg1 ≠ main_v22), apart1 (by decide : main_arg2 ≠ main_v22)⟩,
    ⟨apart1 (by decide : main_arg0 ≠ main_c_7), apart1 (by decide : main_arg1 ≠ main_c_7), apart1 (by decide : main_arg2 ≠ main_c_7)⟩,
    ⟨apart1 (by decide : main_arg0 ≠ main_v23), apart1 (by decide : main_arg1 ≠ main_v23), apart1 (by decide : main_arg2 ≠ main_v23)⟩,
    ⟨apart1 (by decide : main_arg0 ≠ main_v24), apart1 (by decide : main_arg1 ≠ main_v24), apart1 (by decide : main_arg2 ≠ main_v24)⟩,
    ⟨apart1 (by decide : main_arg0 ≠ main_c_8), apart1 (by decide : main_arg1 ≠ main_c_8), apart1 (by decide : main_arg2 ≠ main_c_8)⟩,
    ⟨apart1 (by decide : main_arg0 ≠ main_c_9), apart1 (by decide : main_arg1 ≠ main_c_9), apart1 (by decide : main_arg2 ≠ main_c_9)⟩⟩

theorem hostOps0_4_ok : (hostOps0_4 (F := F)).Forall PreOk :=
  ⟨⟨apart1 (by decide : main_arg0 ≠ main_call2_v0), apart1 (by decide : main_arg1 ≠ main_call2_v0), apart1 (by decide : main_arg2 ≠ main_call2_v0)⟩,
    ⟨apart1 (by decide : main_arg0 ≠ main_call2_v1), apart1 (by decide : main_arg1 ≠ main_call2_v1), apart1 (by decide : main_arg2 ≠ main_call2_v1)⟩,
    ⟨apart1 (by decide : main_arg0 ≠ main_v25), apart1 (by decide : main_arg1 ≠ main_v25), apart1 (by decide : main_arg2 ≠ main_v25)⟩⟩

theorem hostOps0_5_ok : (hostOps0_5 (F := F)).Forall PreOk :=
  ⟨apart1 (by decide : main_arg0 ≠ main_v26), apart1 (by decide : main_arg1 ≠ main_v26), apart1 (by decide : main_arg2 ≠ main_v26)⟩

theorem hostOps0_6_ok : (hostOps0_6 (F := F)).Forall PreOk :=
  ⟨⟨apart1 (by decide : main_arg0 ≠ main_call3_v0), apart1 (by decide : main_arg1 ≠ main_call3_v0), apart1 (by decide : main_arg2 ≠ main_call3_v0)⟩,
    ⟨apart1 (by decide : main_arg0 ≠ main_call3_v1_0), apart1 (by decide : main_arg1 ≠ main_call3_v1_0), apart1 (by decide : main_arg2 ≠ main_call3_v1_0)⟩,
    ⟨apart1 (by decide : main_arg0 ≠ main_v27), apart1 (by decide : main_arg1 ≠ main_v27), apart1 (by decide : main_arg2 ≠ main_v27)⟩⟩

theorem hostOps0_7_ok : (hostOps0_7 (F := F)).Forall PreOk :=
  ⟨⟨apart1 (by decide : main_arg0 ≠ main_v28), apart1 (by decide : main_arg1 ≠ main_v28), apart1 (by decide : main_arg2 ≠ main_v28)⟩,
    ⟨apart1 (by decide : main_arg0 ≠ main_c_10), apart1 (by decide : main_arg1 ≠ main_c_10), apart1 (by decide : main_arg2 ≠ main_c_10)⟩,
    ⟨apart1 (by decide : main_arg0 ≠ main_v29), apart1 (by decide : main_arg1 ≠ main_v29), apart1 (by decide : main_arg2 ≠ main_v29)⟩,
    ⟨apart1 (by decide : main_arg0 ≠ main_v30), apart1 (by decide : main_arg1 ≠ main_v30), apart1 (by decide : main_arg2 ≠ main_v30)⟩,
    ⟨apart1 (by decide : main_arg0 ≠ main_c_11), apart1 (by decide : main_arg1 ≠ main_c_11), apart1 (by decide : main_arg2 ≠ main_c_11)⟩,
    ⟨apart1 (by decide : main_arg0 ≠ main_v31), apart1 (by decide : main_arg1 ≠ main_v31), apart1 (by decide : main_arg2 ≠ main_v31)⟩,
    ⟨apart1 (by decide : main_arg0 ≠ main_v32), apart1 (by decide : main_arg1 ≠ main_v32), apart1 (by decide : main_arg2 ≠ main_v32)⟩,
    ⟨apart1 (by decide : main_arg0 ≠ main_v33), apart1 (by decide : main_arg1 ≠ main_v33), apart1 (by decide : main_arg2 ≠ main_v33)⟩,
    ⟨apart1 (by decide : main_arg0 ≠ main_v34), apart1 (by decide : main_arg1 ≠ main_v34), apart1 (by decide : main_arg2 ≠ main_v34)⟩,
    ⟨apart1 (by decide : main_arg0 ≠ main_v35), apart1 (by decide : main_arg1 ≠ main_v35), apart1 (by decide : main_arg2 ≠ main_v35)⟩,
    ⟨apart1 (by decide : main_arg0 ≠ main_v36), apart1 (by decide : main_arg1 ≠ main_v36), apart1 (by decide : main_arg2 ≠ main_v36)⟩,
    ⟨apart1 (by decide : main_arg0 ≠ main_c_12), apart1 (by decide : main_arg1 ≠ main_c_12), apart1 (by decide : main_arg2 ≠ main_c_12)⟩,
    ⟨apart1 (by decide : main_arg0 ≠ main_v37), apart1 (by decide : main_arg1 ≠ main_v37), apart1 (by decide : main_arg2 ≠ main_v37)⟩,
    ⟨apart1 (by decide : main_arg0 ≠ main_v38), apart1 (by decide : main_arg1 ≠ main_v38), apart1 (by decide : main_arg2 ≠ main_v38)⟩,
    ⟨apart1 (by decide : main_arg0 ≠ main_c_13), apart1 (by decide : main_arg1 ≠ main_c_13), apart1 (by decide : main_arg2 ≠ main_c_13)⟩,
    ⟨apart1 (by decide : main_arg0 ≠ main_v39), apart1 (by decide : main_arg1 ≠ main_v39), apart1 (by decide : main_arg2 ≠ main_v39)⟩,
    ⟨apart1 (by decide : main_arg0 ≠ main_v40), apart1 (by decide : main_arg1 ≠ main_v40), apart1 (by decide : main_arg2 ≠ main_v40)⟩,
    ⟨apart1 (by decide : main_arg0 ≠ main_v41), apart1 (by decide : main_arg1 ≠ main_v41), apart1 (by decide : main_arg2 ≠ main_v41)⟩,
    ⟨apart1 (by decide : main_arg0 ≠ main_v42), apart1 (by decide : main_arg1 ≠ main_v42), apart1 (by decide : main_arg2 ≠ main_v42)⟩,
    ⟨apart1 (by decide : main_arg0 ≠ main_v43), apart1 (by decide : main_arg1 ≠ main_v43), apart1 (by decide : main_arg2 ≠ main_v43)⟩,
    ⟨apart1 (by decide : main_arg0 ≠ main_v44), apart1 (by decide : main_arg1 ≠ main_v44), apart1 (by decide : main_arg2 ≠ main_v44)⟩,
    ⟨apart1 (by decide : main_arg0 ≠ main_v45), apart1 (by decide : main_arg1 ≠ main_v45), apart1 (by decide : main_arg2 ≠ main_v45)⟩,
    ⟨apart1 (by decide : main_arg0 ≠ main_v46), apart1 (by decide : main_arg1 ≠ main_v46), apart1 (by decide : main_arg2 ≠ main_v46)⟩,
    ⟨apart1 (by decide : main_arg0 ≠ main_v47), apart1 (by decide : main_arg1 ≠ main_v47), apart1 (by decide : main_arg2 ≠ main_v47)⟩⟩

end Cert.Kernel.Apart

end
-- ==== Proof.RunBits.lean ====
/-
  The frame of the whole program. The launch hands the region the distinct buffers behind its windows whole: the stack of
  normalised rows and the output. The stack is read through two windows, so its full share is cut in two halves, one per
  window; the region never writes it, and both halves come back. The host operations after the call read the output and
  scalars only — never the stack — so they run holding the output and the buffers that bypassed the region, the two halves
  set aside. No host operation, before or after the call, writes an argument array, and no window stages one: the three
  arguments end as they were launched.
-/
import proofs.«120018_j30030411333999_2_alg».proof.Proof.RegionBits
import proofs.«120018_j30030411333999_2_alg».proof.Proof.ApartBits

set_option maxRecDepth 16384

noncomputable section

namespace Cert.Kernel.Run

open Cert.Kernel Cert.Kernel.Gen Cert.Kernel.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers behind the windows -/

/-- Two distinct buffers stand behind the three windows. -/
theorem arr_image : Finset.univ.image (Pipeline.arrRef spec0) = insert main_v47 {main_v48} := by decide

/-- The data's arrays, window by window: the stack at one half and at the other, the output whole. (Each window's array is
    a whole buffer, so its element set is every index: rewritten so, never evaluated.) -/
theorem arrays_form (c : Dev nD) (G : (w : Fin (cfgM m).W) → Buf (Elt F) (((cfgM m).win w).arr.view.loc (c.tc : Thread nD τ))) :
    ((rdat m c).arrays G : sProp 𝕄) = iprop(((((cfgM m).win 0).arr.view.loc (c.tc : Thread nD τ)) ↦{fullShare.left} G 0)
      ∗ ((((cfgM m).win 1).arr.view.loc (c.tc : Thread nD τ)) ↦{fullShare.right} G 1)
      ∗ ((((cfgM m).win 2).arr.view.loc (c.tc : Thread nD τ)) ↦{fullShare} G 2)) := by
  have e0 : ((cfgM m).win (0 : Fin 3)).arr.view.set = Finset.univ := (arr_whole0 0).set_eq_univ
  have e2 : ((cfgM m).win (2 : Fin 3)).arr.view.set = Finset.univ := (arr_whole0 2).set_eq_univ
  have s0 : (rdat m c).share (0 : Fin 3) = fullShare.left := rfl
  have s1 : (rdat m c).share (1 : Fin 3) = fullShare.right := rfl
  have s2 : (rdat m c).share (2 : Fin 3) = fullShare := rfl
  unfold RDat.arrays
  rw [bigSep_W0, e0, e2, s0, s1, s2]
  rfl

/-- The stack's full share is dealt to the two windows that read it; the output keeps its own. (The entry contents are
    abstracted to a variable first: they are a long composition of host operations, which nothing here needs to open.) -/
theorem hsplit (c : Dev nD) : (Pipeline.arrBufs (cfgM m).spec c (V m c) : sProp 𝕄) ⊢ (rdat m c).arrays (rdat m c).A := by
  rw [arrays_form]
  obtain ⟨Vc, hVc⟩ : ∃ Vc : (b : Ref sig .tc) → Buf (Elt F) ((c.tc : Thread nD τ).loc b), Vc = V m c := ⟨_, rfl⟩
  have hA : ∀ w, (rdat m c).A w = Vc (Pipeline.arrRef spec0 w) := fun w => by rw [hVc]; dsimp only [rdat]
  rw [hA 0, hA 1, hA 2, ← hVc]
  unfold Pipeline.arrBufs
  rw [show Finset.univ.image (Pipeline.arrRef (cfgM m).spec) = insert main_v47 {main_v48} from arr_image,
    bigSep_insert (by decide), bigSep_singleton]
  show iprop((((c.tc : Thread nD τ).loc main_v47) ↦{fullShare} Vc main_v47) ∗ (((c.tc : Thread nD τ).loc main_v48) ↦{fullShare} Vc main_v48))
    ⊢ iprop((((c.tc : Thread nD τ).loc main_v47) ↦{fullShare.left} Vc main_v47)
      ∗ (((c.tc : Thread nD τ).loc main_v47) ↦{fullShare.right} Vc main_v47) ∗ (((c.tc : Thread nD τ).loc main_v48) ↦{fullShare} Vc main_v48))
  iintro ⟨H47, H48⟩
  ihave H := (pointsTo_share (PosShare.mem_left_op_right fullShare)).1 $$ H47
  icases H with ⟨Hl, Hr⟩
  isplitl [Hl]
  · iexact Hl
  isplitl [Hr]
  · iexact Hr
  iexact H48

/-! ## The lines after the call -/

/-- The output window alone: the one array those lines read. -/
abbrev winO : Fin 1 → Pipeline.WinSpec sig grid0.rank := fun _ => spec0_2
theorem winO_inj : Function.Injective (Pipeline.arrRef winO) := fun a b _ => Subsingleton.elim a b

/-- What bypasses the output window, the stack set aside, is what bypasses all three windows. -/
theorem rest_eq : Pipeline.restRefsP sig pre0 winO \ {main_v47} = Pipeline.restRefsP sig pre0 spec0 := by decide +kernel

/-- A property of every operation of the five stretches, stretch by stretch. -/
theorem tail_all {P : HloOp τ sig (Elt F) → Prop} (h0 : (hostOps1 (F := F)).Forall P) (h1 : (hostOps1_1 (F := F)).Forall P)
    (h2 : (hostOps1_2 (F := F)).Forall P) (h3 : (hostOps1_3 (F := F)).Forall P) (h4 : (hostOps1_4 (F := F)).Forall P) :
    ∀ ops ∈ tailOps (F := F), ∀ op ∈ ops, P op := by
  intro ops hops op hop
  simp only [tailOps, List.mem_cons, List.mem_nil_iff, or_false] at hops
  rcases hops with rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop

theorem tail_ok : ∀ ops ∈ tailOps (F := F), ∀ op ∈ ops, Apart.TailOk op :=
  tail_all Apart.hostOps1_ok Apart.hostOps1_1_ok Apart.hostOps1_2_ok Apart.hostOps1_3_ok Apart.hostOps1_4_ok
theorem tail_tc : ∀ ops ∈ tailOps (F := F), ∀ op ∈ ops, op.bufs ⊆ StableHlo.tcRefs τ sig :=
  tail_all hostOps1_sub hostOps1_1_sub hostOps1_2_sub hostOps1_3_sub hostOps1_4_sub
theorem tail_fresh : ∀ ops ∈ tailOps (F := F), ∀ op ∈ ops, op.fresh = ∅ :=
  tail_all (by simp only [List.Forall]; repeat' constructor) (by simp only [List.Forall]; repeat' constructor)
    (by simp only [List.Forall]; repeat' constructor) (by simp only [List.Forall]; repeat' constructor)
    (by simp only [List.Forall]; repeat' constructor)

/-- Those lines touch the output, and what bypassed the region but the stack and the table. -/
theorem tail_sub : ∀ ops ∈ tailOps (F := F), ∀ op ∈ ops, op.bufs ⊆ Pipeline.tailRefsBut sig pre0 winO {main_v47} :=
  fun ops ho op h => Pipeline.sub_tailRefsBut pre0 winO {main_v47} op (tail_tc ops ho op h)
    (fun k => by obtain rfl : k = 0 := Subsingleton.elim _ _; exact (tail_ok ops ho op h).2.1)
    (fun b hb => by rw [Finset.mem_singleton] at hb; subst hb; exact (tail_ok ops ho op h).1)
theorem tail_keeps : ∀ ops ∈ tailOps (F := F), ∀ op ∈ ops, ∀ w, Proc.devRef .tc (Pipeline.arrRef winO w) ∉ op.writes :=
  fun ops ho op h w => by obtain rfl : w = 0 := Subsingleton.elim _ _; exact (tail_ok ops ho op h).2.2.1

/-- What the lines after the call hand back of the buffers that bypassed the region, entered at contents `Vc`: some
    contents, the argument arrays' as they were when the call was entered. -/
def ZafterOf (c : Dev nD) (Vc : Valuation τ sig (Elt F)) : sProp 𝕄 :=
  iprop(∃ G : (b : Ref sig .tc) → Buf (Elt F) ((c.tc : Thread nD τ).loc b),
    ⌜G main_arg0 = Vc (Proc.devRef .tc main_arg0) ∧ G main_arg1 = Vc (Proc.devRef .tc main_arg1) ∧ G main_arg2 = Vc (Proc.devRef .tc main_arg2)⌝
      ∗ Pipeline.unscopedRestP pre0 (cfgM m).spec c G)
abbrev Zafter (c : Dev nD) : sProp 𝕄 := ZafterOf m c (V0 m c)

set_option maxHeartbeats 1000000 in
/-- The lines after the call: they run holding the output array and what bypassed the region (the stack's halves set
    aside), write neither the output nor an argument, and hand everything back. -/
theorem htail_of (c : Dev nD) (Vc : Valuation τ sig (Elt F)) (Q' : PUnit → sProp 𝕄) :
    iprop((iprop((rdat m c).arraysAt (cfgM m).N ∗ ZafterOf m c Vc) -∗ Q' ⟨⟩)
        ∗ boundary (c.tc : Thread nD τ) ∗ (rdat m c).arraysAt (cfgM m).N
        ∗ Pipeline.unscopedRestP pre0 (cfgM m).spec c (fun b => Vc (Proc.devRef .tc b)))
      ⊢ wp frame (wpE (Pipeline.defs pcfgs (defs₀ (F := F))) (Variants.lift Variants.none) (c.tc : Thread nD τ) none) Set.univ
          (Pipeline.chain ((tailOps (F := F)).map StableHlo.seq)) Q' := by
  classical
  have e0 : ((cfgM m).win (0 : Fin 3)).arr.view.set = Finset.univ := (arr_whole0 0).set_eq_univ
  have e2 : ((cfgM m).win (2 : Fin 3)).arr.view.set = Finset.univ := (arr_whole0 2).set_eq_univ
  have s2 : (rdat m c).share (2 : Fin 3) = fullShare := rfl
  have hP : ∀ A : Buf (Elt F) (((cfgM m).win (2 : Fin 3)).arr.view.loc (c.tc : Thread nD τ)),
      (Pipeline.arrPts winO c (fun _ => A) : sProp 𝕄) = ((((cfgM m).win (2 : Fin 3)).arr.view.loc (c.tc : Thread nD τ)) ↦{fullShare} A) := fun A => by
    unfold Pipeline.arrPts
    rw [show (Finset.univ : Finset (Fin 1)) = {(0 : Fin 1)} from by decide, bigSep_singleton]
  unfold RDat.arraysAt
  rw [bigSep_W0, e0, e2, s2]
  iintro ⟨Hk, Hb, ⟨⟨%A0, %h0, H0⟩, ⟨%A1, %h1, H1⟩, ⟨%A2, %h2, H2⟩⟩, HZ⟩
  have T := Pipeline.tail_seqs_but pcfgs (defs₀ (F := F)) Variants.none pre0 winO winO_inj {main_v47} c Vc (fun _ => A2)
    (tailOps (F := F)) tail_sub tail_fresh tail_keeps Q'
  rw [hP A2, rest_eq] at T
  iapply T
  isplitl [Hk H0 H1]
  · iintro ⟨Ha, Hr⟩
    iapply Hk
    isplitl [H0 H1 Ha]
    · isplitl [H0]
      · iexists A0; isplitr
        · ipureintro; exact h0
        · iexact H0
      isplitl [H1]
      · iexists A1; isplitr
        · ipureintro; exact h1
        · iexact H1
      iexists A2; isplitr
      · ipureintro; exact h2
      · iexact Ha
    · unfold ZafterOf
      iexists (fun b => StableHlo.after (tailOps (F := F)).flatten (Pipeline.withArrays winO c Vc (fun _ => A2)) (Proc.devRef .tc b))
      isplitr
      · ipureintro
        have key : ∀ b : Ref sig .tc, (∀ ops ∈ tailOps (F := F), ∀ op ∈ ops, Proc.devRef (τ := τ) .tc b ∉ op.writes) → b ≠ main_v48 →
            StableHlo.after (tailOps (F := F)).flatten (Pipeline.withArrays winO c Vc (fun _ => A2)) (Proc.devRef .tc b) = Vc (Proc.devRef .tc b) := by
          intro b hw hb
          rw [StableHlo.after_of_forall_not_mem _ _ (fun op hop => by
              obtain ⟨ops, hops, hop'⟩ := List.mem_flatten.mp hop
              exact hw ops hops op hop'),
            Pipeline.withArrays_of_ne winO c Vc (fun _ => A2) b (fun w e => hb (by obtain rfl : w = 0 := Subsingleton.elim _ _; exact e.symm))]
        exact ⟨key main_arg0 (fun ops ho op h => (tail_ok ops ho op h).2.2.2.1) (by decide),
          key main_arg1 (fun ops ho op h => (tail_ok ops ho op h).2.2.2.2.1) (by decide),
          key main_arg2 (fun ops ho op h => (tail_ok ops ho op h).2.2.2.2.2) (by decide)⟩
      · unfold Pipeline.unscopedRestP
        iexact Hr
  · isplitl [Hb]
    · iexact Hb
    isplitl [H2]
    · iexact H2
    · unfold Pipeline.unscopedRestP
      iexact HZ

/-- At the contents the stretches before the call leave. -/
theorem htail (c : Dev nD) (Q' : PUnit → sProp 𝕄) :
    iprop((iprop((rdat m c).arraysAt (cfgM m).N ∗ Zafter m c) -∗ Q' ⟨⟩)
        ∗ boundary (c.tc : Thread nD τ) ∗ (rdat m c).arraysAt (cfgM m).N ∗ Pipeline.unscopedRestP pre0 (cfgM m).spec c (V m c))
      ⊢ wp frame (wpE (Pipeline.defs pcfgs (defs₀ (F := F))) (Variants.lift Variants.none) (c.tc : Thread nD τ) none) Set.univ
          (Pipeline.chain ((tailOps (F := F)).map StableHlo.seq)) Q' :=
  htail_of m c (V0 m c) Q'

/-! ## The run and the frame -/

/-- A property of every operation of the eight stretches before the call. -/
theorem pre_ok : ∀ op ∈ (preOps (F := F)).flatten, Apart.PreOk op := by
  intro op hop
  obtain ⟨ops, hops, hop'⟩ := List.mem_flatten.mp hop
  simp only [preOps, List.mem_cons, List.mem_nil_iff, or_false] at hops
  rcases hops with rfl | rfl | rfl | rfl | rfl | rfl | rfl | rfl
  · exact (List.forall_iff_forall_mem.mp Apart.hostOps0_ok) op hop'
  · exact (List.forall_iff_forall_mem.mp Apart.hostOps0_1_ok) op hop'
  · exact (List.forall_iff_forall_mem.mp Apart.hostOps0_2_ok) op hop'
  · exact (List.forall_iff_forall_mem.mp Apart.hostOps0_3_ok) op hop'
  · exact (List.forall_iff_forall_mem.mp Apart.hostOps0_4_ok) op hop'
  · exact (List.forall_iff_forall_mem.mp Apart.hostOps0_5_ok) op hop'
  · exact (List.forall_iff_forall_mem.mp Apart.hostOps0_6_ok) op hop'
  · exact (List.forall_iff_forall_mem.mp Apart.hostOps0_7_ok) op hop'

/-- No host operation before the call writes an argument: the call finds each as launched. -/
theorem V_arg0 (c : Dev nD) : V m c main_arg0 = m ((c.tc : Thread nD τ).loc main_arg0) :=
  StableHlo.after_of_forall_not_mem _ _ fun op hop => (pre_ok op hop).1
theorem V_arg1 (c : Dev nD) : V m c main_arg1 = m ((c.tc : Thread nD τ).loc main_arg1) :=
  StableHlo.after_of_forall_not_mem _ _ fun op hop => (pre_ok op hop).2.1
theorem V_arg2 (c : Dev nD) : V m c main_arg2 = m ((c.tc : Thread nD τ).loc main_arg2) :=
  StableHlo.after_of_forall_not_mem _ _ fun op hop => (pre_ok op hop).2.2

-- the launch theorem's implicit arguments are found by unifying its conclusion with this one, which takes unfolding plain
-- definitions in a metavariable's type
set_option backward.isDefEq.respectTransparency.types false in
/-- THE FRAME: from any memory with zero counters every weakly fair execution of @main terminates without a fault, and
    the three argument arrays end as they were launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact RDat.θ_run_region_pf_tail pcfgs (fun _ => adm m) (fun _ c => rdat m c) () (cellOf_inj fun _ => adm m) (0 : Fin 1)
    winFacts₀0 (Pipeline.OwnSemFacts.none _) preFacts0 emb₁ (defs₀ (F := F)) Variants.none m ρ main
    (fun _ => Pipeline.chain ((tailOps (F := F)).map StableHlo.seq)) (fun c => body_obligation m c)
    block_pos0 arr_whole0 stage_whole0 (fun _ _ => rfl)
    (G := fun _ => iprop(emp))
    (u₀ := initOf (Pipeline.cells (Pipeline.pin pcfgs fun _ => adm m) (cellOf_inj fun _ => adm m))
      (Pipeline.launchToks (Pipeline.pin pcfgs fun _ => adm m) (cellOf_inj fun _ => adm m)))
    (hu₀ := by
      iintro Hu; imodintro
      isplitl [Hu]
      · iapply (show (ownU _ : sProp 𝕄) ⊢ BI.own (emb₁ (initOf (Pipeline.cells (Pipeline.pin pcfgs fun _ => adm m) (cellOf_inj fun _ => adm m))
          (Pipeline.launchToks (Pipeline.pin pcfgs fun _ => adm m) (cellOf_inj fun _ => adm m)))) from .rfl)
        iexact Hu
      · iapply (show (BI.emp : sProp 𝕄) ⊢ bigSep Finset.univ (fun _ : Dev nD => (BI.emp : sProp 𝕄)) from by rw [BI.bigSep_emp_const])
        iempintro)
    (V := V m) (hmain := hmain m Variants.none) (hsplit := hsplit m) (hpf := V_pre m)
    (X := fun c => iprop(∃ r, prngReg c r)) (Y := fun c => iprop(∃ r, prngReg c r))
    (Z := fun c => Pipeline.unscopedRestP pre0 (cfgM m).spec c (V m c)) (Z' := Zafter m)
    (hX := fun c => by
      iintro ⟨HU, -, -, -, Hp, -⟩; imodintro
      isplitl [Hp]
      · iexists _; iexact Hp
      · iexact HU)
    (hin := fun c => by
      show _ ⊢ iprop(Pipeline.ΦA spec0 c ∗ Pipeline.ΦT pre0 (tbl m) c)
      unfold Pipeline.ΦA Pipeline.ΦT
      iintro ⟨Hp, Ht, Hr⟩
      isplitl [Hp Hr]
      · isplitl [Hr]
        · iexact Hr
        · iexact Hp
      · iexact Ht)
    (hout := fun c => by
      show iprop(Pipeline.ΦA spec0 c ∗ Pipeline.ΦT pre0 (tbl m) c) ⊢ _
      rw [Pipeline.ownSems0_none]; unfold Pipeline.ΦA
      iintro ⟨⟨Hr, Hp⟩, -⟩
      isplitl [Hp]
      · iexact Hp
      isplitr
      · iempintro
      · iexact Hr)
    (htail := htail m)
    (QY := fun c s => s.mem ((c.tc : Thread nD τ).loc main_arg0) = V m c main_arg0
      ∧ s.mem ((c.tc : Thread nD τ).loc main_arg1) = V m c main_arg1 ∧ s.mem ((c.tc : Thread nD τ).loc main_arg2) = V m c main_arg2)
    (hY := fun c s' => by
      iintro ⟨-, HZ, HSI⟩
      unfold Zafter ZafterOf
      icases HZ with ⟨%G, %hG, HZ⟩
      unfold Pipeline.unscopedRestP
      ihave HZ' := (pointsTo_read_all (Pipeline.restRefsP sig pre0 spec0) (fun b => (c.tc : Thread nD τ).loc b) G s') $$ [HZ HSI]
      · isplitl [HZ] <;> iassumption
      icases HZ' with ⟨%hZ, HSI⟩
      imodintro
      isplitr
      · ipureintro
        exact ⟨(hZ main_arg0 (by decide)).trans hG.1, (hZ main_arg1 (by decide)).trans hG.2.1, (hZ main_arg2 (by decide)).trans hG.2.2⟩
      · iexact HSI)
    (hQ := fun s h c => ⟨(h c).2.2.1.trans (V_arg0 m c), (h c).2.2.2.1.trans (V_arg1 m c), (h c).2.2.2.2.trans (V_arg2 m c)⟩)

end Cert.Kernel.Run

end
-- ==== Proof.TableIdeal.lean ====
/-
  The prefetched scalar is the number of rows marked negative. Both input windows' index maps read it, but only
  to choose between a grid coordinate and zero: a dead tile's block index is clamped to block 0. Whatever the
  scalar holds, the chosen block index is therefore below the grid extent on that axis, so every block lies inside
  the stacked [2, 4096, 4096] array; and a block of 1024 (or 512) whole rows starts at an even row and has an even
  number of rows, so its transfer moves whole words of the two-to-a-word element type. The pipeline's side condition
  on the table holds at EVERY contents of it.
-/
import proofs.«120018_j30030411333999_2_alg».proof.Proof.Gen.KernelIdeal

noncomputable section

namespace Cert.KernelIdeal.Table

open Cert.KernelIdeal Cert.KernelIdeal.Facts₀ Cert.KernelIdeal.Facts Idealize.ShloMosaic

variable {F : FTy → Type} [FloatOps F] [Named F]

/-- A selected value is one of the two it selects between. -/
theorem select_cases {α : Type} (c : BitVec 1) (a b : α) : Scalar.select c a b = a ∨ Scalar.select c a b = b := by
  unfold Scalar.select; split
  · exact Or.inl rfl
  · exact Or.inr rfl

/-- A small number survives the round trip through a 32-bit word. -/
theorem toNat_ofNat_small (n : Nat) (h : n < 4096) : (BitVec.ofNat 32 n).toNat = n := by
  rw [BitVec.toNat_ofNat]; exact Nat.mod_eq_of_lt (by omega)

/-- The clamped coordinate: the coordinate itself or zero, in either case below the extent. -/
theorem clamp_lt (c : BitVec 1) (b n : Nat) (hb : b < n) (hn : n ≤ 4096) :
    (Scalar.select c (BitVec.ofNat 32 b) (0#32)).toNat < n := by
  rcases select_cases c (BitVec.ofNat 32 b) (0#32) with e | e <;> rw [e]
  · rw [toNat_ofNat_small b (by omega)]; exact hb
  · show 0 < n; omega

/-- A block of 1024 whole rows at block index (a, w, 0), a < 2 and w < 4, lies inside the stacked array and is whole words. -/
theorem rowBlock_ok (a w : Nat) (ha : a < 2) (hw : w < 4) :
    ∃ h : (∀ x, ((![a, w, 0] : Fin 3 → Nat) x + 1) * S1x1024x4096.size x ≤ S2x4096x4096.size x),
      EltTy.bits .bf16 = 32 ∨ (Rect.block (s := S2x4096x4096) S1x1024x4096.size (![a, w, 0]) h).WholeWords (EltTy.packing .bf16) := by
  refine ⟨fun x => ?_, Or.inr (Or.inl (Or.inr ⟨by decide, rfl, Or.inl ⟨?_, ?_⟩⟩))⟩
  · fin_cases x
    · show (a + 1) * 1 ≤ 2; omega
    · show (w + 1) * 1024 ≤ 4096; omega
    · show (0 + 1) * 4096 ≤ 4096; omega
  · show 2 ∣ w * 1024; exact ⟨w * 512, by omega⟩
  · show 2 ∣ 1024; exact ⟨512, rfl⟩

/-- The same for a block of 512 whole rows at block index (a, w, 0), w < 8. -/
theorem colBlock_ok (a w : Nat) (ha : a < 2) (hw : w < 8) :
    ∃ h : (∀ x, ((![a, w, 0] : Fin 3 → Nat) x + 1) * S1x512x4096.size x ≤ S2x4096x4096.size x),
      EltTy.bits .bf16 = 32 ∨ (Rect.block (s := S2x4096x4096) S1x512x4096.size (![a, w, 0]) h).WholeWords (EltTy.packing .bf16) := by
  refine ⟨fun x => ?_, Or.inr (Or.inl (Or.inr ⟨by decide, rfl, Or.inl ⟨?_, ?_⟩⟩))⟩
  · fin_cases x
    · show (a + 1) * 1 ≤ 2; omega
    · show (w + 1) * 512 ≤ 4096; omega
    · show (0 + 1) * 4096 ≤ 4096; omega
  · show 2 ∣ w * 512; exact ⟨w * 256, by omega⟩
  · show 2 ∣ 512; exact ⟨256, rfl⟩

/-- The pipeline's side condition holds at every contents of the prefetched scalar. -/
theorem ok_all (pf : pre0.Contents (Elt F)) : ok0 (F := F) pf := by
  refine ⟨fun i => ?_, fun i => ?_⟩
  · have h0 : (i 0).val < 2 := (i 0).isLt
    have h1 : (i 1).val < 4 := (i 1).isLt
    obtain ⟨c, e⟩ : ∃ c : BitVec 1, cc0_transform_0 inb_S1_S1_0 numel1_S1 pf i
        = ![(BitVec.ofNat 32 (i 0).val).toNat, (Scalar.select c (BitVec.ofNat 32 (i 1).val) (0#32)).toNat, (0#32 : BitVec 32).toNat] := ⟨_, rfl⟩
    rw [e, toNat_ofNat_small _ (by omega)]
    exact rowBlock_ok _ _ h0 (clamp_lt c _ 4 h1 (by omega))
  · have h0 : (i 0).val < 2 := (i 0).isLt
    have h2 : (i 2).val < 8 := (i 2).isLt
    obtain ⟨c, e⟩ : ∃ c : BitVec 1, cc0_transform_1 inb_S1_S1_0 numel1_S1 pf i
        = ![(BitVec.ofNat 32 (i 0).val).toNat, (Scalar.select c (BitVec.ofNat 32 (i 2).val) (0#32)).toNat, (0#32 : BitVec 32).toNat] := ⟨_, rfl⟩
    rw [e, toNat_ofNat_small _ (by omega)]
    exact colBlock_ok _ _ h0 (clamp_lt c _ 8 h2 (by omega))

end Cert.KernelIdeal.Table

end
-- ==== Proof.BodyIdeal.lean ====
/-
  The kernel body at one grid point, read only for what a frame needs. The body first resets its output block when
  the innermost coordinate is zero; then it loads the prefetched scalar and, only when the tile meets both the
  negative rows and the non-negative columns, loads the two row blocks and the running output block and stores the
  output block again. Whichever of the four ways the two tests fall, it reads the two input buffers and the scalar
  without changing them and leaves the output buffer at SOME contents. So: from any contents of the three staging
  buffers and of the scalar, the body runs to its end without a fault, returning the input buffers and the scalar as
  it found them.
-/
import proofs.«120018_j30030411333999_2_alg».proof.Proof.Gen.KernelIdeal.Launch
import proofs.«120018_j30030411333999_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The prefetched scalar's buffer as the body is handed it: the whole buffer as a memref. -/
abbrev tbM : Memref sig .tc .smem S1 .i32 := Memref.whole main_v44
abbrev htbM : tbM.IsWhole := Memref.isWhole_whole _

/-- Its contents type on core `c`, and the buffer held at half the full share: the body only reads it. -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f

/-- The word the body loads from the scalar's buffer. -/
abbrev word (c : Dev nD) (xt : TbBuf (F := F) c) : Elt F .i32 :=
  tbM.view.readAt (Elt F) (Rect.unit (s := S1) ![0] S1.size Gen.inb_S1_S1_0).toLoadRect xt (Shape.Idx.first (Gen.numel1_S1.symm ▸ Nat.one_pos))

set_option maxHeartbeats 2000000 in
/-- The body runs from any contents, returning the inputs and the scalar unchanged and the output at some contents:
    the two tests are split four ways, and in each the body's memory operations are run one after the other. -/
theorem runs (c : Dev nD) (i : grid0.Coords)
    (arg4 : Memref sig .tc .vmem S1x1024x4096 .bf16) (harg4 : arg4.IsWhole)
    (arg5 : Memref sig .tc .vmem S1x512x4096 .bf16) (harg5 : arg5.IsWhole)
    (arg6 : Memref sig .tc .vmem S1x1024x1 .f32) (harg6 : arg6.IsWhole)
    (x4 : Vec F S1x1024x4096 .bf16) (x5 : Vec F S1x512x4096 .bf16) (x6 : Vec F S1x1024x1 .f32) (xt : TbBuf (F := F) c)
    (E : Set ℕ) (K : PUnit → sProp 𝕄) :
    iprop(owns (c : Thread nD τ) arg4 fullShare x4 ∗ owns (c : Thread nD τ) arg5 fullShare x5 ∗ owns (c : Thread nD τ) arg6 fullShare x6 ∗ tbPt c xt
        ∗ (iprop(owns (c : Thread nD τ) arg4 fullShare x4 ∗ owns (c : Thread nD τ) arg5 fullShare x5
              ∗ (∃ f, arg6.view.loc (c : Thread nD τ) ↦[arg6.view.set]{fullShare} f) ∗ tbPt c xt) -∗ K ⟨⟩))
      ⊢ wp frame (wpE (defs₀ (F := F)) Variants.none c none) E (cc0__neg_error_kernel i tbM htbM arg4 harg4 arg5 harg5 arg6 harg6) K := by
  simp only [cc0__neg_error_kernel_eq_skeleton]; unfold cc0__neg_error_kernel_skel
  unfold owns
  iintro ⟨⟨%f4, %hf4, H4⟩, ⟨%f5, %hf5, H5⟩, ⟨%f6, %hf6, H6⟩, HT, Hk⟩
  obtain rfl := harg4.eq_unread hf4; obtain rfl := harg5.eq_unread hf5; obtain rfl := harg6.eq_unread hf6
  by_cases h1 : k0_cond1 i = 1#1 <;> by_cases h2 : k0_cond2 i (word c xt) = 1#1
  all_goals
    sl_exec (disch := first | exact h1 | sl_exact h2 | exact h2)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; iexact H6
    iexact HT

end Cert.KernelIdeal.Body

end
-- ==== Proof.RegionIdeal.lean ====
/-
  The one pallas_call's region, as the pipeline library wants it described. @main is eight stretches of host
  operations (row norms, the normalised rows, the count of negative rows, the sort that brings the negative rows first,
  the two gathers and the stack), the call, and five stretches after it (the two sums and the final quotient). The call's
  table is the count of negative rows as those stretches leave it; it is admissible whatever it holds. The proof data
  say only what a frame needs: the two input windows stage blocks of ONE array, the stack, which the region only reads —
  each window holds half of it —, their buffers are left as found at every point, and of the output buffer nothing is
  said.
-/
import proofs.«120018_j30030411333999_2_alg».proof.Proof.TableIdeal
import proofs.«120018_j30030411333999_2_alg».proof.Proof.BodyIdeal
import Idealize.ShloMosaic.Lib.Pipeline.FrameSuffix

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the call -/

/-- The host stretches before the call, in order, and those after it. -/
abbrev preOps : List (List (HloOp τ sig (Elt F))) :=
  [hostOps0, hostOps0_1, hostOps0_2, hostOps0_3, hostOps0_4, hostOps0_5, hostOps0_6, hostOps0_7]
abbrev tailOps : List (List (HloOp τ sig (Elt F))) := [hostOps1, hostOps1_1, hostOps1_2, hostOps1_3, hostOps1_4]

/-- Core `c`'s buffers when the call is entered: the launch contents after the stretches before it. -/
abbrev V0 (c : Dev nD) : Valuation τ sig (Elt F) := StableHlo.after (preOps (F := F)).flatten (fun b => m (c, b))
abbrev V (c : Dev nD) (b : Ref sig .tc) : Buf (Elt F) ((c : Thread nD τ).loc b) := V0 m c (Proc.devRef .tc b)

theorem preOps_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub⟩

/-- No host operation allocates. -/
theorem preOps_fresh : (preOps (F := F)).Forall fun ops => ops.Forall fun op => op.fresh = ∅ := by
  simp only [List.Forall]; repeat' constructor

/-- @main reduces to the call continued by the later stretches, entered at the contents the earlier ones leave. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ((tailOps (F := F)).map StableHlo.seq)) :=
  Pipeline.hmainP_around pcfgs 0 defs₀ 𝒱₀ m main preOps tailOps preOps_sub preOps_fresh fun c => (main_chain c).trans rfl

/-! ## The table -/

/-- The count of negative rows as the call finds it (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- Admissible, whatever it holds; and the pipeline at it. -/
abbrev adm : (pcfg0 (F := F)).Adm := ⟨tbl m, Table.ok_all (tbl m)⟩
abbrev cfgM : Pipeline.Cfg sig Λ₀ := cfg0 (adm m)

/-- The table's half the region hands the body is the body's one table buffer. -/
theorem PhiT_eq (c : Dev nD) : (Pipeline.ΦT pre0 (tbl m) c : sProp 𝕄) = Body.tbPt c (tbl m 0) := by
  unfold Pipeline.ΦT Pipeline.prefHeld
  rw [show (Finset.univ : Finset (Fin 1)) = {(0 : Fin 1)} from by decide, bigSep_singleton]
  rfl

/-! ## The proof data -/

/-- The relational proof data on core `c`. -/
def rdat (c : Dev nD) : RDat τ (Elt F) Unit ℕ (UR sig nD τ) ℕ (cfgM m) c where
  A w := V m c (Pipeline.arrRef spec0 w)
  after w _ Y X := match w with
    | ⟨0, _⟩ => X = Y
    | ⟨1, _⟩ => X = Y
    | ⟨2, _⟩ => True
  Φ _ := iprop(Pipeline.ΦA spec0 c ∗ Pipeline.ΦT pre0 (tbl m) c)
  q w := match w with
    | ⟨0, _⟩ => fullShare.left
    | ⟨1, _⟩ => fullShare.right
    | ⟨2, _⟩ => fullShare
  owed _ := 0

/-- The body obligation: at every point, from any contents of the current buffers, the body runs and hands the input
    buffers back as found. -/
theorem body_obligation (c : Dev nD) : (rdat m c).BodyObligation (defs₀ (F := F)) Variants.none () Set.univ := by
  unfold RDat.BodyObligation
  intro t Y _
  rw [bigSep_W0, bigSep_W0]
  show iprop(iprop(Pipeline.ΦA spec0 c ∗ Pipeline.ΦT pre0 (tbl m) c) ∗ (rdat m c).owesAt () t.castSucc
      ∗ owns (c : Thread nD τ) (((cfgM m).win 0).stage ((cfgM m).slots t 0)) fullShare (Y 0)
      ∗ owns (c : Thread nD τ) (((cfgM m).win 1).stage ((cfgM m).slots t 1)) fullShare (Y 1)
      ∗ owns (c : Thread nD τ) (((cfgM m).win 2).stage ((cfgM m).slots t 2)) fullShare (Y 2)) ⊢ _
  rw [PhiT_eq]
  iintro ⟨⟨HΦ, HT⟩, Ho, H0, H1, H2⟩
  iapply (Body.runs c (grid0.coords t)
    (spec0_0.stage ((cfgM m).slots t 0)) (Facts₀.hstage0_0 (((cfgM m).slots t 0).cast Facts₀.nbuf0_0))
    (spec0_1.stage ((cfgM m).slots t 1)) (Facts₀.hstage0_1 (((cfgM m).slots t 1).cast Facts₀.nbuf0_1))
    (spec0_2.stage ((cfgM m).slots t 2)) (Facts₀.hstage0_2 (((cfgM m).slots t 2).cast Facts₀.nbuf0_2))
    (Y 0) (Y 1) (Y 2) (tbl m 0) Set.univ _)
  isplitl [H0]; · iexact H0
  isplitl [H1]; · iexact H1
  isplitl [H2]; · iexact H2
  isplitl [HT]; · iexact HT
  iintro ⟨H0, H1, ⟨%f, H2⟩, HT⟩
  rw [show (rdat m c).Φ t.succ = iprop(Pipeline.ΦA spec0 c ∗ Pipeline.ΦT pre0 (tbl m) c) from rfl]
  isplitl [HΦ HT]
  · isplitl [HΦ]
    · iexact HΦ
    · rw [PhiT_eq]; iexact HT
  isplitl [Ho]
  · iexact Ho
  isplitl [H0]
  · iexists _; isplitr
    · ipureintro; rfl
    · iexact H0
  isplitl [H1]
  · iexists _; isplitr
    · ipureintro; rfl
    · iexact H1
  iexists ((spec0_2.stage ((cfgM m).slots t 2)).view.read (Elt F) f); isplitr
  · ipureintro; trivial
  unfold owns; iexists f; isplitr
  · ipureintro; rfl
  iexact H2

end Cert.KernelIdeal.Region

end
-- ==== Proof.ApartIdeal.lean ====
/-
  Which buffers each host operation touches and writes, told apart from the few buffers the frame cares about. Every host
  operation touches only the buffers its line names and writes only its result. So: no operation after the call touches the
  stack of normalised rows or the prefetched count; none writes the call's output array; and no operation, before or after
  the call, writes an argument array.
-/
import proofs.«120018_j30030411333999_2_alg».proof.Proof.Gen.KernelIdeal.Launch
import Idealize.ShloMosaic.Lib.StableHlo.Run

set_option maxRecDepth 16384

noncomputable section

namespace Cert.KernelIdeal.Apart

open Cert.KernelIdeal Cert.KernelIdeal.Gen
open Idealize.ShloMosaic Idealize.ShloMosaic.TcCoe

variable {F : FTy → Type} [FloatOps F] [Named F]

/-- A reference is in none of a few given ones when it differs from each. -/
theorem apart1 {x a : Ref sig .tc} (ha : x ≠ a) :
    Proc.devRef (τ := τ) .tc x ∉ ({Proc.devRef .tc a} : Finset (DevRef τ sig)) := by
  rw [Finset.mem_singleton]; exact StableHlo.devRef_ne_of_ne ha
theorem apart2 {x a b : Ref sig .tc} (ha : x ≠ a) (hb : x ≠ b) :
    Proc.devRef (τ := τ) .tc x ∉ ({Proc.devRef .tc a, Proc.devRef .tc b} : Finset (DevRef τ sig)) := by
  simp only [Finset.mem_insert, Finset.mem_singleton, not_or]
  exact ⟨StableHlo.devRef_ne_of_ne ha, StableHlo.devRef_ne_of_ne hb⟩
theorem apart3 {x a b d : Ref sig .tc} (ha : x ≠ a) (hb : x ≠ b) (hd : x ≠ d) :
    Proc.devRef (τ := τ) .tc x ∉ ({Proc.devRef .tc a, Proc.devRef .tc b, Proc.devRef .tc d} : Finset (DevRef τ sig)) := by
  simp only [Finset.mem_insert, Finset.mem_singleton, not_or]
  exact ⟨StableHlo.devRef_ne_of_ne ha, StableHlo.devRef_ne_of_ne hb, StableHlo.devRef_ne_of_ne hd⟩
theorem apart4 {x a b d e : Ref sig .tc} (ha : x ≠ a) (hb : x ≠ b) (hd : x ≠ d) (he : x ≠ e) :
    Proc.devRef (τ := τ) .tc x ∉ ({Proc.devRef .tc a, Proc.devRef .tc b, Proc.devRef .tc d, Proc.devRef .tc e} : Finset (DevRef τ sig)) := by
  simp only [Finset.mem_insert, Finset.mem_singleton, not_or]
  exact ⟨StableHlo.devRef_ne_of_ne ha, StableHlo.devRef_ne_of_ne hb, StableHlo.devRef_ne_of_ne hd, StableHlo.devRef_ne_of_ne he⟩

/-- What the frame asks of an operation after the call. -/
abbrev TailOk (op : HloOp τ sig (Elt F)) : Prop :=
  Proc.devRef (τ := τ) .tc main_v47 ∉ op.bufs ∧ Proc.devRef (τ := τ) .tc main_v44 ∉ op.bufs
  ∧ Proc.devRef (τ := τ) .tc main_v48 ∉ op.writes ∧ Proc.devRef (τ := τ) .tc main_arg0 ∉ op.writes
  ∧ Proc.devRef (τ := τ) .tc main_arg1 ∉ op.writes ∧ Proc.devRef (τ := τ) .tc main_arg2 ∉ op.writes

/-- What it asks of an operation before the call. -/
abbrev PreOk (op : HloOp τ sig (Elt F)) : Prop :=
  Proc.devRef (τ := τ) .tc main_arg0 ∉ op.writes ∧ Proc.devRef (τ := τ) .tc main_arg1 ∉ op.writes
  ∧ Proc.devRef (τ := τ) .tc main_arg2 ∉ op.writes

theorem hostOps1_ok : (hostOps1 (F := F)).Forall TailOk :=
  ⟨⟨apart2 (by decide : main_v47 ≠ main_v48) (by decide : main_v47 ≠ main_v49), apart2 (by decide : main_v44 ≠ main_v48) (by decide : main_v44 ≠ main_v49), apart1 (by decide : main_v48 ≠ main_v49), apart1 (by decide : main_arg0 ≠ main_v49), apart1 (by decide : main_arg1 ≠ main_v49), apart1 (by decide : main_arg2 ≠ main_v49)⟩,
    ⟨apart2 (by decide : main_v47 ≠ main_v49) (by decide : main_v47 ≠ main_v50), apart2 (by decide : main_v44 ≠ main_v49) (by decide : main_v44 ≠ main_v50), apart1 (by decide : main_v48 ≠ main_v50), apart1 (by decide : main_arg0 ≠ main_v50), apart1 (by decide : main_arg1 ≠ main_v50), apart1 (by decide : main_arg2 ≠ main_v50)⟩,
    ⟨apart1 (by decide : main_v47 ≠ main_cst_14), apart1 (by decide : main_v44 ≠ main_cst_14), apart1 (by decide : main_v48 ≠ main_cst_14), apart1 (by decide : main_arg0 ≠ main_cst_14), apart1 (by decide : main_arg1 ≠ main_cst_14), apart1 (by decide : main_arg2 ≠ main_cst_14)⟩,
    ⟨apart3 (by decide : main_v47 ≠ main_v50) (by decide : main_v47 ≠ main_cst_14) (by decide : main_v47 ≠ main_v51), apart3 (by decide : main_v44 ≠ main_v50) (by decide : main_v44 ≠ main_cst_14) (by decide : main_v44 ≠ main_v51), apart1 (by decide : main_v48 ≠ main_v51), apart1 (by decide : main_arg0 ≠ main_v51), apart1 (by decide : main_arg1 ≠ main_v51), apart1 (by decide : main_arg2 ≠ main_v51)⟩,
    ⟨apart2 (by decide : main_v47 ≠ main_v48) (by decide : main_v47 ≠ main_v52), apart2 (by decide : main_v44 ≠ main_v48) (by decide : main_v44 ≠ main_v52), apart1 (by decide : main_v48 ≠ main_v52), apart1 (by decide : main_arg0 ≠ main_v52), apart1 (by decide : main_arg1 ≠ main_v52), apart1 (by decide : main_arg2 ≠ main_v52)⟩,
    ⟨apart2 (by decide : main_v47 ≠ main_v52) (by decide : main_v47 ≠ main_v53), apart2 (by decide : main_v44 ≠ main_v52) (by decide : main_v44 ≠ main_v53), apart1 (by decide : main_v48 ≠ main_v53), apart1 (by decide : main_arg0 ≠ main_v53), apart1 (by decide : main_arg1 ≠ main_v53), apart1 (by decide : main_arg2 ≠ main_v53)⟩,
    ⟨apart1 (by decide : main_v47 ≠ main_cst_15), apart1 (by decide : main_v44 ≠ main_cst_15), apart1 (by decide : main_v48 ≠ main_cst_15), apart1 (by decide : main_arg0 ≠ main_cst_15), apart1 (by decide : main_arg1 ≠ main_cst_15), apart1 (by decide : main_arg2 ≠ main_cst_15)⟩,
    ⟨apart3 (by decide : main_v47 ≠ main_v53) (by decide : main_v47 ≠ main_cst_15) (by decide : main_v47 ≠ main_v54), apart3 (by decide : main_v44 ≠ main_v53) (by decide : main_v44 ≠ main_cst_15) (by decide : main_v44 ≠ main_v54), apart1 (by decide : main_v48 ≠ main_v54), apart1 (by decide : main_arg0 ≠ main_v54), apart1 (by decide : main_arg1 ≠ main_v54), apart1 (by decide : main_arg2 ≠ main_v54)⟩,
    ⟨apart1 (by decide : main_v47 ≠ main_c_16), apart1 (by decide : main_v44 ≠ main_c_16), apart1 (by decide : main_v48 ≠ main_c_16), apart1 (by decide : main_arg0 ≠ main_c_16), apart1 (by decide : main_arg1 ≠ main_c_16), apart1 (by decide : main_arg2 ≠ main_c_16)⟩,
    ⟨apart3 (by decide : main_v47 ≠ main_v24) (by decide : main_v47 ≠ main_c_16) (by decide : main_v47 ≠ main_v55), apart3 (by decide : main_v44 ≠ main_v24) (by decide : main_v44 ≠ main_c_16) (by decide : main_v44 ≠ main_v55), apart1 (by decide : main_v48 ≠ main_v55), apart1 (by decide : main_arg0 ≠ main_v55), apart1 (by decide : main_arg1 ≠ main_v55), apart1 (by decide : main_arg2 ≠ main_v55)⟩,
    ⟨apart2 (by decide : main_v47 ≠ main_v55) (by decide : main_v47 ≠ main_v56), apart2 (by decide : main_v44 ≠ main_v55) (by decide : main_v44 ≠ main_v56), apart1 (by decide : main_v48 ≠ main_v56), apart1 (by decide : main_arg0 ≠ main_v56), apart1 (by decide : main_arg1 ≠ main_v56), apart1 (by decide : main_arg2 ≠ main_v56)⟩,
    ⟨apart1 (by decide : main_v47 ≠ main_c_17), apart1 (by decide : main_v44 ≠ main_c_17), apart1 (by decide : main_v48 ≠ main_c_17), apart1 (by decide : main_arg0 ≠ main_c_17), apart1 (by decide : main_arg1 ≠ main_c_17), apart1 (by decide : main_arg2 ≠ main_c_17)⟩,
    ⟨apart3 (by decide : main_v47 ≠ main_v24) (by decide : main_v47 ≠ main_c_17) (by decide : main_v47 ≠ main_v57), apart3 (by decide : main_v44 ≠ main_v24) (by decide : main_v44 ≠ main_c_17) (by decide : main_v44 ≠ main_v57), apart1 (by decide : main_v48 ≠ main_v57), apart1 (by decide : main_arg0 ≠ main_v57), apart1 (by decide : main_arg1 ≠ main_v57), apart1 (by decide : main_arg2 ≠ main_v57)⟩,
    ⟨apart3 (by decide : main_v47 ≠ main_v51) (by decide : main_v47 ≠ main_v56) (by decide : main_v47 ≠ main_v58), apart3 (by decide : main_v44 ≠ main_v51) (by decide : main_v44 ≠ main_v56) (by decide : main_v44 ≠ main_v58), apart1 (by decide : main_v48 ≠ main_v58), apart1 (by decide : main_arg0 ≠ main_v58), apart1 (by decide : main_arg1 ≠ main_v58), apart1 (by decide : main_arg2 ≠ main_v58)⟩,
    ⟨apart1 (by decide : main_v47 ≠ main_cst_18), apart1 (by decide : main_v44 ≠ main_cst_18), apart1 (by decide : main_v48 ≠ main_cst_18), apart1 (by decide : main_arg0 ≠ main_cst_18), apart1 (by decide : main_arg1 ≠ main_cst_18), apart1 (by decide : main_arg2 ≠ main_cst_18)⟩⟩

theorem hostOps1_1_ok : (hostOps1_1 (F := F)).Forall TailOk :=
  ⟨⟨apart2 (by decide : main_v47 ≠ main_cst_18) (by decide : main_v47 ≠ main_call4_v0), apart2 (by decide : main_v44 ≠ main_cst_18) (by decide : main_v44 ≠ main_call4_v0), apart1 (by decide : main_v48 ≠ main_call4_v0), apart1 (by decide : main_arg0 ≠ main_call4_v0), apart1 (by decide : main_arg1 ≠ main_call4_v0), apart1 (by decide : main_arg2 ≠ main_call4_v0)⟩,
    ⟨apart4 (by decide : main_v47 ≠ main_v57) (by decide : main_v47 ≠ main_v58) (by decide : main_v47 ≠ main_call4_v0) (by decide : main_v47 ≠ main_v59), apart4 (by decide : main_v44 ≠ main_v57) (by decide : main_v44 ≠ main_v58) (by decide : main_v44 ≠ main_call4_v0) (by decide : main_v44 ≠ main_v59), apart1 (by decide : main_v48 ≠ main_v59), apart1 (by decide : main_arg0 ≠ main_v59), apart1 (by decide : main_arg1 ≠ main_v59), apart1 (by decide : main_arg2 ≠ main_v59)⟩⟩

theorem hostOps1_2_ok : (hostOps1_2 (F := F)).Forall TailOk :=
  ⟨⟨apart1 (by decide : main_v47 ≠ main_c_19), apart1 (by decide : main_v44 ≠ main_c_19), apart1 (by decide : main_v48 ≠ main_c_19), apart1 (by decide : main_arg0 ≠ main_c_19), apart1 (by decide : main_arg1 ≠ main_c_19), apart1 (by decide : main_arg2 ≠ main_c_19)⟩,
    ⟨apart3 (by decide : main_v47 ≠ main_v24) (by decide : main_v47 ≠ main_c_19) (by decide : main_v47 ≠ main_v60), apart3 (by decide : main_v44 ≠ main_v24) (by decide : main_v44 ≠ main_c_19) (by decide : main_v44 ≠ main_v60), apart1 (by decide : main_v48 ≠ main_v60), apart1 (by decide : main_arg0 ≠ main_v60), apart1 (by decide : main_arg1 ≠ main_v60), apart1 (by decide : main_arg2 ≠ main_v60)⟩,
    ⟨apart3 (by decide : main_v47 ≠ main_v54) (by decide : main_v47 ≠ main_v56) (by decide : main_v47 ≠ main_v61), apart3 (by decide : main_v44 ≠ main_v54) (by decide : main_v44 ≠ main_v56) (by decide : main_v44 ≠ main_v61), apart1 (by decide : main_v48 ≠ main_v61), apart1 (by decide : main_arg0 ≠ main_v61), apart1 (by decide : main_arg1 ≠ main_v61), apart1 (by decide : main_arg2 ≠ main_v61)⟩,
    ⟨apart1 (by decide : main_v47 ≠ main_cst_20), apart1 (by decide : main_v44 ≠ main_cst_20), apart1 (by decide : main_v48 ≠ main_cst_20), apart1 (by decide : main_arg0 ≠ main_cst_20), apart1 (by decide : main_arg1 ≠ main_cst_20), apart1 (by decide : main_arg2 ≠ main_cst_20)⟩⟩

theorem hostOps1_3_ok : (hostOps1_3 (F := F)).Forall TailOk :=
  ⟨⟨apart2 (by decide : main_v47 ≠ main_cst_20) (by decide : main_v47 ≠ main_call5_v0), apart2 (by decide : main_v44 ≠ main_cst_20) (by decide : main_v44 ≠ main_call5_v0), apart1 (by decide : main_v48 ≠ main_call5_v0), apart1 (by decide : main_arg0 ≠ main_call5_v0), apart1 (by decide : main_arg1 ≠ main_call5_v0), apart1 (by decide : main_arg2 ≠ main_call5_v0)⟩,
    ⟨apart4 (by decide : main_v47 ≠ main_v60) (by decide : main_v47 ≠ main_v61) (by decide : main_v47 ≠ main_call5_v0) (by decide : main_v47 ≠ main_v62), apart4 (by decide : main_v44 ≠ main_v60) (by decide : main_v44 ≠ main_v61) (by decide : main_v44 ≠ main_call5_v0) (by decide : main_v44 ≠ main_v62), apart1 (by decide : main_v48 ≠ main_v62), apart1 (by decide : main_arg0 ≠ main_v62), apart1 (by decide : main_arg1 ≠ main_v62), apart1 (by decide : main_arg2 ≠ main_v62)⟩⟩

theorem hostOps1_4_ok : (hostOps1_4 (F := F)).Forall TailOk :=
  ⟨⟨apart3 (by decide : main_v47 ≠ main_v59) (by decide : main_v47 ≠ main_v62) (by decide : main_v47 ≠ main_v63), apart3 (by decide : main_v44 ≠ main_v59) (by decide : main_v44 ≠ main_v62) (by decide : main_v44 ≠ main_v63), apart1 (by decide : main_v48 ≠ main_v63), apart1 (by decide : main_arg0 ≠ main_v63), apart1 (by decide : main_arg1 ≠ main_v63), apart1 (by decide : main_arg2 ≠ main_v63)⟩,
    ⟨apart1 (by decide : main_v47 ≠ main_cst_21), apart1 (by decide : main_v44 ≠ main_cst_21), apart1 (by decide : main_v48 ≠ main_cst_21), apart1 (by decide : main_arg0 ≠ main_cst_21), apart1 (by decide : main_arg1 ≠ main_cst_21), apart1 (by decide : main_arg2 ≠ main_cst_21)⟩,
    ⟨apart3 (by decide : main_v47 ≠ main_cst_21) (by decide : main_v47 ≠ main_v63) (by decide : main_v47 ≠ main_v64), apart3 (by decide : main_v44 ≠ main_cst_21) (by decide : main_v44 ≠ main_v63) (by decide : main_v44 ≠ main_v64), apart1 (by decide : main_v48 ≠ main_v64), apart1 (by decide : main_arg0 ≠ main_v64), apart1 (by decide : main_arg1 ≠ main_v64), apart1 (by decide : main_arg2 ≠ main_v64)⟩,
    ⟨apart3 (by decide : main_v47 ≠ main_v14) (by decide : main_v47 ≠ main_v64) (by decide : main_v47 ≠ main_v65), apart3 (by decide : main_v44 ≠ main_v14) (by decide : main_v44 ≠ main_v64) (by decide : main_v44 ≠ main_v65), apart1 (by decide : main_v48 ≠ main_v65), apart1 (by decide : main_arg0 ≠ main_v65), apart1 (by decide : main_arg1 ≠ main_v65), apart1 (by decide : main_arg2 ≠ main_v65)⟩⟩

theorem hostOps0_ok : (hostOps0 (F := F)).Forall PreOk :=
  ⟨⟨apart1 (by decide : main_arg0 ≠ main_call0_v0), apart1 (by decide : main_arg1 ≠ main_call0_v0), apart1 (by decide : main_arg2 ≠ main_call0_v0)⟩,
    ⟨apart1 (by decide : main_arg0 ≠ main_call0_cst), apart1 (by decide : main_arg1 ≠ main_call0_cst), apart1 (by decide : main_arg2 ≠ main_call0_cst)⟩,
    ⟨apart1 (by decide : main_arg0 ≠ main_call0_v1), apart1 (by decide : main_arg1 ≠ main_call0_v1), apart1 (by decide : main_arg2 ≠ main_call0_v1)⟩,
    ⟨apart1 (by decide : main_arg0 ≠ main_call0_v2), apart1 (by decide : main_arg1 ≠ main_call0_v2), apart1 (by decide : main_arg2 ≠ main_call0_v2)⟩,
    ⟨apart1 (by decide : main_arg0 ≠ main_v0), apart1 (by decide : main_arg1 ≠ main_v0), apart1 (by decide : main_arg2 ≠ main_v0)⟩⟩

theorem hostOps0_1_ok : (hostOps0_1 (F := F)).Forall PreOk :=
  ⟨⟨apart1 (by decide : main_arg0 ≠ main_v1), apart1 (by decide : main_arg1 ≠ main_v1), apart1 (by decide : main_arg2 ≠ main_v1)⟩,
    ⟨apart1 (by decide : main_arg0 ≠ main_v2), apart1 (by decide : main_arg1 ≠ main_v2), apart1 (by decide : main_arg2 ≠ main_v2)⟩⟩

theorem hostOps0_2_ok : (hostOps0_2 (F := F)).Forall PreOk :=
  ⟨⟨apart1 (by decide : main_arg0 ≠ main_call1_v0), apart1 (by decide : main_arg1 ≠ main_call1_v0), apart1 (by decide : main_arg2 ≠ main_call1_v0)⟩,
    ⟨apart1 (by decide : main_arg0 ≠ main_call1_cst), apart1 (by decide : main_arg1 ≠ main_call1_cst), apart1 (by decide : main_arg2 ≠ main_call1_cst)⟩,
    ⟨apart1 (by decide : main_arg0 ≠ main_call1_v1), apart1 (by decide : main_arg1 ≠ main_call1_v1), apart1 (by decide : main_arg2 ≠ main_call1_v1)⟩,
    ⟨apart1 (by decide : main_arg0 ≠ main_call1_v2), apart1 (by decide : main_arg1 ≠ main_call1_v2), apart1 (by decide : main_arg2 ≠ main_call1_v2)⟩,
    ⟨apart1 (by decide : main_arg0 ≠ main_v3), apart1 (by decide : main_arg1 ≠ main_v3), apart1 (by decide : main_arg2 ≠ main_v3)⟩⟩

theorem hostOps0_3_ok : (hostOps0_3 (F := F)).Forall PreOk :=
  ⟨⟨apart1 (by decide : main_arg0 ≠ main_v4), apart1 (by decide : main_arg1 ≠ main_v4), apart1 (by decide : main_arg2 ≠ main_v4)⟩,
    ⟨apart1 (by decide : main_arg0 ≠ main_v5), apart1 (by decide : main_arg1 ≠ main_v5), apart1 (by decide : main_arg2 ≠ main_v5)⟩,
    ⟨apart1 (by decide : main_arg0 ≠ main_v6), apart1 (by decide : main_arg1 ≠ main_v6), apart1 (by decide : main_arg2 ≠ main_v6)⟩,
    ⟨apart1 (by decide : main_arg0 ≠ main_cst), apart1 (by decide : main_arg1 ≠ main_cst), apart1 (by decide : main_arg2 ≠ main_cst)⟩,
    ⟨apart1 (by decide : main_arg0 ≠ main_v7), apart1 (by decide : main_arg1 ≠ main_v7), apart1 (by decide : main_arg2 ≠ main_v7)⟩,
    ⟨apart1 (by decide : main_arg0 ≠ main_cst_0), apart1 (by decide : main_arg1 ≠ main_cst_0), apart1 (by decide : main_arg2 ≠ main_cst_0)⟩,
    ⟨apart1 (by decide : main_arg0 ≠ main_v8), apart1 (by decide : main_arg1 ≠ main_v8), apart1 (by decide : main_arg2 ≠ main_v8)⟩,
    ⟨apart1 (by decide : main_arg0 ≠ main_v9), apart1 (by decide : main_arg1 ≠ main_v9), apart1 (by decide : main_arg2 ≠ main_v9)⟩,
    ⟨apart1 (by decide : main_arg0 ≠ main_cst_1), apart1 (by decide : main_arg1 ≠ main_cst_1), apart1 (by decide : main_arg2 ≠ main_cst_1)⟩,
    ⟨apart1 (by decide : main_arg0 ≠ main_v10), apart1 (by decide : main_arg1 ≠ main_v10), apart1 (by decide : main_arg2 ≠ main_v10)⟩,
    ⟨apart1 (by decide : main_arg0 ≠ main_v11), apart1 (by decide : main_arg1 ≠ main_v11), apart1 (by decide : main_arg2 ≠ main_v11)⟩,
    ⟨apart1 (by decide : main_arg0 ≠ main_v12), apart1 (by decide : main_arg1 ≠ main_v12), apart1 (by decide : main_arg2 ≠ main_v12)⟩,
    ⟨apart1 (by decide : main_arg0 ≠ main_cst_2), apart1 (by decide : main_arg1 ≠ main_cst_2), apart1 (by decide : main_arg2 ≠ main_cst_2)⟩,
    ⟨apart1 (by decide : main_arg0 ≠ main_v13), apart1 (by decide : main_arg1 ≠ main_v13), apart1 (by decide : main_arg2 ≠ main_v13)⟩,
    ⟨apart1 (by decide : main_arg0 ≠ main_cst_3), apart1 (by decide : main_arg1 ≠ main_cst_3), apart1 (by decide : main_arg2 ≠ main_cst_3)⟩,
    ⟨apart1 (by decide : main_arg0 ≠ main_v14), apart1 (by decide : main_arg1 ≠ main_v14), apart1 (by decide : main_arg2 ≠ main_v14)⟩,
    ⟨apart1 (by decide : main_arg0 ≠ main_c), apart1 (by decide : main_arg1 ≠ main_c), apart1 (by decide : main_arg2 ≠ main_c)⟩,
    ⟨apart1 (by decide : main_arg0 ≠ main_v15), apart1 (by decide : main_arg1 ≠ main_v15), apart1 (by decide : main_arg2 ≠ main_v15)⟩,
    ⟨apart1 (by decide : main_arg0 ≠ main_v16), apart1 (by decide : main_arg1 ≠ main_v16), apart1 (by decide : main_arg2 ≠ main_v16)⟩,
    ⟨apart1 (by decide : main_arg0 ≠ main_v17), apart1 (by decide : main_arg1 ≠ main_v17), apart1 (by decide : main_arg2 ≠ main_v17)⟩,
    ⟨apart1 (by decide : main_arg0 ≠ main_c_4), apart1 (by decide : main_arg1 ≠ main_c_4), apart1 (by decide : main_arg2 ≠ main_c_4)⟩,
    ⟨apart1 (by decide : main_arg0 ≠ main_v18), apart1 (by decide : main_arg1 ≠ main_v18), apart1 (by decide : main_arg2 ≠ main_v18)⟩,
    ⟨apart1 (by decide : main_arg0 ≠ main_c_5), apart1 (by decide : main_arg1 ≠ main_c_5), apart1 (by decide : main_arg2 ≠ main_c_5)⟩,
    ⟨apart1 (by decide : main_arg0 ≠ main_v19), apart1 (by decide : main_arg1 ≠ main_v19), apart1 (by decide : main_arg2 ≠ main_v19)⟩,
    ⟨apart1 (by decide : main_arg0 ≠ main_v20), apart1 (by decide : main_arg1 ≠ main_v20), apart1 (by decide : main_arg2 ≠ main_v20)⟩,
    ⟨apart1 (by decide : main_arg0 ≠ main_v21), apart1 (by decide : main_arg1 ≠ main_v21), apart1 (by decide : main_arg2 ≠ main_v21)⟩,
    ⟨apart1 (by decide : main_arg0 ≠ main_c_6), apart1 (by decide : main_arg1 ≠ main_c_6), apart1 (by decide : main_arg2 ≠ main_c_6)⟩,
    ⟨apart1 (by decide : main_arg0 ≠ main_v22), apart1 (by decide : main_arg1 ≠ main_v22), apart1 (by decide : main_arg2 ≠ main_v22)⟩,
    ⟨apart1 (by decide : main_arg0 ≠ main_c_7), apart1 (by decide : main_arg1 ≠ main_c_7), apart1 (by decide : main_arg2 ≠ main_c_7)⟩,
    ⟨apart1 (by decide : main_arg0 ≠ main_v23), apart1 (by decide : main_arg1 ≠ main_v23), apart1 (by decide : main_arg2 ≠ main_v23)⟩,
    ⟨apart1 (by decide : main_arg0 ≠ main_v24), apart1 (by decide : main_arg1 ≠ main_v24), apart1 (by decide : main_arg2 ≠ main_v24)⟩,
    ⟨apart1 (by decide : main_arg0 ≠ main_c_8), apart1 (by decide : main_arg1 ≠ main_c_8), apart1 (by decide : main_arg2 ≠ main_c_8)⟩,
    ⟨apart1 (by decide : main_arg0 ≠ main_c_9), apart1 (by decide : main_arg1 ≠ main_c_9), apart1 (by decide : main_arg2 ≠ main_c_9)⟩⟩

theorem hostOps0_4_ok : (hostOps0_4 (F := F)).Forall PreOk :=
  ⟨⟨apart1 (by decide : main_arg0 ≠ main_call2_v0), apart1 (by decide : main_arg1 ≠ main_call2_v0), apart1 (by decide : main_arg2 ≠ main_call2_v0)⟩,
    ⟨apart1 (by decide : main_arg0 ≠ main_call2_v1), apart1 (by decide : main_arg1 ≠ main_call2_v1), apart1 (by decide : main_arg2 ≠ main_call2_v1)⟩,
    ⟨apart1 (by decide : main_arg0 ≠ main_v25), apart1 (by decide : main_arg1 ≠ main_v25), apart1 (by decide : main_arg2 ≠ main_v25)⟩⟩

theorem hostOps0_5_ok : (hostOps0_5 (F := F)).Forall PreOk :=
  ⟨apart1 (by decide : main_arg0 ≠ main_v26), apart1 (by decide : main_arg1 ≠ main_v26), apart1 (by decide : main_arg2 ≠ main_v26)⟩

theorem hostOps0_6_ok : (hostOps0_6 (F := F)).Forall PreOk :=
  ⟨⟨apart1 (by decide : main_arg0 ≠ main_call3_v0), apart1 (by decide : main_arg1 ≠ main_call3_v0), apart1 (by decide : main_arg2 ≠ main_call3_v0)⟩,
    ⟨apart1 (by decide : main_arg0 ≠ main_call3_v1_0), apart1 (by decide : main_arg1 ≠ main_call3_v1_0), apart1 (by decide : main_arg2 ≠ main_call3_v1_0)⟩,
    ⟨apart1 (by decide : main_arg0 ≠ main_v27), apart1 (by decide : main_arg1 ≠ main_v27), apart1 (by decide : main_arg2 ≠ main_v27)⟩⟩

theorem hostOps0_7_ok : (hostOps0_7 (F := F)).Forall PreOk :=
  ⟨⟨apart1 (by decide : main_arg0 ≠ main_v28), apart1 (by decide : main_arg1 ≠ main_v28), apart1 (by decide : main_arg2 ≠ main_v28)⟩,
    ⟨apart1 (by decide : main_arg0 ≠ main_c_10), apart1 (by decide : main_arg1 ≠ main_c_10), apart1 (by decide : main_arg2 ≠ main_c_10)⟩,
    ⟨apart1 (by decide : main_arg0 ≠ main_v29), apart1 (by decide : main_arg1 ≠ main_v29), apart1 (by decide : main_arg2 ≠ main_v29)⟩,
    ⟨apart1 (by decide : main_arg0 ≠ main_v30), apart1 (by decide : main_arg1 ≠ main_v30), apart1 (by decide : main_arg2 ≠ main_v30)⟩,
    ⟨apart1 (by decide : main_arg0 ≠ main_c_11), apart1 (by decide : main_arg1 ≠ main_c_11), apart1 (by decide : main_arg2 ≠ main_c_11)⟩,
    ⟨apart1 (by decide : main_arg0 ≠ main_v31), apart1 (by decide : main_arg1 ≠ main_v31), apart1 (by decide : main_arg2 ≠ main_v31)⟩,
    ⟨apart1 (by decide : main_arg0 ≠ main_v32), apart1 (by decide : main_arg1 ≠ main_v32), apart1 (by decide : main_arg2 ≠ main_v32)⟩,
    ⟨apart1 (by decide : main_arg0 ≠ main_v33), apart1 (by decide : main_arg1 ≠ main_v33), apart1 (by decide : main_arg2 ≠ main_v33)⟩,
    ⟨apart1 (by decide : main_arg0 ≠ main_v34), apart1 (by decide : main_arg1 ≠ main_v34), apart1 (by decide : main_arg2 ≠ main_v34)⟩,
    ⟨apart1 (by decide : main_arg0 ≠ main_v35), apart1 (by decide : main_arg1 ≠ main_v35), apart1 (by decide : main_arg2 ≠ main_v35)⟩,
    ⟨apart1 (by decide : main_arg0 ≠ main_v36), apart1 (by decide : main_arg1 ≠ main_v36), apart1 (by decide : main_arg2 ≠ main_v36)⟩,
    ⟨apart1 (by decide : main_arg0 ≠ main_c_12), apart1 (by decide : main_arg1 ≠ main_c_12), apart1 (by decide : main_arg2 ≠ main_c_12)⟩,
    ⟨apart1 (by decide : main_arg0 ≠ main_v37), apart1 (by decide : main_arg1 ≠ main_v37), apart1 (by decide : main_arg2 ≠ main_v37)⟩,
    ⟨apart1 (by decide : main_arg0 ≠ main_v38), apart1 (by decide : main_arg1 ≠ main_v38), apart1 (by decide : main_arg2 ≠ main_v38)⟩,
    ⟨apart1 (by decide : main_arg0 ≠ main_c_13), apart1 (by decide : main_arg1 ≠ main_c_13), apart1 (by decide : main_arg2 ≠ main_c_13)⟩,
    ⟨apart1 (by decide : main_arg0 ≠ main_v39), apart1 (by decide : main_arg1 ≠ main_v39), apart1 (by decide : main_arg2 ≠ main_v39)⟩,
    ⟨apart1 (by decide : main_arg0 ≠ main_v40), apart1 (by decide : main_arg1 ≠ main_v40), apart1 (by decide : main_arg2 ≠ main_v40)⟩,
    ⟨apart1 (by decide : main_arg0 ≠ main_v41), apart1 (by decide : main_arg1 ≠ main_v41), apart1 (by decide : main_arg2 ≠ main_v41)⟩,
    ⟨apart1 (by decide : main_arg0 ≠ main_v42), apart1 (by decide : main_arg1 ≠ main_v42), apart1 (by decide : main_arg2 ≠ main_v42)⟩,
    ⟨apart1 (by decide : main_arg0 ≠ main_v43), apart1 (by decide : main_arg1 ≠ main_v43), apart1 (by decide : main_arg2 ≠ main_v43)⟩,
    ⟨apart1 (by decide : main_arg0 ≠ main_v44), apart1 (by decide : main_arg1 ≠ main_v44), apart1 (by decide : main_arg2 ≠ main_v44)⟩,
    ⟨apart1 (by decide : main_arg0 ≠ main_v45), apart1 (by decide : main_arg1 ≠ main_v45), apart1 (by decide : main_arg2 ≠ main_v45)⟩,
    ⟨apart1 (by decide : main_arg0 ≠ main_v46), apart1 (by decide : main_arg1 ≠ main_v46), apart1 (by decide : main_arg2 ≠ main_v46)⟩,
    ⟨apart1 (by decide : main_arg0 ≠ main_v47), apart1 (by decide : main_arg1 ≠ main_v47), apart1 (by decide : main_arg2 ≠ main_v47)⟩⟩

end Cert.KernelIdeal.Apart

end
-- ==== Proof.RunIdeal.lean ====
/-
  The frame of the whole program. The launch hands the region the distinct buffers behind its windows whole: the stack of
  normalised rows and the output. The stack is read through two windows, so its full share is cut in two halves, one per
  window; the region never writes it, and both halves come back. The host operations after the call read the output and
  scalars only — never the stack — so they run holding the output and the buffers that bypassed the region, the two halves
  set aside. No host operation, before or after the call, writes an argument array, and no window stages one: the three
  arguments end as they were launched.
-/
import proofs.«120018_j30030411333999_2_alg».proof.Proof.RegionIdeal
import proofs.«120018_j30030411333999_2_alg».proof.Proof.ApartIdeal

set_option maxRecDepth 16384

noncomputable section

namespace Cert.KernelIdeal.Run

open Cert.KernelIdeal Cert.KernelIdeal.Gen Cert.KernelIdeal.Region
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers behind the windows -/

/-- Two distinct buffers stand behind the three windows. -/
theorem arr_image : Finset.univ.image (Pipeline.arrRef spec0) = insert main_v47 {main_v48} := by decide

/-- The data's arrays, window by window: the stack at one half and at the other, the output whole. (Each window's array is
    a whole buffer, so its element set is every index: rewritten so, never evaluated.) -/
theorem arrays_form (c : Dev nD) (G : (w : Fin (cfgM m).W) → Buf (Elt F) (((cfgM m).win w).arr.view.loc (c.tc : Thread nD τ))) :
    ((rdat m c).arrays G : sProp 𝕄) = iprop(((((cfgM m).win 0).arr.view.loc (c.tc : Thread nD τ)) ↦{fullShare.left} G 0)
      ∗ ((((cfgM m).win 1).arr.view.loc (c.tc : Thread nD τ)) ↦{fullShare.right} G 1)
      ∗ ((((cfgM m).win 2).arr.view.loc (c.tc : Thread nD τ)) ↦{fullShare} G 2)) := by
  have e0 : ((cfgM m).win (0 : Fin 3)).arr.view.set = Finset.univ := (arr_whole0 0).set_eq_univ
  have e2 : ((cfgM m).win (2 : Fin 3)).arr.view.set = Finset.univ := (arr_whole0 2).set_eq_univ
  have s0 : (rdat m c).share (0 : Fin 3) = fullShare.left := rfl
  have s1 : (rdat m c).share (1 : Fin 3) = fullShare.right := rfl
  have s2 : (rdat m c).share (2 : Fin 3) = fullShare := rfl
  unfold RDat.arrays
  rw [bigSep_W0, e0, e2, s0, s1, s2]
  rfl

/-- The stack's full share is dealt to the two windows that read it; the output keeps its own. (The entry contents are
    abstracted to a variable first: they are a long composition of host operations, which nothing here needs to open.) -/
theorem hsplit (c : Dev nD) : (Pipeline.arrBufs (cfgM m).spec c (V m c) : sProp 𝕄) ⊢ (rdat m c).arrays (rdat m c).A := by
  rw [arrays_form]
  obtain ⟨Vc, hVc⟩ : ∃ Vc : (b : Ref sig .tc) → Buf (Elt F) ((c.tc : Thread nD τ).loc b), Vc = V m c := ⟨_, rfl⟩
  have hA : ∀ w, (rdat m c).A w = Vc (Pipeline.arrRef spec0 w) := fun w => by rw [hVc]; dsimp only [rdat]
  rw [hA 0, hA 1, hA 2, ← hVc]
  unfold Pipeline.arrBufs
  rw [show Finset.univ.image (Pipeline.arrRef (cfgM m).spec) = insert main_v47 {main_v48} from arr_image,
    bigSep_insert (by decide), bigSep_singleton]
  show iprop((((c.tc : Thread nD τ).loc main_v47) ↦{fullShare} Vc main_v47) ∗ (((c.tc : Thread nD τ).loc main_v48) ↦{fullShare} Vc main_v48))
    ⊢ iprop((((c.tc : Thread nD τ).loc main_v47) ↦{fullShare.left} Vc main_v47)
      ∗ (((c.tc : Thread nD τ).loc main_v47) ↦{fullShare.right} Vc main_v47) ∗ (((c.tc : Thread nD τ).loc main_v48) ↦{fullShare} Vc main_v48))
  iintro ⟨H47, H48⟩
  ihave H := (pointsTo_share (PosShare.mem_left_op_right fullShare)).1 $$ H47
  icases H with ⟨Hl, Hr⟩
  isplitl [Hl]
  · iexact Hl
  isplitl [Hr]
  · iexact Hr
  iexact H48

/-! ## The lines after the call -/

/-- The output window alone: the one array those lines read. -/
abbrev winO : Fin 1 → Pipeline.WinSpec sig grid0.rank := fun _ => spec0_2
theorem winO_inj : Function.Injective (Pipeline.arrRef winO) := fun a b _ => Subsingleton.elim a b

/-- What bypasses the output window, the stack set aside, is what bypasses all three windows. -/
theorem rest_eq : Pipeline.restRefsP sig pre0 winO \ {main_v47} = Pipeline.restRefsP sig pre0 spec0 := by decide +kernel

/-- A property of every operation of the five stretches, stretch by stretch. -/
theorem tail_all {P : HloOp τ sig (Elt F) → Prop} (h0 : (hostOps1 (F := F)).Forall P) (h1 : (hostOps1_1 (F := F)).Forall P)
    (h2 : (hostOps1_2 (F := F)).Forall P) (h3 : (hostOps1_3 (F := F)).Forall P) (h4 : (hostOps1_4 (F := F)).Forall P) :
    ∀ ops ∈ tailOps (F := F), ∀ op ∈ ops, P op := by
  intro ops hops op hop
  simp only [tailOps, List.mem_cons, List.mem_nil_iff, or_false] at hops
  rcases hops with rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop

theorem tail_ok : ∀ ops ∈ tailOps (F := F), ∀ op ∈ ops, Apart.TailOk op :=
  tail_all Apart.hostOps1_ok Apart.hostOps1_1_ok Apart.hostOps1_2_ok Apart.hostOps1_3_ok Apart.hostOps1_4_ok
theorem tail_tc : ∀ ops ∈ tailOps (F := F), ∀ op ∈ ops, op.bufs ⊆ StableHlo.tcRefs τ sig :=
  tail_all hostOps1_sub hostOps1_1_sub hostOps1_2_sub hostOps1_3_sub hostOps1_4_sub
theorem tail_fresh : ∀ ops ∈ tailOps (F := F), ∀ op ∈ ops, op.fresh = ∅ :=
  tail_all (by simp only [List.Forall]; repeat' constructor) (by simp only [List.Forall]; repeat' constructor)
    (by simp only [List.Forall]; repeat' constructor) (by simp only [List.Forall]; repeat' constructor)
    (by simp only [List.Forall]; repeat' constructor)

/-- Those lines touch the output, and what bypassed the region but the stack and the table. -/
theorem tail_sub : ∀ ops ∈ tailOps (F := F), ∀ op ∈ ops, op.bufs ⊆ Pipeline.tailRefsBut sig pre0 winO {main_v47} :=
  fun ops ho op h => Pipeline.sub_tailRefsBut pre0 winO {main_v47} op (tail_tc ops ho op h)
    (fun k => by obtain rfl : k = 0 := Subsingleton.elim _ _; exact (tail_ok ops ho op h).2.1)
    (fun b hb => by rw [Finset.mem_singleton] at hb; subst hb; exact (tail_ok ops ho op h).1)
theorem tail_keeps : ∀ ops ∈ tailOps (F := F), ∀ op ∈ ops, ∀ w, Proc.devRef .tc (Pipeline.arrRef winO w) ∉ op.writes :=
  fun ops ho op h w => by obtain rfl : w = 0 := Subsingleton.elim _ _; exact (tail_ok ops ho op h).2.2.1

/-- What the lines after the call hand back of the buffers that bypassed the region, entered at contents `Vc`: some
    contents, the argument arrays' as they were when the call was entered. -/
def ZafterOf (c : Dev nD) (Vc : Valuation τ sig (Elt F)) : sProp 𝕄 :=
  iprop(∃ G : (b : Ref sig .tc) → Buf (Elt F) ((c.tc : Thread nD τ).loc b),
    ⌜G main_arg0 = Vc (Proc.devRef .tc main_arg0) ∧ G main_arg1 = Vc (Proc.devRef .tc main_arg1) ∧ G main_arg2 = Vc (Proc.devRef .tc main_arg2)⌝
      ∗ Pipeline.unscopedRestP pre0 (cfgM m).spec c G)
abbrev Zafter (c : Dev nD) : sProp 𝕄 := ZafterOf m c (V0 m c)

set_option maxHeartbeats 1000000 in
/-- The lines after the call: they run holding the output array and what bypassed the region (the stack's halves set
    aside), write neither the output nor an argument, and hand everything back. -/
theorem htail_of (c : Dev nD) (Vc : Valuation τ sig (Elt F)) (Q' : PUnit → sProp 𝕄) :
    iprop((iprop((rdat m c).arraysAt (cfgM m).N ∗ ZafterOf m c Vc) -∗ Q' ⟨⟩)
        ∗ boundary (c.tc : Thread nD τ) ∗ (rdat m c).arraysAt (cfgM m).N
        ∗ Pipeline.unscopedRestP pre0 (cfgM m).spec c (fun b => Vc (Proc.devRef .tc b)))
      ⊢ wp frame (wpE (Pipeline.defs pcfgs (defs₀ (F := F))) (Variants.lift Variants.none) (c.tc : Thread nD τ) none) Set.univ
          (Pipeline.chain ((tailOps (F := F)).map StableHlo.seq)) Q' := by
  classical
  have e0 : ((cfgM m).win (0 : Fin 3)).arr.view.set = Finset.univ := (arr_whole0 0).set_eq_univ
  have e2 : ((cfgM m).win (2 : Fin 3)).arr.view.set = Finset.univ := (arr_whole0 2).set_eq_univ
  have s2 : (rdat m c).share (2 : Fin 3) = fullShare := rfl
  have hP : ∀ A : Buf (Elt F) (((cfgM m).win (2 : Fin 3)).arr.view.loc (c.tc : Thread nD τ)),
      (Pipeline.arrPts winO c (fun _ => A) : sProp 𝕄) = ((((cfgM m).win (2 : Fin 3)).arr.view.loc (c.tc : Thread nD τ)) ↦{fullShare} A) := fun A => by
    unfold Pipeline.arrPts
    rw [show (Finset.univ : Finset (Fin 1)) = {(0 : Fin 1)} from by decide, bigSep_singleton]
  unfold RDat.arraysAt
  rw [bigSep_W0, e0, e2, s2]
  iintro ⟨Hk, Hb, ⟨⟨%A0, %h0, H0⟩, ⟨%A1, %h1, H1⟩, ⟨%A2, %h2, H2⟩⟩, HZ⟩
  have T := Pipeline.tail_seqs_but pcfgs (defs₀ (F := F)) Variants.none pre0 winO winO_inj {main_v47} c Vc (fun _ => A2)
    (tailOps (F := F)) tail_sub tail_fresh tail_keeps Q'
  rw [hP A2, rest_eq] at T
  iapply T
  isplitl [Hk H0 H1]
  · iintro ⟨Ha, Hr⟩
    iapply Hk
    isplitl [H0 H1 Ha]
    · isplitl [H0]
      · iexists A0; isplitr
        · ipureintro; exact h0
        · iexact H0
      isplitl [H1]
      · iexists A1; isplitr
        · ipureintro; exact h1
        · iexact H1
      iexists A2; isplitr
      · ipureintro; exact h2
      · iexact Ha
    · unfold ZafterOf
      iexists (fun b => StableHlo.after (tailOps (F := F)).flatten (Pipeline.withArrays winO c Vc (fun _ => A2)) (Proc.devRef .tc b))
      isplitr
      · ipureintro
        have key : ∀ b : Ref sig .tc, (∀ ops ∈ tailOps (F := F), ∀ op ∈ ops, Proc.devRef (τ := τ) .tc b ∉ op.writes) → b ≠ main_v48 →
            StableHlo.after (tailOps (F := F)).flatten (Pipeline.withArrays winO c Vc (fun _ => A2)) (Proc.devRef .tc b) = Vc (Proc.devRef .tc b) := by
          intro b hw hb
          rw [StableHlo.after_of_forall_not_mem _ _ (fun op hop => by
              obtain ⟨ops, hops, hop'⟩ := List.mem_flatten.mp hop
              exact hw ops hops op hop'),
            Pipeline.withArrays_of_ne winO c Vc (fun _ => A2) b (fun w e => hb (by obtain rfl : w = 0 := Subsingleton.elim _ _; exact e.symm))]
        exact ⟨key main_arg0 (fun ops ho op h => (tail_ok ops ho op h).2.2.2.1) (by decide),
          key main_arg1 (fun ops ho op h => (tail_ok ops ho op h).2.2.2.2.1) (by decide),
          key main_arg2 (fun ops ho op h => (tail_ok ops ho op h).2.2.2.2.2) (by decide)⟩
      · unfold Pipeline.unscopedRestP
        iexact Hr
  · isplitl [Hb]
    · iexact Hb
    isplitl [H2]
    · iexact H2
    · unfold Pipeline.unscopedRestP
      iexact HZ

/-- At the contents the stretches before the call leave. -/
theorem htail (c : Dev nD) (Q' : PUnit → sProp 𝕄) :
    iprop((iprop((rdat m c).arraysAt (cfgM m).N ∗ Zafter m c) -∗ Q' ⟨⟩)
        ∗ boundary (c.tc : Thread nD τ) ∗ (rdat m c).arraysAt (cfgM m).N ∗ Pipeline.unscopedRestP pre0 (cfgM m).spec c (V m c))
      ⊢ wp frame (wpE (Pipeline.defs pcfgs (defs₀ (F := F))) (Variants.lift Variants.none) (c.tc : Thread nD τ) none) Set.univ
          (Pipeline.chain ((tailOps (F := F)).map StableHlo.seq)) Q' :=
  htail_of m c (V0 m c) Q'

/-! ## The run and the frame -/

/-- A property of every operation of the eight stretches before the call. -/
theorem pre_ok : ∀ op ∈ (preOps (F := F)).flatten, Apart.PreOk op := by
  intro op hop
  obtain ⟨ops, hops, hop'⟩ := List.mem_flatten.mp hop
  simp only [preOps, List.mem_cons, List.mem_nil_iff, or_false] at hops
  rcases hops with rfl | rfl | rfl | rfl | rfl | rfl | rfl | rfl
  · exact (List.forall_iff_forall_mem.mp Apart.hostOps0_ok) op hop'
  · exact (List.forall_iff_forall_mem.mp Apart.hostOps0_1_ok) op hop'
  · exact (List.forall_iff_forall_mem.mp Apart.hostOps0_2_ok) op hop'
  · exact (List.forall_iff_forall_mem.mp Apart.hostOps0_3_ok) op hop'
  · exact (List.forall_iff_forall_mem.mp Apart.hostOps0_4_ok) op hop'
  · exact (List.forall_iff_forall_mem.mp Apart.hostOps0_5_ok) op hop'
  · exact (List.forall_iff_forall_mem.mp Apart.hostOps0_6_ok) op hop'
  · exact (List.forall_iff_forall_mem.mp Apart.hostOps0_7_ok) op hop'

/-- No host operation before the call writes an argument: the call finds each as launched. -/
theorem V_arg0 (c : Dev nD) : V m c main_arg0 = m ((c.tc : Thread nD τ).loc main_arg0) :=
  StableHlo.after_of_forall_not_mem _ _ fun op hop => (pre_ok op hop).1
theorem V_arg1 (c : Dev nD) : V m c main_arg1 = m ((c.tc : Thread nD τ).loc main_arg1) :=
  StableHlo.after_of_forall_not_mem _ _ fun op hop => (pre_ok op hop).2.1
theorem V_arg2 (c : Dev nD) : V m c main_arg2 = m ((c.tc : Thread nD τ).loc main_arg2) :=
  StableHlo.after_of_forall_not_mem _ _ fun op hop => (pre_ok op hop).2.2

-- the launch theorem's implicit arguments are found by unifying its conclusion with this one, which takes unfolding plain
-- definitions in a metavariable's type
set_option backward.isDefEq.respectTransparency.types false in
/-- THE FRAME: from any memory with zero counters every weakly fair execution of @main terminates without a fault, and
    the three argument arrays end as they were launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact RDat.θ_run_region_pf_tail pcfgs (fun _ => adm m) (fun _ c => rdat m c) () (cellOf_inj fun _ => adm m) (0 : Fin 1)
    winFacts₀0 (Pipeline.OwnSemFacts.none _) preFacts0 emb₁ (defs₀ (F := F)) Variants.none m ρ main
    (fun _ => Pipeline.chain ((tailOps (F := F)).map StableHlo.seq)) (fun c => body_obligation m c)
    block_pos0 arr_whole0 stage_whole0 (fun _ _ => rfl)
    (G := fun _ => iprop(emp))
    (u₀ := initOf (Pipeline.cells (Pipeline.pin pcfgs fun _ => adm m) (cellOf_inj fun _ => adm m))
      (Pipeline.launchToks (Pipeline.pin pcfgs fun _ => adm m) (cellOf_inj fun _ => adm m)))
    (hu₀ := by
      iintro Hu; imodintro
      isplitl [Hu]
      · iapply (show (ownU _ : sProp 𝕄) ⊢ BI.own (emb₁ (initOf (Pipeline.cells (Pipeline.pin pcfgs fun _ => adm m) (cellOf_inj fun _ => adm m))
          (Pipeline.launchToks (Pipeline.pin pcfgs fun _ => adm m) (cellOf_inj fun _ => adm m)))) from .rfl)
        iexact Hu
      · iapply (show (BI.emp : sProp 𝕄) ⊢ bigSep Finset.univ (fun _ : Dev nD => (BI.emp : sProp 𝕄)) from by rw [BI.bigSep_emp_const])
        iempintro)
    (V := V m) (hmain := hmain m Variants.none) (hsplit := hsplit m) (hpf := V_pre m)
    (X := fun c => iprop(∃ r, prngReg c r)) (Y := fun c => iprop(∃ r, prngReg c r))
    (Z := fun c => Pipeline.unscopedRestP pre0 (cfgM m).spec c (V m c)) (Z' := Zafter m)
    (hX := fun c => by
      iintro ⟨HU, -, -, -, Hp, -⟩; imodintro
      isplitl [Hp]
      · iexists _; iexact Hp
      · iexact HU)
    (hin := fun c => by
      show _ ⊢ iprop(Pipeline.ΦA spec0 c ∗ Pipeline.ΦT pre0 (tbl m) c)
      unfold Pipeline.ΦA Pipeline.ΦT
      iintro ⟨Hp, Ht, Hr⟩
      isplitl [Hp Hr]
      · isplitl [Hr]
        · iexact Hr
        · iexact Hp
      · iexact Ht)
    (hout := fun c => by
      show iprop(Pipeline.ΦA spec0 c ∗ Pipeline.ΦT pre0 (tbl m) c) ⊢ _
      rw [Pipeline.ownSems0_none]; unfold Pipeline.ΦA
      iintro ⟨⟨Hr, Hp⟩, -⟩
      isplitl [Hp]
      · iexact Hp
      isplitr
      · iempintro
      · iexact Hr)
    (htail := htail m)
    (QY := fun c s => s.mem ((c.tc : Thread nD τ).loc main_arg0) = V m c main_arg0
      ∧ s.mem ((c.tc : Thread nD τ).loc main_arg1) = V m c main_arg1 ∧ s.mem ((c.tc : Thread nD τ).loc main_arg2) = V m c main_arg2)
    (hY := fun c s' => by
      iintro ⟨-, HZ, HSI⟩
      unfold Zafter ZafterOf
      icases HZ with ⟨%G, %hG, HZ⟩
      unfold Pipeline.unscopedRestP
      ihave HZ' := (pointsTo_read_all (Pipeline.restRefsP sig pre0 spec0) (fun b => (c.tc : Thread nD τ).loc b) G s') $$ [HZ HSI]
      · isplitl [HZ] <;> iassumption
      icases HZ' with ⟨%hZ, HSI⟩
      imodintro
      isplitr
      · ipureintro
        exact ⟨(hZ main_arg0 (by decide)).trans hG.1, (hZ main_arg1 (by decide)).trans hG.2.1, (hZ main_arg2 (by decide)).trans hG.2.2⟩
      · iexact HSI)
    (hQ := fun s h c => ⟨(h c).2.2.1.trans (V_arg0 m c), (h c).2.2.2.1.trans (V_arg1 m c), (h c).2.2.2.2.trans (V_arg2 m c)⟩)

end Cert.KernelIdeal.Run

end
-- ==== Proof.ExactBodyIdeal.lean ====
/-
  The kernel body at one grid point, exactly. Whichever way the two tests fall, the input buffers and the table come back as
  found, and the output buffer comes back at a function of what the body was handed: when the innermost coordinate is zero
  the block is first reset to the zero payload; then, on a live tile, the live payload of the two input blocks and of the
  (possibly reset) block is stored; otherwise the (possibly reset) block stands. Each store through the whole block covers
  it, so what the buffer holds afterwards is the last store's payload, its loads read through whole buffers.
-/
import proofs.«120018_j30030411333999_2_alg».proof.Proof.BodyIdeal
import Idealize.ShloMosaic.Lib.Pipeline.Value

set_option maxRecDepth 16384

noncomputable section

namespace Cert.KernelIdeal.ExactBody

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem hz3 : (![0, 0, 0] : Fin 3 → Nat) = fun _ => 0 := funext fun a => by fin_cases a <;> rfl

/-- What one point makes of the output block `x6`, given the count `n` and the two input blocks. -/
def stepOut (i : grid0.Coords) (n : Elt F .i32) (x4 : Vec F S1x1024x4096 .bf16) (x5 : Vec F S1x512x4096 .bf16)
    (x6 : Vec F S1x1024x1 .f32) : Vec F S1x1024x1 .f32 :=
  if k0_cond2 i n = 1#1 then k0_pay2 i n x4 x5 (if k0_cond1 i = 1#1 then k0_pay1 (F := F) else x6)
  else (if k0_cond1 i = 1#1 then k0_pay1 (F := F) else x6)

/-- At a point that resets, what was found does not matter. -/
theorem stepOut_reset (i : grid0.Coords) (n : Elt F .i32) (x4 : Vec F S1x1024x4096 .bf16) (x5 : Vec F S1x512x4096 .bf16)
    (x6 x6' : Vec F S1x1024x1 .f32) (h1 : k0_cond1 i = 1#1) : stepOut i n x4 x5 x6 = stepOut i n x4 x5 x6' := by
  unfold stepOut; rw [if_pos h1, if_pos h1]

/-- At a point where neither store is taken, the block stands. -/
theorem stepOut_idle (i : grid0.Coords) (n : Elt F .i32) (x4 : Vec F S1x1024x4096 .bf16) (x5 : Vec F S1x512x4096 .bf16)
    (x6 : Vec F S1x1024x1 .f32) (h1 : ¬ k0_cond1 i = 1#1) (h2 : ¬ k0_cond2 i n = 1#1) : stepOut i n x4 x5 x6 = x6 := by
  unfold stepOut; rw [if_neg h2, if_neg h1]

set_option maxHeartbeats 1000000 in
theorem caseA (c : Dev nD) (i : grid0.Coords)
    (arg4 : Memref sig .tc .vmem S1x1024x4096 .bf16) (harg4 : arg4.IsWhole)
    (arg5 : Memref sig .tc .vmem S1x512x4096 .bf16) (harg5 : arg5.IsWhole)
    (arg6 : Memref sig .tc .vmem S1x1024x1 .f32) (harg6 : arg6.IsWhole)
    (x4 : Vec F S1x1024x4096 .bf16) (x5 : Vec F S1x512x4096 .bf16) (x6 : Vec F S1x1024x1 .f32) (xt : TbBuf (F := F) c)
    (h1 : k0_cond1 i = 1#1) (h2 : k0_cond2 i (word c xt) = 1#1)
    (E : Set ℕ) (K : PUnit → sProp 𝕄) :
    iprop(owns (c : Thread nD τ) arg4 fullShare x4 ∗ owns (c : Thread nD τ) arg5 fullShare x5 ∗ owns (c : Thread nD τ) arg6 fullShare x6 ∗ tbPt c xt
        ∗ (iprop(owns (c : Thread nD τ) arg4 fullShare x4 ∗ owns (c : Thread nD τ) arg5 fullShare x5
              ∗ owns (c : Thread nD τ) arg6 fullShare (k0_pay2 i (word c xt) x4 x5 (k0_pay1 (F := F))) ∗ tbPt c xt) -∗ K ⟨⟩))
      ⊢ wp frame (wpE (defs₀ (F := F)) Variants.none c none) E (cc0__neg_error_kernel i tbM htbM arg4 harg4 arg5 harg5 arg6 harg6) K := by
  simp only [cc0__neg_error_kernel_eq_skeleton]; unfold cc0__neg_error_kernel_skel
  unfold owns
  iintro ⟨⟨%f4, %hf4, H4⟩, ⟨%f5, %hf5, H5⟩, ⟨%f6, %hf6, H6⟩, HT, Hk⟩
  obtain rfl := harg4.eq_unread hf4; obtain rfl := harg5.eq_unread hf5; obtain rfl := harg6.eq_unread hf6
  sl_exec (disch := first | exact h1 | sl_exact h2 | exact h2)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    ipureintro
    rw [View.read_writes_eq_canon _ _ _ (fun y => View.cover_of_wholeMem _ (by sl_whole_mem) y)]
    sl_unfold_words
    rw [View.canon_cons_unit_zero (S := S1x1024x1) hz3]
    simp only [View.readAt_eq_ld, harg4.read_unread, harg5.read_unread, harg6.read_unread,
      View.ld_unit_zero (S := S1x1024x4096) hz3, View.ld_unit_zero (S := S1x512x4096) hz3, View.ld_unit_zero (S := S1x1024x1) hz3,
      View.readCov_unit_zero (S := S1x1024x1) _ hz3]
    rfl
  iexact HT

set_option maxHeartbeats 1000000 in
theorem caseB (c : Dev nD) (i : grid0.Coords)
    (arg4 : Memref sig .tc .vmem S1x1024x4096 .bf16) (harg4 : arg4.IsWhole)
    (arg5 : Memref sig .tc .vmem S1x512x4096 .bf16) (harg5 : arg5.IsWhole)
    (arg6 : Memref sig .tc .vmem S1x1024x1 .f32) (harg6 : arg6.IsWhole)
    (x4 : Vec F S1x1024x4096 .bf16) (x5 : Vec F S1x512x4096 .bf16) (x6 : Vec F S1x1024x1 .f32) (xt : TbBuf (F := F) c)
    (h1 : k0_cond1 i = 1#1) (h2 : ¬ k0_cond2 i (word c xt) = 1#1)
    (E : Set ℕ) (K : PUnit → sProp 𝕄) :
    iprop(owns (c : Thread nD τ) arg4 fullShare x4 ∗ owns (c : Thread nD τ) arg5 fullShare x5 ∗ owns (c : Thread nD τ) arg6 fullShare x6 ∗ tbPt c xt
        ∗ (iprop(owns (c : Thread nD τ) arg4 fullShare x4 ∗ owns (c : Thread nD τ) arg5 fullShare x5
              ∗ owns (c : Thread nD τ) arg6 fullShare (k0_pay1 (F := F)) ∗ tbPt c xt) -∗ K ⟨⟩))
      ⊢ wp frame (wpE (defs₀ (F := F)) Variants.none c none) E (cc0__neg_error_kernel i tbM htbM arg4 harg4 arg5 harg5 arg6 harg6) K := by
  simp only [cc0__neg_error_kernel_eq_skeleton]; unfold cc0__neg_error_kernel_skel
  unfold owns
  iintro ⟨⟨%f4, %hf4, H4⟩, ⟨%f5, %hf5, H5⟩, ⟨%f6, %hf6, H6⟩, HT, Hk⟩
  obtain rfl := harg4.eq_unread hf4; obtain rfl := harg5.eq_unread hf5; obtain rfl := harg6.eq_unread hf6
  sl_exec (disch := first | exact h1 | sl_exact h2 | exact h2)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    ipureintro
    rw [View.read_writes_eq_canon _ _ _ (fun y => View.cover_of_wholeMem _ (by sl_whole_mem) y)]
    rw [View.canon_unit_zero hz3]
  iexact HT

set_option maxHeartbeats 1000000 in
theorem caseC (c : Dev nD) (i : grid0.Coords)
    (arg4 : Memref sig .tc .vmem S1x1024x4096 .bf16) (harg4 : arg4.IsWhole)
    (arg5 : Memref sig .tc .vmem S1x512x4096 .bf16) (harg5 : arg5.IsWhole)
    (arg6 : Memref sig .tc .vmem S1x1024x1 .f32) (harg6 : arg6.IsWhole)
    (x4 : Vec F S1x1024x4096 .bf16) (x5 : Vec F S1x512x4096 .bf16) (x6 : Vec F S1x1024x1 .f32) (xt : TbBuf (F := F) c)
    (h1 : ¬ k0_cond1 i = 1#1) (h2 : k0_cond2 i (word c xt) = 1#1)
    (E : Set ℕ) (K : PUnit → sProp 𝕄) :
    iprop(owns (c : Thread nD τ) arg4 fullShare x4 ∗ owns (c : Thread nD τ) arg5 fullShare x5 ∗ owns (c : Thread nD τ) arg6 fullShare x6 ∗ tbPt c xt
        ∗ (iprop(owns (c : Thread nD τ) arg4 fullShare x4 ∗ owns (c : Thread nD τ) arg5 fullShare x5
              ∗ owns (c : Thread nD τ) arg6 fullShare (k0_pay2 i (word c xt) x4 x5 x6) ∗ tbPt c xt) -∗ K ⟨⟩))
      ⊢ wp frame (wpE (defs₀ (F := F)) Variants.none c none) E (cc0__neg_error_kernel i tbM htbM arg4 harg4 arg5 harg5 arg6 harg6) K := by
  simp only [cc0__neg_error_kernel_eq_skeleton]; unfold cc0__neg_error_kernel_skel
  unfold owns
  iintro ⟨⟨%f4, %hf4, H4⟩, ⟨%f5, %hf5, H5⟩, ⟨%f6, %hf6, H6⟩, HT, Hk⟩
  obtain rfl := harg4.eq_unread hf4; obtain rfl := harg5.eq_unread hf5; obtain rfl := harg6.eq_unread hf6
  sl_exec (disch := first | exact h1 | sl_exact h2 | exact h2)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    ipureintro
    rw [View.read_writes_eq_canon _ _ _ (fun y => View.cover_of_wholeMem _ (by sl_whole_mem) y)]
    rw [View.canon_unit_zero hz3]
    simp only [View.readAt_eq_ld, harg4.read_unread, harg5.read_unread, harg6.read_unread,
      View.ld_unit_zero (S := S1x1024x4096) hz3, View.ld_unit_zero (S := S1x512x4096) hz3, View.ld_unit_zero (S := S1x1024x1) hz3]
    rfl
  iexact HT

set_option maxHeartbeats 1000000 in
theorem caseD (c : Dev nD) (i : grid0.Coords)
    (arg4 : Memref sig .tc .vmem S1x1024x4096 .bf16) (harg4 : arg4.IsWhole)
    (arg5 : Memref sig .tc .vmem S1x512x4096 .bf16) (harg5 : arg5.IsWhole)
    (arg6 : Memref sig .tc .vmem S1x1024x1 .f32) (harg6 : arg6.IsWhole)
    (x4 : Vec F S1x1024x4096 .bf16) (x5 : Vec F S1x512x4096 .bf16) (x6 : Vec F S1x1024x1 .f32) (xt : TbBuf (F := F) c)
    (h1 : ¬ k0_cond1 i = 1#1) (h2 : ¬ k0_cond2 i (word c xt) = 1#1)
    (E : Set ℕ) (K : PUnit → sProp 𝕄) :
    iprop(owns (c : Thread nD τ) arg4 fullShare x4 ∗ owns (c : Thread nD τ) arg5 fullShare x5 ∗ owns (c : Thread nD τ) arg6 fullShare x6 ∗ tbPt c xt
        ∗ (iprop(owns (c : Thread nD τ) arg4 fullShare x4 ∗ owns (c : Thread nD τ) arg5 fullShare x5
              ∗ owns (c : Thread nD τ) arg6 fullShare (x6) ∗ tbPt c xt) -∗ K ⟨⟩))
      ⊢ wp frame (wpE (defs₀ (F := F)) Variants.none c none) E (cc0__neg_error_kernel i tbM htbM arg4 harg4 arg5 harg5 arg6 harg6) K := by
  simp only [cc0__neg_error_kernel_eq_skeleton]; unfold cc0__neg_error_kernel_skel
  unfold owns
  iintro ⟨⟨%f4, %hf4, H4⟩, ⟨%f5, %hf5, H5⟩, ⟨%f6, %hf6, H6⟩, HT, Hk⟩
  obtain rfl := harg4.eq_unread hf4; obtain rfl := harg5.eq_unread hf5; obtain rfl := harg6.eq_unread hf6
  sl_exec (disch := first | exact h1 | sl_exact h2 | exact h2)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    ipureintro
    exact harg6.read_unread _
  iexact HT

/-- The body at any point: the output block is left at `stepOut` of what was handed. -/
theorem runs_exact (c : Dev nD) (i : grid0.Coords)
    (arg4 : Memref sig .tc .vmem S1x1024x4096 .bf16) (harg4 : arg4.IsWhole)
    (arg5 : Memref sig .tc .vmem S1x512x4096 .bf16) (harg5 : arg5.IsWhole)
    (arg6 : Memref sig .tc .vmem S1x1024x1 .f32) (harg6 : arg6.IsWhole)
    (x4 : Vec F S1x1024x4096 .bf16) (x5 : Vec F S1x512x4096 .bf16) (x6 : Vec F S1x1024x1 .f32) (xt : TbBuf (F := F) c)
    (E : Set ℕ) (K : PUnit → sProp 𝕄) :
    iprop(owns (c : Thread nD τ) arg4 fullShare x4 ∗ owns (c : Thread nD τ) arg5 fullShare x5 ∗ owns (c : Thread nD τ) arg6 fullShare x6 ∗ tbPt c xt
        ∗ (iprop(owns (c : Thread nD τ) arg4 fullShare x4 ∗ owns (c : Thread nD τ) arg5 fullShare x5
              ∗ owns (c : Thread nD τ) arg6 fullShare (stepOut i (word c xt) x4 x5 x6) ∗ tbPt c xt) -∗ K ⟨⟩))
      ⊢ wp frame (wpE (defs₀ (F := F)) Variants.none c none) E (cc0__neg_error_kernel i tbM htbM arg4 harg4 arg5 harg5 arg6 harg6) K := by
  by_cases h1 : k0_cond1 i = 1#1 <;> by_cases h2 : k0_cond2 i (word c xt) = 1#1
  · have e : stepOut i (word c xt) x4 x5 x6 = k0_pay2 i (word c xt) x4 x5 (k0_pay1 (F := F)) := by unfold stepOut; rw [if_pos h2, if_pos h1]
    rw [e]; exact caseA c i arg4 harg4 arg5 harg5 arg6 harg6 x4 x5 x6 xt h1 h2 E K
  · have e : stepOut i (word c xt) x4 x5 x6 = k0_pay1 (F := F) := by unfold stepOut; rw [if_neg h2, if_pos h1]
    rw [e]; exact caseB c i arg4 harg4 arg5 harg5 arg6 harg6 x4 x5 x6 xt h1 h2 E K
  · have e : stepOut i (word c xt) x4 x5 x6 = k0_pay2 i (word c xt) x4 x5 x6 := by unfold stepOut; rw [if_pos h2, if_neg h1]
    rw [e]; exact caseC c i arg4 harg4 arg5 harg5 arg6 harg6 x4 x5 x6 xt h1 h2 E K
  · have e : stepOut i (word c xt) x4 x5 x6 = x6 := by unfold stepOut; rw [if_neg h2, if_neg h1]
    rw [e]; exact caseD c i arg4 harg4 arg5 harg5 arg6 harg6 x4 x5 x6 xt h1 h2 E K

end Cert.KernelIdeal.ExactBody

end
-- ==== Proof.ExactDataIdeal.lean ====
/-
  The region's proof data with the output's contents NAMED. The grid's 64 points run over (array, row tile, column tile), the
  column tile innermost with 8 values. What a point leaves in the output block is `res`, by recursion on the point: the
  point's map `stepOut` of what the previous point left (at a point whose column tile is 0 the map resets first, so what
  was there does not matter). The output block is written back exactly at column tile 7 and never fetched; the two input
  windows hold, at every point, the block of the stack a fetch there would bring, fetched there or not. At a point where
  neither store is taken the block stands, which is how the contents pass through the dead tiles.
-/
import proofs.«120018_j30030411333999_2_alg».proof.Proof.RegionIdeal
import proofs.«120018_j30030411333999_2_alg».proof.Proof.ExactBodyIdeal
import Idealize.ShloMosaic.Lib.Pipeline.Value

set_option maxRecDepth 16384

noncomputable section

namespace Cert.KernelIdeal.Exact

open Cert.KernelIdeal Cert.KernelIdeal.Gen Cert.KernelIdeal.Region Cert.KernelIdeal.ExactBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ)

/-- The count of negative rows as the body loads it. -/
abbrev nW (c : Dev nD) : Elt F .i32 := Body.word c ((adm m).1 0)

/-- An input window's block at a point: what a fetch there brings into the buffer. -/
def blkIn (c : Dev nD) (w : Fin (cfgM m).W) (t : Fin (cfgM m).N) : ((cfgM m).win w).block.Idx → Elt F ((cfgM m).win w).elt :=
  (rdat m c).fetched w t (fun _ => Classical.arbitrary _)

/-- What point number `n` leaves in the output block. -/
def res (c : Dev nD) : (n : ℕ) → n < (cfgM m).N → Vec F S1x1024x1 .f32
  | 0, h => stepOut (grid0.coords ⟨0, h⟩) (nW m c) (blkIn m c 0 ⟨0, h⟩) (blkIn m c 1 ⟨0, h⟩) (k0_pay1 (F := F))
  | n + 1, h => stepOut (grid0.coords ⟨n + 1, h⟩) (nW m c) (blkIn m c 0 ⟨n + 1, h⟩) (blkIn m c 1 ⟨n + 1, h⟩) (res c n (Nat.lt_of_succ_lt h))

theorem res_succ (c : Dev nD) (n : ℕ) (h : n + 1 < (cfgM m).N) :
    res m c (n + 1) h = stepOut (grid0.coords ⟨n + 1, h⟩) (nW m c) (blkIn m c 0 ⟨n + 1, h⟩) (blkIn m c 1 ⟨n + 1, h⟩) (res m c n (Nat.lt_of_succ_lt h)) := rfl

/-- The exact proof data on core `c`. -/
def dat (c : Dev nD) : Dat τ (Elt F) Unit ℕ (UR sig nD τ) ℕ (cfgM m) c where
  A w := V m c (Pipeline.arrRef spec0 w)
  after w t := match w with
    | ⟨0, _⟩ => blkIn m c 0 t
    | ⟨1, _⟩ => blkIn m c 1 t
    | ⟨2, _⟩ => res m c t.val t.isLt
  Φ _ := iprop(Pipeline.ΦA spec0 c ∗ Pipeline.ΦT pre0 (tbl m) c)
  q w := match w with
    | ⟨0, _⟩ => fullShare.left
    | ⟨1, _⟩ => fullShare.right
    | ⟨2, _⟩ => fullShare
  owed _ := 0

theorem after2 (c : Dev nD) (t : Fin (cfgM m).N) : (dat m c).after 2 t = res m c t.val t.isLt := by dsimp only [dat]; rfl

/-! ## The schedule of the output window, and the first test, decided over the grid -/

/-- The reset is taken exactly at column tile 0. -/
theorem cond1_iff : ∀ t : Fin (cfgM m).N, k0_cond1 (grid0.coords t) = 1#1 ↔ t.val % 8 = 0 :=
  (by decide +kernel : ∀ t : Fin grid0.N, k0_cond1 (grid0.coords t) = 1#1 ↔ t.val % 8 = 0)

/-- The output block is written back exactly at column tile 7, -/
theorem flushOf2 : ∀ t : Fin grid0.N, Pipeline.Window.flushOf grid0 true cc0_transform_2 t = decide (t.val % 8 = 7) := by decide +kernel
theorem isOut2 (a : (pcfg0 (F := F)).Adm) : ((cfg0 a).win 2).isOut = true := rfl
theorem indexMap2 (a : (pcfg0 (F := F)).Adm) : ((cfg0 a).win 2).indexMap = cc0_transform_2 := rfl
theorem flush2_at (a : (pcfg0 (F := F)).Adm) (t : Fin (cfg0 a).N) : ((cfg0 a).win 2).flush t = decide (t.val % 8 = 7) := by
  rw [Pipeline.Window.flush_eq_flushOf, isOut2, indexMap2]
  exact flushOf2 t
theorem flush2 (t : Fin (cfgM m).N) : ((cfgM m).win 2).flush t = decide (t.val % 8 = 7) := flush2_at (adm m) t

/-- and never fetched. -/
theorem fetch2 (t : Fin (cfgM m).N) : ((cfgM m).win 2).fetch t = false := rfl

/-- Where the output is idle: neither store taken (at any admissible table, then at this program's). -/
theorem idle2_at (a : (pcfg0 (F := F)).Adm) (i : grid0.Coords) :
    (cfg0 a).idle 2 i = (!(k0_cond1 i == 1#1) && !(k0_cond2 i (a.1.atD 0 ![0]) == 1#1)) := rfl

/-- The word the index maps and the idle table read is the word the body loads (for any contents, then for these). -/
theorem word_eq_at (c : Dev nD) (pf : pre0.Contents (Elt F)) : pf.atD 0 ![0] = Body.word c (pf 0) := rfl

end Cert.KernelIdeal.Exact

end
-- ==== Proof.ExactObligationIdeal.lean ====
/-
  The exact body obligation. At every point each input buffer holds its block of the stack (a fetch there would bring it, and
  an unfetched buffer still holds it because the block index did not move). The output buffer, after the first point of its
  block, holds what the previous point left: the previous point did not write back, and if it was idle it handed the buffer
  on as found. So the body's map of what it finds is, at an idle point, what it found, and otherwise the point's named
  contents.
-/
import proofs.«120018_j30030411333999_2_alg».proof.Proof.ExactDataIdeal

set_option maxRecDepth 16384

noncomputable section

namespace Cert.KernelIdeal.Exact

open Cert.KernelIdeal Cert.KernelIdeal.Gen Cert.KernelIdeal.Region Cert.KernelIdeal.ExactBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ)

theorem after0 (c : Dev nD) (t : Fin (cfgM m).N) : (dat m c).after 0 t = blkIn m c 0 t := by dsimp only [dat]; rfl
theorem after1 (c : Dev nD) (t : Fin (cfgM m).N) : (dat m c).after 1 t = blkIn m c 1 t := by dsimp only [dat]; rfl

/-- The first input window's buffer holds its block at every point. -/
theorem before0 (c : Dev nD) (t : Fin (cfgM m).N) (d) : (dat m c).before 0 t d = blkIn m c 0 t := by
  refine ((dat m c).before_in_eq_fetched 0 rfl (fun _ => rfl) (fun _ _ _ => rfl) (fun t => ?_) t d).trans ?_
  · rw [after0]
    unfold blkIn RDat.fetched
    exact ((cfgM m).win 0).cut_fill _ _ _
  · exact (dat m c).fetched_of_clip_none 0 t (fun _ => rfl) d (fun _ => Classical.arbitrary _)

/-- And the second's. -/
theorem before1 (c : Dev nD) (t : Fin (cfgM m).N) (d) : (dat m c).before 1 t d = blkIn m c 1 t := by
  refine ((dat m c).before_in_eq_fetched 1 rfl (fun _ => rfl) (fun _ _ _ => rfl) (fun t => ?_) t d).trans ?_
  · rw [after1]
    unfold blkIn RDat.fetched
    exact ((cfgM m).win 1).cut_fill _ _ _
  · exact (dat m c).fetched_of_clip_none 1 t (fun _ => rfl) d (fun _ => Classical.arbitrary _)

/-- Decoding an idle point: neither store is taken there. -/
theorem idle2_iff_at (a : (pcfg0 (F := F)).Adm) (c : Dev nD) (i : grid0.Coords) :
    (cfg0 a).idle 2 i = true ↔ (¬ k0_cond1 i = 1#1 ∧ ¬ k0_cond2 i (Body.word c (a.1 0)) = 1#1) := by
  rw [idle2_at, word_eq_at c a.1]
  simp only [Bool.and_eq_true, Bool.not_eq_true', beq_eq_false_iff_ne, ne_eq]
theorem idle2_iff (c : Dev nD) (i : grid0.Coords) :
    (cfgM m).idle 2 i = true ↔ (¬ k0_cond1 i = 1#1 ∧ ¬ k0_cond2 i (nW m c) = 1#1) := idle2_iff_at (adm m) c i

/-- After the first point of its block, the output buffer holds what the previous point left. -/
theorem before2 (c : Dev nD) : ∀ (n : ℕ) (h : n < (cfgM m).N), n % 8 ≠ 0 → ∀ d,
    (dat m c).before 2 ⟨n, h⟩ d = res m c (n - 1) (by omega) := by
  intro n
  induction n using Nat.strong_induction_on with
  | _ n ih =>
    intro h hn d
    obtain ⟨k, rfl⟩ : ∃ k, n = k + 1 := ⟨n - 1, by omega⟩
    have hk : k < (cfgM m).N := by omega
    have h7 : k % 8 ≠ 7 := by omega
    have hfl : ((cfgM m).win 2).flush ⟨k, hk⟩ = false := by rw [flush2]; exact decide_eq_false h7
    rw [(dat m c).before_of_pos 2 ⟨k + 1, h⟩ (Nat.succ_ne_zero k) (fetch2 m _) d]
    show (if ((cfgM m).win 2).flush ⟨k, hk⟩ = true then d else (dat m c).left 2 ⟨k, hk⟩ d) = res m c k hk
    rw [if_neg (by rw [hfl]; exact Bool.false_ne_true)]
    unfold Dat.left
    split
    · next hi =>
      obtain ⟨h1, h2⟩ := (idle2_iff m c _).mp hi
      have hk8 : k % 8 ≠ 0 := fun e => h1 ((cond1_iff m ⟨k, hk⟩).mpr e)
      obtain ⟨j, rfl⟩ : ∃ j, k = j + 1 := ⟨k - 1, by omega⟩
      rw [ih (j + 1) (by omega) hk hk8 d, res_succ]
      exact (stepOut_idle _ _ _ _ _ h1 h2).symm
    · exact after2 m c ⟨k, hk⟩

/-- What the body's map makes of the block it finds: at an idle point the block itself, otherwise the point's contents. -/
theorem step_eq (c : Dev nD) (t : Fin (cfgM m).N) (d) :
    ((cfgM m).idle 2 (grid0.coords t) = true →
        stepOut (grid0.coords t) (nW m c) (blkIn m c 0 t) (blkIn m c 1 t) ((dat m c).before 2 t d) = (dat m c).before 2 t d)
    ∧ stepOut (grid0.coords t) (nW m c) (blkIn m c 0 t) (blkIn m c 1 t) ((dat m c).before 2 t d) = res m c t.val t.isLt := by
  refine ⟨fun hi => ?_, ?_⟩
  · obtain ⟨h1, h2⟩ := (idle2_iff m c _).mp hi
    exact stepOut_idle _ _ _ _ _ h1 h2
  · obtain ⟨n, h⟩ := t
    by_cases h8 : n % 8 = 0
    · have h1 : k0_cond1 (grid0.coords ⟨n, h⟩) = 1#1 := (cond1_iff m ⟨n, h⟩).mpr h8
      cases n with
      | zero => exact stepOut_reset _ _ _ _ _ _ h1
      | succ k => rw [res_succ]; exact stepOut_reset _ _ _ _ _ _ h1
    · obtain ⟨k, rfl⟩ : ∃ k, n = k + 1 := ⟨n - 1, by omega⟩
      rw [before2 m c (k + 1) h h8 d, res_succ]
      rfl

end Cert.KernelIdeal.Exact

end
-- ==== Proof.ExactRunIdeal.lean ====
/-
  The run with the result named. As for the frame, the stack's full share is cut in two for the two windows that read it and
  the lines after the call run holding the output array and what bypassed the region; here the proof data name what every
  point leaves, so the output array after the region is the data's own account of its write-backs, and the result buffer is
  what the lines after the call compute from it.
-/
import proofs.«120018_j30030411333999_2_alg».proof.Proof.RunIdeal
import proofs.«120018_j30030411333999_2_alg».proof.Proof.ExactObligationIdeal

set_option maxRecDepth 16384

noncomputable section

namespace Cert.KernelIdeal.Exact

open Cert.KernelIdeal Cert.KernelIdeal.Gen Cert.KernelIdeal.Region Cert.KernelIdeal.ExactBody Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation -/

/-- What the output buffer is handed back at, as the exact obligation asks it case by case. -/
def leaves2 (c : Dev nD) (t : Fin (cfgM m).N) : sProp 𝕄 :=
  match (cfgM m).idle 2 ((cfgM m).grid.coords t) with
  | true =>
    match ((cfgM m).win 2).flush t with
    | false => iprop(∃ d, owns (c : Thread nD τ) (((cfgM m).win 2).stage ((cfgM m).slots t 2)) fullShare ((dat m c).before 2 t d))
    | true => owns (c : Thread nD τ) (((cfgM m).win 2).stage ((cfgM m).slots t 2)) fullShare ((dat m c).after 2 t)
  | false => owns (c : Thread nD τ) (((cfgM m).win 2).stage ((cfgM m).slots t 2)) fullShare ((dat m c).after 2 t)

/-- The body at any point, from the buffers at what they then hold. -/
theorem sound_body (c : Dev nD) (t : Fin (cfgM m).N) :
    iprop((dat m c).Φ t.castSucc ∗ (dat m c).owesAt () t.castSucc
        ∗ (∃ d, owns (c : Thread nD τ) (((cfgM m).win 0).stage ((cfgM m).slots t 0)) fullShare ((dat m c).before 0 t d))
        ∗ (∃ d, owns (c : Thread nD τ) (((cfgM m).win 1).stage ((cfgM m).slots t 1)) fullShare ((dat m c).before 1 t d))
        ∗ (∃ d, owns (c : Thread nD τ) (((cfgM m).win 2).stage ((cfgM m).slots t 2)) fullShare ((dat m c).before 2 t d)))
      ⊢ wp frame (wpE (defs₀ (F := F)) Variants.none c none) Set.univ
          (cc0__neg_error_kernel (grid0.coords t) Body.tbM Body.htbM
            (spec0_0.stage ((cfgM m).slots t 0)) (Facts₀.hstage0_0 (((cfgM m).slots t 0).cast Facts₀.nbuf0_0))
            (spec0_1.stage ((cfgM m).slots t 1)) (Facts₀.hstage0_1 (((cfgM m).slots t 1).cast Facts₀.nbuf0_1))
            (spec0_2.stage ((cfgM m).slots t 2)) (Facts₀.hstage0_2 (((cfgM m).slots t 2).cast Facts₀.nbuf0_2)))
          (fun _ => iprop((dat m c).Φ t.succ ∗ (dat m c).owesAt () t.succ
            ∗ owns (c : Thread nD τ) (((cfgM m).win 0).stage ((cfgM m).slots t 0)) fullShare ((dat m c).after 0 t)
            ∗ owns (c : Thread nD τ) (((cfgM m).win 1).stage ((cfgM m).slots t 1)) fullShare ((dat m c).after 1 t)
            ∗ leaves2 m c t)) := by
  simp only [before0, before1, after0, after1]
  rw [show (dat m c).Φ t.castSucc = iprop(Pipeline.ΦA spec0 c ∗ Pipeline.ΦT pre0 (tbl m) c) from rfl,
    show (dat m c).Φ t.succ = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩⟩
  iapply (runs_exact c (grid0.coords t)
    (spec0_0.stage ((cfgM m).slots t 0)) (Facts₀.hstage0_0 (((cfgM m).slots t 0).cast Facts₀.nbuf0_0))
    (spec0_1.stage ((cfgM m).slots t 1)) (Facts₀.hstage0_1 (((cfgM m).slots t 1).cast Facts₀.nbuf0_1))
    (spec0_2.stage ((cfgM m).slots t 2)) (Facts₀.hstage0_2 (((cfgM m).slots t 2).cast Facts₀.nbuf0_2))
    (blkIn m c 0 t) (blkIn m c 1 t) ((dat m c).before 2 t d2) ((adm m).1 0) Set.univ _)
  isplitl [H0]
  · iexact H0
  isplitl [H1]
  · iexact H1
  isplitl [H2]
  · iexact H2
  isplitl [HT]
  · iexact HT
  iintro ⟨H0, H1, H2, HT⟩
  isplitl [HΦ HT]
  · isplitl [HΦ]
    · iexact HΦ
    · iexact HT
  isplitl [Ho]
  · iexact Ho
  isplitl [H0]
  · iexact H0
  isplitl [H1]
  · iexact H1
  obtain ⟨hidle, hres⟩ := step_eq m c t d2
  unfold leaves2
  split
  · next hi =>
    split
    · iexists d2
      rw [show stepOut (grid0.coords t) (nW m c) (blkIn m c 0 t) (blkIn m c 1 t) ((dat m c).before 2 t d2)
        = (dat m c).before 2 t d2 from hidle hi]
      iexact H2
    · rw [after2, show stepOut (grid0.coords t) (nW m c) (blkIn m c 0 t) (blkIn m c 1 t) ((dat m c).before 2 t d2)
        = res m c t.val t.isLt from hres]
      iexact H2
  · rw [after2, show stepOut (grid0.coords t) (nW m c) (blkIn m c 0 t) (blkIn m c 1 t) ((dat m c).before 2 t d2)
      = res m c t.val t.isLt from hres]
    iexact H2

/-- The exact body obligation, at every point. -/
theorem body_obligation (c : Dev nD) : Pipeline.BodyObligation (dat m c) (defs₀ (F := F)) Variants.none () Set.univ := fun t => by
  rw [bigSep_W0, bigSep_W0]
  exact sound_body m c t

/-! ## The arrays, the split, the lines after the call -/

/-- The data's arrays, window by window: the stack at one half and at the other, the output whole. -/
theorem arrays_form (c : Dev nD) (G : (w : Fin (cfgM m).W) → Buf (Elt F) (((cfgM m).win w).arr.view.loc (c.tc : Thread nD τ))) :
    ((dat m c).arrays G : sProp 𝕄) = iprop(((((cfgM m).win 0).arr.view.loc (c.tc : Thread nD τ)) ↦{fullShare.left} G 0)
      ∗ ((((cfgM m).win 1).arr.view.loc (c.tc : Thread nD τ)) ↦{fullShare.right} G 1)
      ∗ ((((cfgM m).win 2).arr.view.loc (c.tc : Thread nD τ)) ↦{fullShare} G 2)) := by
  have e0 : ((cfgM m).win (0 : Fin 3)).arr.view.set = Finset.univ := (arr_whole0 0).set_eq_univ
  have e2 : ((cfgM m).win (2 : Fin 3)).arr.view.set = Finset.univ := (arr_whole0 2).set_eq_univ
  have s0 : (dat m c).share (0 : Fin 3) = fullShare.left := rfl
  have s1 : (dat m c).share (1 : Fin 3) = fullShare.right := rfl
  have s2 : (dat m c).share (2 : Fin 3) = fullShare := rfl
  unfold Dat.arrays
  rw [bigSep_W0, e0, e2, s0, s1, s2]
  rfl

/-- The stack's full share is dealt to the two windows that read it; the output keeps its own. -/
theorem hsplit (c : Dev nD) : (Pipeline.arrBufs (cfgM m).spec c (V m c) : sProp 𝕄) ⊢ (dat m c).arrays ((dat m c).arrAt · 0) := by
  rw [arrays_form]
  obtain ⟨Vc, hVc⟩ : ∃ Vc : (b : Ref sig .tc) → Buf (Elt F) ((c.tc : Thread nD τ).loc b), Vc = V m c := ⟨_, rfl⟩
  have hA : ∀ w, (dat m c).arrAt w 0 = Vc (Pipeline.arrRef spec0 w) := fun w => by rw [hVc]; show (dat m c).A w = _; dsimp only [dat]
  dsimp only
  rw [hA 0, hA 1, hA 2, ← hVc]
  unfold Pipeline.arrBufs
  rw [show Finset.univ.image (Pipeline.arrRef (cfgM m).spec) = insert main_v47 {main_v48} from arr_image,
    bigSep_insert (by decide), bigSep_singleton]
  show iprop((((c.tc : Thread nD τ).loc main_v47) ↦{fullShare} Vc main_v47) ∗ (((c.tc : Thread nD τ).loc main_v48) ↦{fullShare} Vc main_v48))
    ⊢ iprop((((c.tc : Thread nD τ).loc main_v47) ↦{fullShare.left} Vc main_v47)
      ∗ (((c.tc : Thread nD τ).loc main_v47) ↦{fullShare.right} Vc main_v47) ∗ (((c.tc : Thread nD τ).loc main_v48) ↦{fullShare} Vc main_v48))
  iintro ⟨H47, H48⟩
  ihave H := (pointsTo_share (PosShare.mem_left_op_right fullShare)).1 $$ H47
  icases H with ⟨Hl, Hr⟩
  isplitl [Hl]
  · iexact Hl
  isplitl [Hr]
  · iexact Hr
  iexact H48

/-- The output array after the region, by the data's account of its write-backs. -/
abbrev outArr (c : Dev nD) : Buf (Elt F) (((cfgM m).win 2).arr.view.loc (c.tc : Thread nD τ)) := (dat m c).arrAt 2 (cfgM m).N

/-- Every buffer after the lines that follow the call, entered at contents `Vc` with the output array at `A2`. -/
abbrev afterTail (c : Dev nD) (Vc : Valuation τ sig (Elt F)) (A2 : Buf (Elt F) (((cfgM m).win 2).arr.view.loc (c.tc : Thread nD τ))) :
    Valuation τ sig (Elt F) :=
  StableHlo.after (tailOps (F := F)).flatten (Pipeline.withArrays winO c Vc (fun _ => A2))

/-- What those lines hand back of the buffers that bypassed the region. -/
def ZX (c : Dev nD) (Vc : Valuation τ sig (Elt F)) : sProp 𝕄 :=
  Pipeline.unscopedRestP pre0 (cfgM m).spec c (fun b => afterTail m c Vc (outArr m c) (Proc.devRef .tc b))

set_option maxHeartbeats 1000000 in
/-- The lines after the call, from the exact final arrays. -/
theorem htail_of (c : Dev nD) (Vc : Valuation τ sig (Elt F)) (Q' : PUnit → sProp 𝕄) :
    iprop((iprop((dat m c).arrays ((dat m c).arrAt · (cfgM m).N) ∗ ZX m c Vc) -∗ Q' ⟨⟩)
        ∗ boundary (c.tc : Thread nD τ) ∗ (dat m c).arrays ((dat m c).arrAt · (cfgM m).N)
        ∗ Pipeline.unscopedRestP pre0 (cfgM m).spec c (fun b => Vc (Proc.devRef .tc b)))
      ⊢ wp frame (wpE (Pipeline.defs pcfgs (defs₀ (F := F))) (Variants.lift Variants.none) (c.tc : Thread nD τ) none) Set.univ
          (Pipeline.chain ((tailOps (F := F)).map StableHlo.seq)) Q' := by
  classical
  have hP : ∀ A : Buf (Elt F) (((cfgM m).win (2 : Fin 3)).arr.view.loc (c.tc : Thread nD τ)),
      (Pipeline.arrPts winO c (fun _ => A) : sProp 𝕄) = ((((cfgM m).win (2 : Fin 3)).arr.view.loc (c.tc : Thread nD τ)) ↦{fullShare} A) := fun A => by
    unfold Pipeline.arrPts
    rw [show (Finset.univ : Finset (Fin 1)) = {(0 : Fin 1)} from by decide, bigSep_singleton]
  rw [arrays_form]
  dsimp only
  iintro ⟨Hk, Hb, ⟨H0, H1, H2⟩, HZ⟩
  have T := Pipeline.tail_seqs_but pcfgs (defs₀ (F := F)) Variants.none pre0 winO winO_inj {main_v47} c Vc (fun _ => outArr m c)
    (tailOps (F := F)) tail_sub tail_fresh tail_keeps Q'
  rw [hP (outArr m c), rest_eq] at T
  iapply T
  isplitl [Hk H0 H1]
  · iintro ⟨Ha, Hr⟩
    iapply Hk
    isplitl [H0 H1 Ha]
    · isplitl [H0]
      · iexact H0
      isplitl [H1]
      · iexact H1
      iexact Ha
    · unfold ZX Pipeline.unscopedRestP
      iexact Hr
  · isplitl [Hb]
    · iexact Hb
    isplitl [H2]
    · iexact H2
    · unfold Pipeline.unscopedRestP
      iexact HZ

/-- At the contents the stretches before the call leave. -/
theorem htail (c : Dev nD) (Q' : PUnit → sProp 𝕄) :
    iprop((iprop((dat m c).arrays ((dat m c).arrAt · (cfgM m).N) ∗ ZX m c (V0 m c)) -∗ Q' ⟨⟩)
        ∗ boundary (c.tc : Thread nD τ) ∗ (dat m c).arrays ((dat m c).arrAt · (cfgM m).N) ∗ Pipeline.unscopedRestP pre0 (cfgM m).spec c (V m c))
      ⊢ wp frame (wpE (Pipeline.defs pcfgs (defs₀ (F := F))) (Variants.lift Variants.none) (c.tc : Thread nD τ) none) Set.univ
          (Pipeline.chain ((tailOps (F := F)).map StableHlo.seq)) Q' :=
  htail_of m c (V0 m c) Q'

/-! ## The run -/

/-- The lines after the call write no argument: an argument's contents after them are its contents at the call. -/
theorem afterTail_arg (c : Dev nD) (Vc : Valuation τ sig (Elt F)) (A2) (b : Ref sig .tc)
    (hw : ∀ ops ∈ tailOps (F := F), ∀ op ∈ ops, Proc.devRef (τ := τ) .tc b ∉ op.writes) (hb : b ≠ main_v48) :
    afterTail m c Vc A2 (Proc.devRef .tc b) = Vc (Proc.devRef .tc b) := by
  unfold afterTail
  rw [StableHlo.after_of_forall_not_mem _ _ (fun op hop => by
      obtain ⟨ops, hops, hop'⟩ := List.mem_flatten.mp hop
      exact hw ops hops op hop'),
    Pipeline.withArrays_of_ne winO c Vc (fun _ => A2) b (fun w e => hb (by obtain rfl : w = 0 := Subsingleton.elim _ _; exact e.symm))]

-- the launch theorem's implicit arguments are found by unifying its conclusion with this one, which takes unfolding plain
-- definitions in a metavariable's type
set_option backward.isDefEq.respectTransparency.types false in
/-- THE RUN WITH THE RESULT NAMED: every weakly fair execution of @main terminates without a fault; the result buffer ends at
    what the lines after the call compute from the exact output array, and the three arguments end as launched. -/
theorem run_exact : θ_run (defs (F := F)) (onTc (τ := τ) (main (F := F))) ⟨m, fun _ => 0, ρ⟩ (fun r => ∀ c : Dev nD,
      r.2.mem ((c.tc : Thread nD τ).loc main_v65) = afterTail m c (V0 m c) (outArr m c) (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail pcfgs (fun _ => adm m) (fun _ c => dat m c) () (cellOf_inj fun _ => adm m) (0 : Fin 1)
    winFacts₀0 (Pipeline.OwnSemFacts.none _) preFacts0 emb₁ (defs₀ (F := F)) Variants.none m ρ main
    (fun _ => Pipeline.chain ((tailOps (F := F)).map StableHlo.seq)) (fun c => (body_obligation m c).loose)
    block_pos0 arr_whole0 stage_whole0 (fun _ _ => rfl)
    (G := fun _ => iprop(emp))
    (u₀ := initOf (Pipeline.cells (Pipeline.pin pcfgs fun _ => adm m) (cellOf_inj fun _ => adm m))
      (Pipeline.launchToks (Pipeline.pin pcfgs fun _ => adm m) (cellOf_inj fun _ => adm m)))
    (hu₀ := by
      iintro Hu; imodintro
      isplitl [Hu]
      · iapply (show (ownU _ : sProp 𝕄) ⊢ BI.own (emb₁ (initOf (Pipeline.cells (Pipeline.pin pcfgs fun _ => adm m) (cellOf_inj fun _ => adm m))
          (Pipeline.launchToks (Pipeline.pin pcfgs fun _ => adm m) (cellOf_inj fun _ => adm m)))) from .rfl)
        iexact Hu
      · iapply (show (BI.emp : sProp 𝕄) ⊢ bigSep Finset.univ (fun _ : Dev nD => (BI.emp : sProp 𝕄)) from by rw [BI.bigSep_emp_const])
        iempintro)
    (V := V m) (hmain := hmain m Variants.none) (hsplit := hsplit m) (hpf := V_pre m)
    (X := fun c => iprop(∃ r, prngReg c r)) (Y := fun c => iprop(∃ r, prngReg c r))
    (Z := fun c => Pipeline.unscopedRestP pre0 (cfgM m).spec c (V m c)) (Z' := fun c => ZX m c (V0 m c))
    (hX := fun c => by
      iintro ⟨HU, -, -, -, Hp, -⟩; imodintro
      isplitl [Hp]
      · iexists _; iexact Hp
      · iexact HU)
    (hin := fun c => by
      show _ ⊢ iprop(Pipeline.ΦA spec0 c ∗ Pipeline.ΦT pre0 (tbl m) c)
      unfold Pipeline.ΦA Pipeline.ΦT
      iintro ⟨Hp, Ht, Hr⟩
      isplitl [Hp Hr]
      · isplitl [Hr]
        · iexact Hr
        · iexact Hp
      · iexact Ht)
    (hout := fun c => by
      show iprop(Pipeline.ΦA spec0 c ∗ Pipeline.ΦT pre0 (tbl m) c) ⊢ _
      rw [Pipeline.ownSems0_none]; unfold Pipeline.ΦA
      iintro ⟨⟨Hr, Hp⟩, -⟩
      isplitl [Hp]
      · iexact Hp
      isplitr
      · iempintro
      · iexact Hr)
    (htail := htail m)
    (QY := fun c s => ∀ b ∈ Pipeline.restRefsP sig pre0 spec0,
      s.mem ((c.tc : Thread nD τ).loc b) = afterTail m c (V0 m c) (outArr m c) (Proc.devRef .tc b))
    (hY := fun c s' => by
      iintro ⟨-, HZ, HSI⟩
      unfold ZX Pipeline.unscopedRestP
      imodintro
      iapply (pointsTo_read_all (Pipeline.restRefsP sig pre0 spec0) (fun b => (c.tc : Thread nD τ).loc b)
        (fun b => afterTail m c (V0 m c) (outArr m c) (Proc.devRef .tc b)) s')
      isplitl [HZ]
      · iexact HZ
      · iexact HSI)
    (hQ := fun s h c => ⟨(h c).2.2 main_v65 (by decide),
      ((h c).2.2 main_arg0 (by decide)).trans ((afterTail_arg m c _ _ main_arg0 (fun ops ho op hh => (tail_ok ops ho op hh).2.2.2.1) (by decide)).trans (V_arg0 m c)),
      ((h c).2.2 main_arg1 (by decide)).trans ((afterTail_arg m c _ _ main_arg1 (fun ops ho op hh => (tail_ok ops ho op hh).2.2.2.2.1) (by decide)).trans (V_arg1 m c)),
      ((h c).2.2 main_arg2 (by decide)).trans ((afterTail_arg m c _ _ main_arg2 (fun ops ho op hh => (tail_ok ops ho op hh).2.2.2.2.2) (by decide)).trans (V_arg2 m c))⟩)

end Cert.KernelIdeal.Exact

end
-- ==== Proof.PayloadIdeal.lean ====
/-
  What the body's two stores write, at the extended reals. The first store, taken when the innermost grid coordinate is
  zero, writes the zero block. The second, taken on a live tile, writes the running output block plus the tile's
  contribution: the block is re-laid as a column, the tile's masked row sums are added to it entry by entry, and the column
  is re-laid as the block. The two re-layings are inverse re-indexings and the sum is entry by entry, so the stored block is
  the running block plus what the same store would write over a zero block.
-/
import proofs.«120018_j30030411333999_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.IdealRules
import Idealize.ShloMosaic.PureOps.Ideal.Laws

noncomputable section

namespace Cert.KernelIdeal.Payload

open Cert.KernelIdeal Cert.KernelIdeal.Gen
open Idealize.ShloMosaic Idealize.ShloMosaic.ValueIdx

/-- The zero block. -/
def zeroBlock : FVec Ideal S1x1024x1 .f32 := fun _ => (0 : EReal)

/-- The reset store writes the zero block. -/
theorem pay1_eq : k0_pay1 (F := Ideal) = zeroBlock := by
  funext y
  show Ideal.ofBits .f32 0x00000000#32 = (0 : EReal)
  exact Ideal.ofBits_zero_f32

/-- The live store writes the running block plus what it writes over the zero block. -/
theorem pay2_acc (i : grid0.Coords) (v3 : Elt Ideal .i32) (x4 : Vec Ideal S1x1024x4096 .bf16) (x5 : Vec Ideal S1x512x4096 .bf16)
    (x6 : Vec Ideal S1x1024x1 .f32) (y : S1x1024x1.Idx) :
    k0_pay2 (F := Ideal) i v3 x4 x5 x6 y = x6 y + k0_pay2 (F := Ideal) i v3 x4 x5 zeroBlock y := by
  unfold k0_pay2
  dsimp only
  show (shapeCast S1024x1 x6 _ (Shape.reshapeEquiv _ y) + _) = x6 y + (shapeCast S1024x1 zeroBlock _ (Shape.reshapeEquiv _ y) + _)
  have hx : shapeCast S1x1024x1 (shapeCast S1024x1 x6 Facts₀.shapeCasts_S1x1024x1_S1024x1) Facts₀.shapeCasts_S1024x1_S1x1024x1 y = x6 y :=
    congrFun (shapeCast_shapeCast x6 _ _) y
  have hz : shapeCast S1024x1 zeroBlock Facts₀.shapeCasts_S1x1024x1_S1024x1 (Shape.reshapeEquiv Facts₀.shapeCasts_S1024x1_S1x1024x1 y) = (0 : EReal) := rfl
  rw [hz, zero_add]
  exact congrArg (· + _) hx

/-! ## One tile's contribution at a row -/

/-- The constant the kernel multiplies a similarity by: the reciprocal of the reference's divisor. -/
def invTau : EReal := ((134217728 / 13421773 : ℝ) : EReal)
theorem named_invTau : Named.named (F := Ideal) κ "inv_tau" (φ := .f32) 0x41200000#32 = invTau :=
  IdealRules.named_const.ideal_named_scalar _ _ _ _ rfl

/-- The global row and column numbers of entry (r, c) of the tile at grid point `i`, as the body computes them in words. -/
def rowWord (i : grid0.Coords) (r : Fin 1024) : BitVec 32 :=
  IntOp.addi (Scalar.muli (BitVec.ofNat 32 (i 1).val) 1024#32) (BitVec.ofNat 32 r.val)
def colWord (i : grid0.Coords) (c : Fin 512) : BitVec 32 :=
  IntOp.addi (Scalar.muli (BitVec.ofNat 32 (i 2).val) 512#32) (BitVec.ofNat 32 c.val)

/-- The similarity of row r of the first block and row c of the second: one entry of the block product. -/
def simAt (x4 : FVec Ideal S1x1024x4096 .bf16) (x5 : FVec Ideal S1x512x4096 .bf16) (r : Fin 1024) (c : Fin 512) : EReal :=
  matmul (F := Ideal) dot_S1024x4096_S512x4096_S1024x512_1_1_0_0_n_n none
    (shapeCast S1024x4096 x4 Facts₀.shapeCasts_S1x1024x4096_S1024x4096) (shapeCast S512x4096 x5 Facts₀.shapeCasts_S1x512x4096_S512x4096)
    (constant S1024x512 .f32 0x00000000#32) (ix2 r c)

/-- Entry (r, c) of the tile: the exponential of the scaled similarity where the row is below the count and the column is
    not, zero elsewhere. -/
def tileAt (i : grid0.Coords) (n : BitVec 32) (x4 : FVec Ideal S1x1024x4096 .bf16) (x5 : FVec Ideal S1x512x4096 .bf16)
    (r : Fin 1024) (c : Fin 512) : EReal :=
  Scalar.select (IntOp.andi (IntOp.cmpi .slt (rowWord i r) n) (IntOp.cmpi .sge (colWord i c) n))
    (Ideal.exp (simAt x4 x5 r c * invTau)) 0

/-- A [1024] vector re-laid as a [1024, 1] column, read at a row. -/
theorem col_apply (x : FVec Ideal S1024 .f32) (h : S1024.ShapeCasts S1024x1) (r : Fin 1024) (u : Fin 1) :
    shapeCast S1024x1 x h (ix2 r u) = x (ix1 r) :=
  shapeCast_apply x h _ _ (by
    have hu : u.val = 0 := by omega
    rw [Shape.rowMajor_val_one, Shape.rowMajor_val_two]
    show r.val = r.val * 1 + u.val
    omega)

/-- The sum along the lanes of a [1024, 512] value, read at a row. -/
theorem laneSum_apply (src : FVec Ideal S1024x512 .f32) (h : S1024x512.Reduces [1] S1024) (hφ : FKind.Formats .f32)
    (hacc : (0x00000000#32 : BitVec 32) = 0x00000000#32) (r : Fin 1024) :
    multiReduction .add [1] S1024 src 0x00000000#32 h hφ hacc (ix1 r) = ∑ c : Fin 512, src (ix2 r c) := by
  refine (Ideal.multiReduction_add_single src 0x00000000#32 h hφ hacc (ix1 r)).trans ?_
  refine Finset.sum_congr rfl fun c _ => congrArg src ?_
  funext a
  apply Fin.ext
  fin_cases a <;> rfl

/-- Over the zero block the live store writes, at row r, the tile's row sum. -/
theorem pay2_zero_apply (i : grid0.Coords) (n : Elt Ideal .i32) (x4 : FVec Ideal S1x1024x4096 .bf16) (x5 : FVec Ideal S1x512x4096 .bf16)
    (r : Fin 1024) :
    k0_pay2 (F := Ideal) i n x4 x5 zeroBlock (ix3 (0 : Fin 1) r (0 : Fin 1)) = ∑ c : Fin 512, tileAt i n x4 x5 r c := by
  unfold k0_pay2
  dsimp only
  refine (shapeCast_ab_1ab_apply _ _ (0 : Fin 1) r (0 : Fin 1)).trans ?_
  show (0 : EReal) + shapeCast S1024x1 _ _ (ix2 r (0 : Fin 1)) = _
  rw [zero_add]
  refine (col_apply _ _ r 0).trans ?_
  refine (laneSum_apply _ _ _ _ r).trans ?_
  refine Finset.sum_congr rfl fun c _ => ?_
  show Scalar.select _ _ _ = tileAt i n x4 x5 r c
  unfold tileAt rowWord colWord simAt
  have hr : (BitVec.ofNat 32 (0 * 1024 + r.val) : BitVec 32) = BitVec.ofNat 32 r.val := by rw [Nat.zero_mul, Nat.zero_add]
  have hc : (BitVec.ofNat 32 (0 * 512 + c.val) : BitVec 32) = BitVec.ofNat 32 c.val := by rw [Nat.zero_mul, Nat.zero_add]
  show Scalar.select (IntOp.andi (IntOp.cmpi .slt (IntOp.addi _ (BitVec.ofNat 32 (0 * 1024 + r.val))) n)
      (IntOp.cmpi .sge (IntOp.addi _ (BitVec.ofNat 32 (0 * 512 + c.val))) n))
    (Ideal.exp (_ * Named.named (F := Ideal) κ "inv_tau" (φ := .f32) 0x41200000#32)) (Ideal.ofBits .f32 0x00000000#32) = _
  rw [hr, hc, named_invTau, Ideal.ofBits_zero_f32]
  rfl

/-- The similarity entry is the inner product of the two rows over the 4096 features. -/
theorem simAt_eq (x4 : FVec Ideal S1x1024x4096 .bf16) (x5 : FVec Ideal S1x512x4096 .bf16) (r : Fin 1024) (c : Fin 512) :
    simAt x4 x5 r c = ∑ k : Fin 4096, x4 (ix3 (0 : Fin 1) r k) * x5 (ix3 (0 : Fin 1) c k) := by
  unfold simAt
  refine (Ideal.matmul_constant_zero_apply dot_S1024x4096_S512x4096_S1024x512_1_1_0_0_n_n none _ _ (ix2 r c)).trans ?_
  refine ((Equiv.sum_comp (contrEquiv1 dot_S1024x4096_S512x4096_S1024x512_1_1_0_0_n_n 4096 rfl rfl).symm _).symm).trans ?_
  refine Finset.sum_congr rfl fun k _ => ?_
  have hl : dot_S1024x4096_S512x4096_S1024x512_1_1_0_0_n_n.lhsIdx (ix2 r c) ((contrEquiv1 dot_S1024x4096_S512x4096_S1024x512_1_1_0_0_n_n 4096 rfl rfl).symm k) = ix2 r k := by
    funext a
    apply Fin.ext
    fin_cases a
    · rfl
    · exact (DotDims.lhsIdx_val_of_single dot_S1024x4096_S512x4096_S1024x512_1_1_0_0_n_n (cl := (1 : Fin 2)) rfl _ _).trans (contrEquiv1_symm_val dot_S1024x4096_S512x4096_S1024x512_1_1_0_0_n_n 4096 rfl rfl k)
  have hr : dot_S1024x4096_S512x4096_S1024x512_1_1_0_0_n_n.rhsIdx (ix2 r c) ((contrEquiv1 dot_S1024x4096_S512x4096_S1024x512_1_1_0_0_n_n 4096 rfl rfl).symm k) = ix2 c k := by
    funext a
    apply Fin.ext
    fin_cases a
    · rfl
    · exact (DotDims.rhsIdx_val_of_single dot_S1024x4096_S512x4096_S1024x512_1_1_0_0_n_n (cr := (1 : Fin 2)) rfl _ _).trans (contrEquiv1_symm_val dot_S1024x4096_S512x4096_S1024x512_1_1_0_0_n_n 4096 rfl rfl k)
  rw [hl, hr, shapeCast_1ab_ab_apply, shapeCast_1ab_ab_apply]

end Cert.KernelIdeal.Payload

end
-- ==== Proof.OutSpecIdeal.lean ====
/-
  What the region computes, as one formula. For the array `w` of the stack, row tile `i` and row `r` of that tile, the output
  entry is the sum over the eight column tiles of the tile's masked row sum — taken only where the body finds the tile live,
  zero otherwise. The blocks are the stack's rows `i·1024 + r` and `j·512 + c`.
-/
import proofs.«120018_j30030411333999_2_alg».proof.Proof.PayloadIdeal

noncomputable section

namespace Cert.KernelIdeal.OutSpec

open Cert.KernelIdeal Cert.KernelIdeal.Gen Cert.KernelIdeal.Payload
open Idealize.ShloMosaic Idealize.ShloMosaic.ValueIdx

/-- The grid point (array, row tile, column tile). -/
def pt (w : Fin 2) (i : Fin 4) (j : Fin 8) : grid0.Coords := fun a =>
  match a with
  | ⟨0, _⟩ => w
  | ⟨1, _⟩ => i
  | ⟨2, _⟩ => j

/-- Row tile `i` of array `w` of the stack: its rows i·1024 + r. -/
def rowBlk (Z : FVec Ideal S2x4096x4096 .bf16) (w : Fin 2) (i : Fin 4) : FVec Ideal S1x1024x4096 .bf16 := fun y =>
  Z (ix3 w (⟨i.val * 1024 + (y 1).val, by have := (y 1).isLt; have := i.isLt; simp at *; omega⟩ : Fin 4096) (⟨(y 2).val, by have := (y 2).isLt; simpa using this⟩ : Fin 4096))

/-- Column tile `j` of array `w` of the stack: its rows j·512 + c. -/
def colBlk (Z : FVec Ideal S2x4096x4096 .bf16) (w : Fin 2) (j : Fin 8) : FVec Ideal S1x512x4096 .bf16 := fun y =>
  Z (ix3 w (⟨j.val * 512 + (y 1).val, by have := (y 1).isLt; have := j.isLt; simp at *; omega⟩ : Fin 4096) (⟨(y 2).val, by have := (y 2).isLt; simpa using this⟩ : Fin 4096))

/-- The output entry for array `w`, row tile `i`, row `r`, given the count word `n`. -/
def outAt (Z : FVec Ideal S2x4096x4096 .bf16) (n : BitVec 32) (w : Fin 2) (i : Fin 4) (r : Fin 1024) : EReal :=
  ∑ j : Fin 8, if k0_cond2 (pt w i j) n = 1#1 then ∑ c : Fin 512, tileAt (pt w i j) n (rowBlk Z w i) (colBlk Z w j) r c else 0

end Cert.KernelIdeal.OutSpec

end
-- ==== Proof.ExactSumIdeal.lean ====
/-
  What the points of one output block add up to. At the extended reals a point's map of the block is, entry by entry: the
  entry it found (zero at a point that resets) plus the point's own contribution — the live store's payload over the zero
  block when the tile is live, zero when it is not. So after the eighth point of a block every entry is the sum of the
  block's eight contributions.
-/
import proofs.«120018_j30030411333999_2_alg».proof.Proof.ExactRunIdeal
import proofs.«120018_j30030411333999_2_alg».proof.Proof.OutSpecIdeal

set_option maxRecDepth 16384

noncomputable section

namespace Cert.KernelIdeal.Exact

open Cert.KernelIdeal Cert.KernelIdeal.Gen Cert.KernelIdeal.Region Cert.KernelIdeal.ExactBody Cert.KernelIdeal.Payload
open Idealize.ShloMosaic Idealize.ShloMosaic.TcCoe Idealize.ShloMosaic.ValueIdx
open Idealize.ShloMosaic.Pipeline (Dat RDat Cfg Window)

variable (m : (ℓ : Loc nD τ sig) → Buf (Elt Ideal) ℓ)

/-- A point's map of the block, entry by entry. -/
theorem stepOut_eval (i : grid0.Coords) (n : Elt Ideal .i32) (x4 : Vec Ideal S1x1024x4096 .bf16) (x5 : Vec Ideal S1x512x4096 .bf16)
    (x6 : Vec Ideal S1x1024x1 .f32) (y : S1x1024x1.Idx) :
    stepOut (F := Ideal) i n x4 x5 x6 y
      = (if k0_cond1 i = 1#1 then zeroBlock y else x6 y)
        + (if k0_cond2 i n = 1#1 then k0_pay2 (F := Ideal) i n x4 x5 zeroBlock y else zeroBlock y) := by
  unfold stepOut
  by_cases h2 : k0_cond2 i n = 1#1 <;> by_cases h1 : k0_cond1 i = 1#1
  · rw [if_pos h2, if_pos h1, if_pos h1, if_pos h2, pay2_acc, pay1_eq]
  · rw [if_pos h2, if_neg h1, if_neg h1, if_pos h2, pay2_acc]
  · rw [if_neg h2, if_pos h1, if_pos h1, if_neg h2, pay1_eq]
    show zeroBlock y = zeroBlock y + zeroBlock y
    show (0 : EReal) = 0 + 0
    rw [add_zero]
  · rw [if_neg h2, if_neg h1, if_neg h1, if_neg h2]
    show x6 y = x6 y + (0 : EReal)
    rw [add_zero]

/-- The contribution of point number `n` to an entry of its block (zero past the grid). -/
def contrib (c : Dev nD) (n : ℕ) (y : S1x1024x1.Idx) : EReal :=
  if h : n < (cfgM m).N then
    (if k0_cond2 (grid0.coords ⟨n, h⟩) (nW m c) = 1#1
      then k0_pay2 (F := Ideal) (grid0.coords ⟨n, h⟩) (nW m c) (blkIn m c 0 ⟨n, h⟩) (blkIn m c 1 ⟨n, h⟩) zeroBlock y else zeroBlock y)
  else 0

/-- At the first point of a block, what is left is the point's contribution alone. -/
theorem res_reset (c : Dev nD) (n : ℕ) (h : n < (cfgM m).N) (y : S1x1024x1.Idx) (h8 : n % 8 = 0) :
    res m c n h y = contrib m c n y := by
  have h1 : k0_cond1 (grid0.coords ⟨n, h⟩) = 1#1 := (cond1_iff m ⟨n, h⟩).mpr h8
  unfold contrib
  rw [dif_pos h]
  cases n with
  | zero =>
    refine (stepOut_eval _ _ _ _ _ y).trans ?_
    rw [if_pos h1]
    show (0 : EReal) + _ = _
    rw [zero_add]
  | succ k =>
    rw [res_succ]
    refine (stepOut_eval _ _ _ _ _ y).trans ?_
    rw [if_pos h1]
    show (0 : EReal) + _ = _
    rw [zero_add]

/-- At a later point of a block, what is left is what the previous point left plus the point's contribution. -/
theorem res_step (c : Dev nD) (k : ℕ) (h : k + 1 < (cfgM m).N) (y : S1x1024x1.Idx) (h8 : (k + 1) % 8 ≠ 0) :
    res m c (k + 1) h y = res m c k (Nat.lt_of_succ_lt h) y + contrib m c (k + 1) y := by
  have h1 : ¬ k0_cond1 (grid0.coords ⟨k + 1, h⟩) = 1#1 := fun e => h8 ((cond1_iff m ⟨k + 1, h⟩).mp e)
  unfold contrib
  rw [dif_pos h, res_succ]
  refine (stepOut_eval _ _ _ _ _ y).trans ?_
  rw [if_neg h1]

/-- After point j of block b, every entry is the sum of the block's contributions up to j. -/
theorem res_sum (c : Dev nD) (b : ℕ) : ∀ (j : ℕ) (hj : j < 8) (h : 8 * b + j < (cfgM m).N) (y : S1x1024x1.Idx),
    res m c (8 * b + j) h y = ∑ j' ∈ Finset.range (j + 1), contrib m c (8 * b + j') y
  | 0, _, h, y => by
    rw [res_reset m c (8 * b + 0) h y (by omega), Finset.sum_range_one]
  | j + 1, hj, h, y => by
    show res m c ((8 * b + j) + 1) h y = _
    rw [Finset.sum_range_succ, res_step m c (8 * b + j) h y (by omega), res_sum c b j (by omega) (by omega) y]
    rfl

end Cert.KernelIdeal.Exact

end
-- ==== Proof.ExactOutIdeal.lean ====
/-
  The output array after the region, read entry by entry. The output window's block at point t is array t/32, row tile
  (t/8) mod 4; it is written back at the points with t mod 8 = 7, one per (array, row tile), so the eight written blocks are
  pairwise disjoint and each entry of the array ends at what its block's last point left: the sum of that block's eight
  contributions.
-/
import proofs.«120018_j30030411333999_2_alg».proof.Proof.ExactSumIdeal

set_option maxRecDepth 16384

noncomputable section

namespace Cert.KernelIdeal.Exact

open Cert.KernelIdeal Cert.KernelIdeal.Gen Cert.KernelIdeal.Region Cert.KernelIdeal.ExactBody Cert.KernelIdeal.Payload
open Idealize.ShloMosaic Idealize.ShloMosaic.TcCoe Idealize.ShloMosaic.ValueIdx
open Idealize.ShloMosaic.Pipeline (Dat RDat Cfg Window)

variable (m : (ℓ : Loc nD τ sig) → Buf (Elt Ideal) ℓ)

/-- The output window's block index at a point, decided over the grid. -/
theorem index2_grid : ∀ t : Fin grid0.N, cc0_transform_2 (grid0.coords t) = ![t.val / 32, t.val / 8 % 4, 0] := by decide +kernel

/-- Where an entry of point t's output block sits in the array, axis by axis (at any admissible table). -/
theorem emb2_at (a : (pcfg0 (F := Ideal)).Adm) (t : Fin (cfg0 a).N)
    (y : (((cfg0 a).win 2).xblock ((cfg0 a).grid.coords t)).Idx) (ax : Fin 3) :
    ((((cfg0 a).win 2).blk t).view.emb y ax).val
      = (![t.val / 32, t.val / 8 % 4, 0] : Fin 3 → ℕ) ax * S1x1024x1.size ax + (y ax).val := by
  have h := Window.rect_emb_val ((cfg0 a).win 2) t y ax
  rw [show ((cfg0 a).win 2).index t = ![t.val / 32, t.val / 8 % 4, 0] from index2_grid t] at h
  exact h

/-- The written-back blocks are pairwise disjoint: one per (array, row tile). -/
theorem flush_disj_at (a : (pcfg0 (F := Ideal)).Adm) (t t' : Fin (cfg0 a).N)
    (hf : ((cfg0 a).win 2).flush t = true) (hf' : ((cfg0 a).win 2).flush t' = true) (hne : t ≠ t') :
    Disjoint (((cfg0 a).win 2).blk t).view.set (((cfg0 a).win 2).blk t').view.set := by
  rw [Finset.disjoint_left]
  intro q hq hq'
  obtain ⟨y, -, rfl⟩ := Finset.mem_map.mp hq
  obtain ⟨y', -, e⟩ := Finset.mem_map.mp hq'
  have a0 : ((((cfg0 a).win 2).blk t).view.emb y (0 : Fin 3)).val = t.val / 32 * 1 + (y (0 : Fin 3)).val := emb2_at a t y 0
  have a1 : ((((cfg0 a).win 2).blk t).view.emb y (1 : Fin 3)).val = t.val / 8 % 4 * 1024 + (y (1 : Fin 3)).val := emb2_at a t y 1
  have b0 : ((((cfg0 a).win 2).blk t').view.emb y' (0 : Fin 3)).val = t'.val / 32 * 1 + (y' (0 : Fin 3)).val := emb2_at a t' y' 0
  have b1 : ((((cfg0 a).win 2).blk t').view.emb y' (1 : Fin 3)).val = t'.val / 8 % 4 * 1024 + (y' (1 : Fin 3)).val := emb2_at a t' y' 1
  have e0 := congrArg Fin.val (congrFun e (0 : Fin 3))
  have e1 := congrArg Fin.val (congrFun e (1 : Fin 3))
  have y0 : (y (0 : Fin 3)).val < 1 := (y (0 : Fin 3)).isLt
  have y1 : (y (1 : Fin 3)).val < 1024 := (y (1 : Fin 3)).isLt
  have y0' : (y' (0 : Fin 3)).val < 1 := (y' (0 : Fin 3)).isLt
  have y1' : (y' (1 : Fin 3)).val < 1024 := (y' (1 : Fin 3)).isLt
  have e7 : t.val % 8 = 7 := by rw [flush2_at] at hf; exact of_decide_eq_true hf
  have e7' : t'.val % 8 = 7 := by rw [flush2_at] at hf'; exact of_decide_eq_true hf'
  have ht := t.isLt
  have ht' := t'.isLt
  have hN : (cfg0 a).N = 64 := rfl
  exact hne (Fin.ext (by omega))

theorem flush_disj (t t' : Fin (cfgM m).N) (hf : ((cfgM m).win 2).flush t = true) (hf' : ((cfgM m).win 2).flush t' = true) (hne : t ≠ t') :
    Disjoint (((cfgM m).win 2).blk t).view.set (((cfgM m).win 2).blk t').view.set := flush_disj_at (adm m) t t' hf hf' hne

/-- An entry under a written-back block ends at what that block's last point left. -/
theorem arrAt_emb (c : Dev nD) (t : Fin (cfgM m).N) (hf : ((cfgM m).win 2).flush t = true) (y : S1x1024x1.Idx) :
    (dat m c).arrAt 2 (cfgM m).N ((((cfgM m).win 2).blk t).view.emb y) = res m c t.val t.isLt y := by
  have h := (dat m c).arrAt_emb_eq_flushed 2 (flush_disj m) t hf y
  rw [h]
  show (dat m c).flushed 2 t y = _
  show ((cfgM m).win 2).cut _ ((dat m c).after 2 t) y = _
  rw [after2]
  rfl

/-! ## The points of one output block, and its last point -/

/-- The number of the point (array w, row tile i, column tile j). -/
def ptNum (w : Fin 2) (i : Fin 4) (j : Fin 8) : Fin grid0.N :=
  ⟨8 * (4 * w.val + i.val) + j.val, by have := w.isLt; have := i.isLt; have := j.isLt; show _ < 64; omega⟩

/-- Its coordinates. -/
theorem coords_ptNum : ∀ (w : Fin 2) (i : Fin 4) (j : Fin 8), grid0.coords (ptNum w i j) = OutSpec.pt w i j := by decide +kernel

/-- Where entry (0, r, 0) of the block written back at the last point of (w, i) sits in the output array. -/
theorem emb_last (w : Fin 2) (i : Fin 4) (r : Fin 1024) (ax : Fin 3) :
    ((((cfgM m).win 2).blk (ptNum w i 7)).view.emb (ix3 (0 : Fin 1) r (0 : Fin 1)) ax).val
      = (![w.val, i.val * 1024 + r.val, 0] : Fin 3 → ℕ) ax := by
  have h := emb2_at (adm m) (ptNum w i 7) (ix3 (0 : Fin 1) r (0 : Fin 1)) ax
  refine h.trans ?_
  have hw := w.isLt
  have hi := i.isLt
  have e : (ptNum w i 7).val = 8 * (4 * w.val + i.val) + 7 := rfl
  match ax with
  | ⟨0, _⟩ => show (ptNum w i 7).val / 32 * 1 + 0 = w.val; omega
  | ⟨1, _⟩ => show (ptNum w i 7).val / 8 % 4 * 1024 + r.val = i.val * 1024 + r.val; omega
  | ⟨2, _⟩ => show 0 * 1 + 0 = 0; rfl

/-- The last point of a block writes it back. -/
theorem flush_last (w : Fin 2) (i : Fin 4) : ((cfgM m).win 2).flush (ptNum w i 7) = true := by
  rw [flush2]
  exact decide_eq_true (by show (8 * (4 * w.val + i.val) + 7) % 8 = 7; omega)

/-- The entry of the output array under block (w, i), row r: the sum of the block's eight contributions. -/
theorem arrAt_last (c : Dev nD) (w : Fin 2) (i : Fin 4) (r : Fin 1024) :
    (dat m c).arrAt 2 (cfgM m).N ((((cfgM m).win 2).blk (ptNum w i 7)).view.emb (ix3 (0 : Fin 1) r (0 : Fin 1)))
      = ∑ j : Fin 8, contrib m c (ptNum w i j).val (ix3 (0 : Fin 1) r (0 : Fin 1)) := by
  rw [arrAt_emb m c (ptNum w i 7) (flush_last m w i)]
  have hw := w.isLt
  have hi := i.isLt
  have h := res_sum m c (4 * w.val + i.val) 7 (by omega) (ptNum w i 7).isLt (ix3 (0 : Fin 1) r (0 : Fin 1))
  refine h.trans ?_
  rw [Finset.sum_range]
  rfl

/-! ## The blocks the two input windows hold at a live point

The input windows' index maps clamp a dead tile's block index to 0; at a live tile their selects take the grid's own
coordinates, their conditions being the liveness test's own conjuncts. Stated at any admissible table. -/

/-- A bit widened to 32 bits that tests different from zero is set. -/
private theorem bit_of_ne_zero_extui (b : BitVec 1) (h : Scalar.cmpi .ne (Scalar.extui b) 0#32 = 1#1) : b = 1#1 := by
  rcases BitVec.eq_zero_or_eq_one b with rfl | rfl
  · exact absurd h (by decide)
  · rfl

/-- A set conjunction of two bits has both set. -/
private theorem both_of_andi (a b : BitVec 1) (h : Scalar.andi a b = 1#1) : a = 1#1 ∧ b = 1#1 := by
  rcases BitVec.eq_zero_or_eq_one a with rfl | rfl <;> rcases BitVec.eq_zero_or_eq_one b with rfl | rfl <;>
    first | exact ⟨rfl, rfl⟩ | exact absurd h (by decide)

/-- The word of a number below 2³² reads back as the number. -/
private theorem toNat_ofNat_small (x : ℕ) (h : x < 2 ^ 32) : (BitVec.ofNat 32 x).toNat = x := by
  rw [BitVec.toNat_ofNat]; exact Nat.mod_eq_of_lt h

/-- At a live point the first window's block index is (array, row tile, 0). -/
theorem index0_live_at (a : (pcfg0 (F := Ideal)).Adm) (c : Dev nD) (g : grid0.Coords)
    (hl : k0_cond2 g (Body.word c (a.1 0)) = 1#1) :
    ((cfg0 a).win 0).indexMap g = ![(g 0).val, (g 1).val, 0] := by
  have hb := bit_of_ne_zero_extui _ hl
  obtain ⟨h6, h8⟩ := both_of_andi _ _ hb
  have g0 : (g 0).val < 2 := (g 0).isLt
  have g1 : (g 1).val < 4 := (g 1).isLt
  funext ax
  match ax with
  | ⟨0, _⟩ => exact toNat_ofNat_small (g 0).val (by omega)
  | ⟨1, _⟩ =>
    exact (congrArg (fun b => (Scalar.select b (BitVec.ofNat 32 (g 1).val) 0#32).toNat) h6).trans
      (toNat_ofNat_small (g 1).val (by omega))
  | ⟨2, _⟩ => rfl

/-- At a live point the second window's block index is (array, column tile, 0). -/
theorem index1_live_at (a : (pcfg0 (F := Ideal)).Adm) (c : Dev nD) (g : grid0.Coords)
    (hl : k0_cond2 g (Body.word c (a.1 0)) = 1#1) :
    ((cfg0 a).win 1).indexMap g = ![(g 0).val, (g 2).val, 0] := by
  have hb := bit_of_ne_zero_extui _ hl
  have g0 : (g 0).val < 2 := (g 0).isLt
  have g2 : (g 2).val < 8 := (g 2).isLt
  funext ax
  match ax with
  | ⟨0, _⟩ => exact toNat_ofNat_small (g 0).val (by omega)
  | ⟨1, _⟩ =>
    exact (congrArg (fun b => (Scalar.select b (BitVec.ofNat 32 (g 2).val) 0#32).toNat) hb).trans
      (toNat_ofNat_small (g 2).val (by omega))
  | ⟨2, _⟩ => rfl

/-- Where an entry of an input window's block sits in the stack, given the block index (at any admissible table). -/
theorem emb0_at (a : (pcfg0 (F := Ideal)).Adm) (t : Fin (cfg0 a).N)
    (y : (((cfg0 a).win 0).xblock ((cfg0 a).grid.coords t)).Idx) (ax : Fin 3) (b0 b1 : ℕ)
    (hi : ((cfg0 a).win 0).index t = ![b0, b1, 0]) :
    ((((cfg0 a).win 0).blk t).view.emb y ax).val = (![b0, b1, 0] : Fin 3 → ℕ) ax * S1x1024x4096.size ax + (y ax).val := by
  have h := Window.rect_emb_val ((cfg0 a).win 0) t y ax
  rw [hi] at h
  exact h

theorem emb1_at (a : (pcfg0 (F := Ideal)).Adm) (t : Fin (cfg0 a).N)
    (y : (((cfg0 a).win 1).xblock ((cfg0 a).grid.coords t)).Idx) (ax : Fin 3) (b0 b1 : ℕ)
    (hi : ((cfg0 a).win 1).index t = ![b0, b1, 0]) :
    ((((cfg0 a).win 1).blk t).view.emb y ax).val = (![b0, b1, 0] : Fin 3 → ℕ) ax * S1x512x4096.size ax + (y ax).val := by
  have h := Window.rect_emb_val ((cfg0 a).win 1) t y ax
  rw [hi] at h
  exact h

/-- Where an entry of the first window's block at the live point (w, i, j) sits in the stack. -/
theorem emb0_live (c : Dev nD) (w : Fin 2) (i : Fin 4) (j : Fin 8) (hl : k0_cond2 (OutSpec.pt w i j) (nW m c) = 1#1)
    (y : S1x1024x4096.Idx) (ax : Fin 3) :
    ((((cfgM m).win 0).blk (ptNum w i j)).view.emb y ax).val
      = (![w.val * 1 + (y 0).val, i.val * 1024 + (y 1).val, 0 * 4096 + (y 2).val] : Fin 3 → ℕ) ax := by
  have hi : ((cfgM m).win 0).index (ptNum w i j) = ![w.val, i.val, 0] := by
    show ((cfgM m).win 0).indexMap (grid0.coords (ptNum w i j)) = _
    rw [coords_ptNum, index0_live_at (adm m) c (OutSpec.pt w i j) hl]
    rfl
  refine (emb0_at (adm m) (ptNum w i j) y ax w.val i.val hi).trans ?_
  match ax with
  | ⟨0, _⟩ => rfl
  | ⟨1, _⟩ => rfl
  | ⟨2, _⟩ => rfl

/-- Where an entry of the second window's block at the live point (w, i, j) sits in the stack. -/
theorem emb1_live (c : Dev nD) (w : Fin 2) (i : Fin 4) (j : Fin 8) (hl : k0_cond2 (OutSpec.pt w i j) (nW m c) = 1#1)
    (y : S1x512x4096.Idx) (ax : Fin 3) :
    ((((cfgM m).win 1).blk (ptNum w i j)).view.emb y ax).val
      = (![w.val * 1 + (y 0).val, j.val * 512 + (y 1).val, 0 * 4096 + (y 2).val] : Fin 3 → ℕ) ax := by
  have hi : ((cfgM m).win 1).index (ptNum w i j) = ![w.val, j.val, 0] := by
    show ((cfgM m).win 1).indexMap (grid0.coords (ptNum w i j)) = _
    rw [coords_ptNum, index1_live_at (adm m) c (OutSpec.pt w i j) hl]
    rfl
  refine (emb1_at (adm m) (ptNum w i j) y ax w.val j.val hi).trans ?_
  match ax with
  | ⟨0, _⟩ => rfl
  | ⟨1, _⟩ => rfl
  | ⟨2, _⟩ => rfl

/-- At a live point the first window holds row tile i of array w of the stack. -/
theorem blkIn0_live (c : Dev nD) (w : Fin 2) (i : Fin 4) (j : Fin 8) (hl : k0_cond2 (OutSpec.pt w i j) (nW m c) = 1#1) :
    blkIn m c 0 (ptNum w i j) = OutSpec.rowBlk (V m c main_v47) w i := by
  refine funext fun (y : S1x1024x4096.Idx) => ?_
  have hy0 : (y 0).val < 1 := (y 0).isLt
  have e : (((cfgM m).win 0).blk (ptNum w i j)).view.emb y
      = (ix3 w (⟨i.val * 1024 + (y 1).val, by have := (y 1).isLt; have := i.isLt; simp at *; omega⟩ : Fin 4096)
          (⟨(y 2).val, by have := (y 2).isLt; simpa using this⟩ : Fin 4096) : S2x4096x4096.Idx) := by
    funext ax
    apply Fin.ext
    rw [emb0_live m c w i j hl y ax]
    match ax with
    | ⟨0, _⟩ => show w.val * 1 + (y 0).val = w.val; omega
    | ⟨1, _⟩ => rfl
    | ⟨2, _⟩ => show 0 * 4096 + (y 2).val = (y 2).val; omega
  exact congrArg (V m c main_v47) e

/-- At a live point the second window holds column tile j of array w of the stack. -/
theorem blkIn1_live (c : Dev nD) (w : Fin 2) (i : Fin 4) (j : Fin 8) (hl : k0_cond2 (OutSpec.pt w i j) (nW m c) = 1#1) :
    blkIn m c 1 (ptNum w i j) = OutSpec.colBlk (V m c main_v47) w j := by
  refine funext fun (y : S1x512x4096.Idx) => ?_
  have hy0 : (y 0).val < 1 := (y 0).isLt
  have e : (((cfgM m).win 1).blk (ptNum w i j)).view.emb y
      = (ix3 w (⟨j.val * 512 + (y 1).val, by have := (y 1).isLt; have := j.isLt; simp at *; omega⟩ : Fin 4096)
          (⟨(y 2).val, by have := (y 2).isLt; simpa using this⟩ : Fin 4096) : S2x4096x4096.Idx) := by
    funext ax
    apply Fin.ext
    rw [emb1_live m c w i j hl y ax]
    match ax with
    | ⟨0, _⟩ => show w.val * 1 + (y 0).val = w.val; omega
    | ⟨1, _⟩ => rfl
    | ⟨2, _⟩ => show 0 * 4096 + (y 2).val = (y 2).val; omega
  exact congrArg (V m c main_v47) e

/-! ## The output array at an index -/

/-- The contribution of point (w, i, j) to row r of its block: the tile's masked row sum where the tile is live. -/
theorem contrib_pt (c : Dev nD) (w : Fin 2) (i : Fin 4) (j : Fin 8) (r : Fin 1024) :
    contrib m c (ptNum w i j).val (ix3 (0 : Fin 1) r (0 : Fin 1))
      = if k0_cond2 (OutSpec.pt w i j) (nW m c) = 1#1
          then ∑ cc : Fin 512, tileAt (OutSpec.pt w i j) (nW m c) (OutSpec.rowBlk (V m c main_v47) w i) (OutSpec.colBlk (V m c main_v47) w j) r cc
          else 0 := by
  unfold contrib
  rw [dif_pos (ptNum w i j).isLt]
  show (if k0_cond2 (grid0.coords (ptNum w i j)) (nW m c) = 1#1
      then k0_pay2 (F := Ideal) (grid0.coords (ptNum w i j)) (nW m c) (blkIn m c 0 (ptNum w i j)) (blkIn m c 1 (ptNum w i j)) zeroBlock
        (ix3 (0 : Fin 1) r (0 : Fin 1))
      else zeroBlock (ix3 (0 : Fin 1) r (0 : Fin 1))) = _
  rw [coords_ptNum]
  by_cases hl : k0_cond2 (OutSpec.pt w i j) (nW m c) = 1#1
  · rw [if_pos hl, if_pos hl, blkIn0_live m c w i j hl, blkIn1_live m c w i j hl]
    exact pay2_zero_apply _ _ _ _ r
  · rw [if_neg hl, if_neg hl]
    rfl

/-- THE OUTPUT ARRAY AT AN INDEX: the entry under block (w, i), row r — array index (w, 1024 i + r, 0), by `emb_last` — is
    the region's one formula. -/
theorem outArr_apply (c : Dev nD) (w : Fin 2) (i : Fin 4) (r : Fin 1024) :
    (dat m c).arrAt 2 (cfgM m).N ((((cfgM m).win 2).blk (ptNum w i 7)).view.emb (ix3 (0 : Fin 1) r (0 : Fin 1)))
      = OutSpec.outAt (V m c main_v47) (nW m c) w i r := by
  have h : (∑ j : Fin 8, contrib m c (ptNum w i j).val (ix3 (0 : Fin 1) r (0 : Fin 1)))
      = OutSpec.outAt (V m c main_v47) (nW m c) w i r := by
    unfold OutSpec.outAt
    exact Finset.sum_congr rfl fun j _ => contrib_pt m c w i j r
  exact (arrAt_last m c w i r).trans h

/-- That index by its coordinates: (w, 1024 i + r, 0). -/
theorem emb_last_eq (w : Fin 2) (i : Fin 4) (r : Fin 1024) :
    (((cfgM m).win 2).blk (ptNum w i 7)).view.emb (ix3 (0 : Fin 1) r (0 : Fin 1))
      = (ix3 w (⟨i.val * 1024 + r.val, by have := i.isLt; have := r.isLt; omega⟩ : Fin 4096) (0 : Fin 1) : S2x4096x1.Idx) := by
  funext ax
  apply Fin.ext
  refine (emb_last m w i r ax).trans ?_
  match ax with
  | ⟨0, _⟩ => rfl
  | ⟨1, _⟩ => rfl
  | ⟨2, _⟩ => rfl

end Cert.KernelIdeal.Exact

end
-- ==== Proof.TailIdeal.lean ====
import proofs.«120018_j30030411333999_2_alg».proof.Proof.RegionIdeal
import Idealize.ShloMosaic.Lib.ValueIdx
import Idealize.ShloMosaic.Lib.ValueLayout
import Idealize.ShloMosaic.Lib.IdealHost
import Idealize.ShloMosaic.Lib.Pipeline.Value

/-!
# The host side of the program after the call, at the extended reals

After the call the program sums each of the two slabs of the call's output, divides each sum by the number of
(marked, unmarked) pairs (at least 1) when that number is positive and takes 0 otherwise, adds the two quotients,
multiplies by 1 and adds the positive term.  This file names that value as a function of the three buffers it reads —
the call's output, the pair count and the positive term — and reads it at its one index as plain sums.
-/

set_option maxRecDepth 16384

noncomputable section

namespace Cert.KernelIdeal.Tail

open Cert.KernelIdeal Cert.KernelIdeal.Gen Cert.KernelIdeal.Region
open Idealize.ShloMosaic Idealize.ShloMosaic.TcCoe Idealize.ShloMosaic.Tactic
open Idealize.ShloMosaic.ValueIdx
open scoped BigOperators

/-! ## The value, staged -/

/-- The two slabs of the call's output, each as a column. -/
def outCol0 (out : FVec Ideal S2x4096x1 .f32) : FVec Ideal S4096x1 .f32 :=
  fun i => shapeCast S4096x1 (extractStridedSlice S1x4096x1 ![0, 0, 0] out slices_S2x4096x1_S1x4096x1_0_0_0) shapeCasts_S1x4096x1_S4096x1 i
def outCol1 (out : FVec Ideal S2x4096x1 .f32) : FVec Ideal S4096x1 .f32 :=
  fun i => shapeCast S4096x1 (extractStridedSlice S1x4096x1 ![1, 0, 0] out slices_S2x4096x1_S1x4096x1_1_0_0) shapeCasts_S1x4096x1_S4096x1 i

/-- The sum of a column. -/
def colSum (col : FVec Ideal S4096x1 .f32) : FVec Ideal S_ .f32 :=
  Host.reduceAdd col (constant (F := Ideal) S_ .f32 0x00000000#32) reducesTo_S4096x1_S_d0_1 h_S_

/-- The divisor: the pair count, at least 1, as a float. -/
def denom (cnt : IVec S_ 32) : FVec Ideal S_ .f32 := sitofp .f32 (maxsi cnt (constantI S_ 32 1#32))

/-- One negative term: the column's sum over the divisor when the pair count is positive, else 0. -/
def negHalf (col : FVec Ideal S4096x1 .f32) (cnt : IVec S_ 32) : FVec Ideal S_ .f32 :=
  select (cmpi .sgt cnt (constantI S_ 32 0#32)) (Host.divf (colSum col) (denom cnt)) (id (constant (F := Ideal) S_ .f32 0x00000000#32))

/-- The program's result from the call's output, the pair count and the positive term. -/
def tailVal (out : FVec Ideal S2x4096x1 .f32) (cnt : IVec S_ 32) (pos : FVec Ideal S_ .f32) : FVec Ideal S_ .f32 :=
  addf pos (mulf (constant (F := Ideal) S_ .f32 0x3F800000#32) (addf (negHalf (outCol0 out) cnt) (negHalf (outCol1 out) cnt)))

/-! ## The stretches after the call -/

set_option maxRecDepth 1000000 in
set_option maxHeartbeats 1000000 in
/-- The result buffer after the five stretches that follow the call, from any contents. -/
theorem tail_eq (W : Valuation τ sig (Elt Ideal)) :
    StableHlo.after (tailOps (F := Ideal)).flatten W (Proc.devRef .tc main_v65)
      = tailVal (W (Proc.devRef .tc main_v48)) (W (Proc.devRef .tc main_v24)) (W (Proc.devRef .tc main_v14)) := by
  simp only [tailOps, hostOps1, hostOps1_1, hostOps1_2, hostOps1_3, hostOps1_4,
    List.flatten_cons, List.flatten_nil, List.append_nil, List.cons_append, List.nil_append]
  after_results_simp
  rfl

/-! ## The value at its index -/

/-- A column's sum is the sum of its 4096 entries. -/
theorem colSum_apply (col : FVec Ideal S4096x1 .f32) (j : S_.Idx) :
    colSum col j = ∑ p : Fin 4096, col (ValueIdx.ix2 p (0 : Fin 1)) := by
  unfold colSum
  rw [hostReduceAdd_apply, Ideal.hostReduceAdd_total _ (fun b => b.elim0)]
  show Ideal.ofBits .f32 0x00000000#32 + _ = _
  rw [Ideal.ofBits_zero_f32, zero_add, sum_idx2]
  exact Finset.sum_congr rfl fun p _ => Fin.sum_univ_one _

/-- The columns' entries are the output's. -/
theorem outCol0_apply (out : FVec Ideal S2x4096x1 .f32) (p : Fin 4096) :
    outCol0 out (ValueIdx.ix2 p (0 : Fin 1)) = out (ValueIdx.ix3 (0 : Fin 2) p (0 : Fin 1)) := by
  unfold outCol0
  refine (shapeCast_1ab_ab_apply _ shapeCasts_S1x4096x1_S4096x1 p (0 : Fin 1)).trans ?_
  exact extractStridedSlice_apply ![0, 0, 0] out slices_S2x4096x1_S1x4096x1_0_0_0 (ValueIdx.ix3 (0 : Fin 1) p (0 : Fin 1)) (ValueIdx.ix3 (0 : Fin 2) p (0 : Fin 1))
    (fun a => match a with | ⟨0, _⟩ => rfl | ⟨1, _⟩ => by simp | ⟨2, _⟩ => rfl)

theorem outCol1_apply (out : FVec Ideal S2x4096x1 .f32) (p : Fin 4096) :
    outCol1 out (ValueIdx.ix2 p (0 : Fin 1)) = out (ValueIdx.ix3 (1 : Fin 2) p (0 : Fin 1)) := by
  unfold outCol1
  refine (shapeCast_1ab_ab_apply _ shapeCasts_S1x4096x1_S4096x1 p (0 : Fin 1)).trans ?_
  exact extractStridedSlice_apply ![1, 0, 0] out slices_S2x4096x1_S1x4096x1_1_0_0 (ValueIdx.ix3 (0 : Fin 1) p (0 : Fin 1)) (ValueIdx.ix3 (1 : Fin 2) p (0 : Fin 1))
    (fun a => match a with | ⟨0, _⟩ => rfl | ⟨1, _⟩ => by simp | ⟨2, _⟩ => rfl)

/-- One negative term at its index. -/
theorem negHalf_apply (col : FVec Ideal S4096x1 .f32) (cnt : IVec S_ 32) (j : S_.Idx) :
    (negHalf col cnt j : EReal)
      = Scalar.select (IntOp.cmpi .sgt (cnt j) 0#32)
          (Ideal.div (∑ p : Fin 4096, col (ValueIdx.ix2 p (0 : Fin 1))) (((IntOp.maxsi (cnt j) 1#32).toInt : ℝ) : EReal)) 0 := by
  unfold negHalf
  show Scalar.select (IntOp.cmpi .sgt (cnt j) 0#32) (Ideal.div (colSum col j) (((IntOp.maxsi (cnt j) 1#32).toInt : ℝ) : EReal))
      (Ideal.ofBits .f32 0x00000000#32) = _
  rw [colSum_apply, Ideal.ofBits_zero_f32]

/-- The program's result at its one index: the positive term plus 1 times the sum of the two negative terms, each the sum of
one slab of the call's output over the pair count (at least 1) when the count is positive, else 0. -/
theorem tailVal_apply (out : FVec Ideal S2x4096x1 .f32) (cnt : IVec S_ 32) (pos : FVec Ideal S_ .f32) (j : S_.Idx) :
    (tailVal out cnt pos j : EReal)
      = pos j + 1 * (Scalar.select (IntOp.cmpi .sgt (cnt j) 0#32)
            (Ideal.div (∑ p : Fin 4096, out (ValueIdx.ix3 (0 : Fin 2) p (0 : Fin 1))) (((IntOp.maxsi (cnt j) 1#32).toInt : ℝ) : EReal)) 0
          + Scalar.select (IntOp.cmpi .sgt (cnt j) 0#32)
            (Ideal.div (∑ p : Fin 4096, out (ValueIdx.ix3 (1 : Fin 2) p (0 : Fin 1))) (((IntOp.maxsi (cnt j) 1#32).toInt : ℝ) : EReal)) 0) := by
  unfold tailVal
  rw [addf_apply, mulf_apply, addf_apply, constant_apply, Ideal.ofBits_one_f32, negHalf_apply, negHalf_apply]
  simp only [outCol0_apply, outCol1_apply]

end Cert.KernelIdeal.Tail

end
-- ==== Proof.SortIdeal.lean ====
import proofs.«120018_j30030411333999_2_alg».proof.Proof.Gen.KernelIdeal
import Idealize.ShloMosaic.Lib.SortFacts
import Idealize.ShloMosaic.Lib.ValueIdx

/-!
# The argsort of a zero-one key

`jnp.argsort` of a vector of 32-bit keys is the stable sort of the pairs (key, position) by the key
(signed "less than"), read at its second component.  When every key is `0` or `1` the result is a
permutation `σ` of the positions in which the positions holding key `0` come first: position `p` of
the result holds a key-`0` row exactly when `p` is below the number of key-`0` rows.

The argument rests on three facts about the stable sort's position map `sortedFrom`, whatever the
keys are: it is injective, it is surjective, and it leaves no inversion of a relation that is
asymmetric and negatively transitive.  Everything is stated for a vector of any length `n` and
specialised to the program's 4096 rows at the end.
-/

namespace Cert.KernelIdeal.Sorted
open Cert.KernelIdeal Idealize.ShloMosaic
open scoped BigOperators

/-! ## A two-operand sort of a rank-1 table -/

/-- A two-operand sort of a rank-1 table reads its second operand through one self-map of the
positions: `sortedFrom` of the comparator on the pairs (first operand's word, second operand's word). -/
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- The same for the first operand. -/
theorem sort2_rank1_fst {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).1 j
      = x (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-! ## Sorting "marked before unmarked" puts the marked positions first -/

/-- The stable sort's position map as a permutation of the positions. -/
noncomputable def sortPerm {n : Nat} (B : Fin n → Fin n → Bool) : Fin n ≃ Fin n :=
  Equiv.ofBijective (sortedFrom B) ⟨sortedFrom_injective B, sortedFrom_surjective B⟩

theorem sortPerm_apply {n : Nat} (B : Fin n → Fin n → Bool) (p : Fin n) : sortPerm B p = sortedFrom B p := rfl

/-- Let `B a b` say "`a` is marked and `b` is not".  In the stable sort under `B` a marked source never
comes after an unmarked one: sorted position `p` holds a marked source exactly when `p` is below the
number of marked positions. -/
theorem marked_first {n : Nat} (B : Fin n → Fin n → Bool) (z : Fin n → Prop) [DecidablePred z]
    (hB : ∀ a b, B a b = true ↔ (z a ∧ ¬ z b)) (p : Fin n) :
    p.val < (Finset.univ.filter z).card ↔ z (sortedFrom B p) := by
  have hBf : ∀ a b, B a b = false ↔ ¬ (z a ∧ ¬ z b) := by
    intro a b
    rw [← hB a b]
    cases B a b <;> simp
  -- no inversion: a later sorted position's source is never marked while an earlier one's is not
  have hinv : ∀ i j : Fin n, i < j → ¬ (z (sortedFrom B j) ∧ ¬ z (sortedFrom B i)) := fun i j hij =>
    (hBf _ _).mp (sortedFrom_noInversion B B
      (fun a b h => (hBf b a).mpr fun h' => ((hB a b).mp h).2 h'.1)
      (fun _ _ h => h)
      (fun a b c h₁ h₂ => (hBf a c).mpr fun h => by
        have h₁' := (hBf a b).mp h₁
        have h₂' := (hBf b c).mp h₂
        by_cases hb : z b
        · exact h₂' ⟨hb, h.2⟩
        · exact h₁' ⟨h.1, hb⟩)
      i j hij)
  -- so "the source is marked" is closed downwards along the sorted positions
  have hdown : ∀ i j : Fin n, j ≤ i → z (sortedFrom B i) → z (sortedFrom B j) := by
    intro i j hji hi
    rcases lt_or_eq_of_le hji with hlt | heq
    · by_contra hj
      exact hinv j i hlt ⟨hi, hj⟩
    · rw [heq]; exact hi
  -- and the sorted positions with a marked source are as many as the marked positions
  have hcard : (Finset.univ.filter fun q : Fin n => z (sortedFrom B q)).card = (Finset.univ.filter z).card := by
    rw [Finset.card_filter, Finset.card_filter]
    exact Equiv.sum_comp (sortPerm B) (fun i => if z i then 1 else 0)
  rw [← hcard]
  exact Fin.lt_card_filter_univ_iff_apply_of_imp (fun q : Fin n => z (sortedFrom B q)) hdown

/-- A subset of `n` positions has at most `n` elements. -/
theorem card_filter_le_size {n : Nat} (z : Fin n → Prop) [DecidablePred z] : (Finset.univ.filter z).card ≤ n :=
  (Finset.card_filter_le _ _).trans_eq (Finset.card_fin n)

/-! ## The signed comparison of two keys that are 0 or 1 -/

/-- For keys that are `0` or `1`, "signed less than" holds exactly for the pair (0, 1). -/
theorem slt_zero_one (a b : BitVec 32) (ha : a = 0#32 ∨ a = 1#32) (hb : b = 0#32 ∨ b = 1#32) :
    (IntOp.cmpi .slt a b == 1#1) = true ↔ (a = 0#32 ∧ ¬ b = 0#32) := by
  rcases ha with rfl | rfl <;> rcases hb with rfl | rfl <;> decide

/-! ## The argsort -/

/-- The argsort of a zero-one key vector of any length: a permutation of the positions, as 32-bit words,
with the key-0 positions first. -/
theorem argsort_zero_one_gen {n : Nat} (key : IVec ⟨1, ![n]⟩ 32) (hkey : ∀ i, key i = 0#32 ∨ key i = 1#32) :
    ∃ σ : Fin n ≃ Fin n,
      (∀ p : Fin n, (Host.sort2 ⟨1, ![n]⟩ 0 comparator_i32_i32_d0 key (iotaInDim ⟨1, ![n]⟩ 32 0)).2 (Shape.Idx.ofFin p)
          = BitVec.ofNat 32 (σ p).val)
      ∧ (∀ p : Fin n, p.val < (Finset.univ.filter fun i : Fin n => key (Shape.Idx.ofFin i) = 0#32).card
          ↔ key (Shape.Idx.ofFin (σ p)) = 0#32) := by
  -- the order the sort uses on positions: by the keys alone
  let B : Fin n → Fin n → Bool := fun k k' =>
    comparator_i32_i32_d0 (key (Shape.Idx.ofFin k), iotaInDim ⟨1, ![n]⟩ 32 0 (Shape.Idx.ofFin k))
      (key (Shape.Idx.ofFin k'), iotaInDim ⟨1, ![n]⟩ 32 0 (Shape.Idx.ofFin k')) == 1#1
  have hB : ∀ a b, B a b = true ↔ (key (Shape.Idx.ofFin a) = 0#32 ∧ ¬ key (Shape.Idx.ofFin b) = 0#32) :=
    fun a b => slt_zero_one _ _ (hkey _) (hkey _)
  refine ⟨sortPerm B, fun p => ?_, fun p => ?_⟩
  · rw [sort2_rank1_snd, sortPerm_apply]
    simp only [iotaInDim, Shape.Idx.ofFin_zero]
    rfl
  · rw [sortPerm_apply]
    exact marked_first B (fun i => key (Shape.Idx.ofFin i) = 0#32) hB p

/-- `Shape.Idx.ofFin` and `ValueIdx.ix1` are two spellings of the rank-1 index at a coordinate. -/
theorem ofFin_eq_ix1 {n : Nat} (k : Fin n) : Shape.Idx.ofFin k = ValueIdx.ix1 k :=
  (ValueIdx.eq_ix1 (Shape.Idx.ofFin k)).trans (congrArg ValueIdx.ix1 (Shape.Idx.ofFin_zero k))

/-- The program's argsort: of 4096 keys that are each 0 or 1. -/
theorem argsort_zero_one (key : IVec S4096 32) (hkey : ∀ i, key i = 0#32 ∨ key i = 1#32) :
    ∃ σ : Fin 4096 ≃ Fin 4096,
      (∀ p : Fin 4096, (Host.sort2 S4096 0 comparator_i32_i32_d0 key (iotaInDim S4096 32 0)).2 (Shape.Idx.ofFin p)
          = BitVec.ofNat 32 (σ p).val)
      ∧ (∀ p : Fin 4096, p.val < (Finset.univ.filter fun i : Fin 4096 => key (Shape.Idx.ofFin i) = 0#32).card
          ↔ key (Shape.Idx.ofFin (σ p)) = 0#32) :=
  argsort_zero_one_gen key hkey

/-- The same with the indices spelt `ix1`. -/
theorem argsort_zero_one_ix1 (key : IVec S4096 32) (hkey : ∀ i, key i = 0#32 ∨ key i = 1#32) :
    ∃ σ : Fin 4096 ≃ Fin 4096,
      (∀ p : Fin 4096, (Host.sort2 S4096 0 comparator_i32_i32_d0 key (iotaInDim S4096 32 0)).2 (ValueIdx.ix1 p)
          = BitVec.ofNat 32 (σ p).val)
      ∧ (∀ p : Fin 4096, p.val < (Finset.univ.filter fun i : Fin 4096 => key (ValueIdx.ix1 i) = 0#32).card
          ↔ key (ValueIdx.ix1 (σ p)) = 0#32) := by
  obtain ⟨σ, h₁, h₂⟩ := argsort_zero_one_gen (n := 4096) key hkey
  refine ⟨σ, fun p => ?_, fun p => ?_⟩
  · rw [← ofFin_eq_ix1]; exact h₁ p
  · simp only [← ofFin_eq_ix1]; exact h₂ p

end Cert.KernelIdeal.Sorted
-- ==== Proof.PrefixIdeal.lean ====
import proofs.«120018_j30030411333999_2_alg».proof.Proof.RegionIdeal
import Idealize.ShloMosaic.Lib.ValueIdx
import Idealize.ShloMosaic.Lib.IdealHost
import Idealize.ShloMosaic.Lib.Pipeline.Value
import Idealize.ShloMosaic.Lib.IndicatorCount
import proofs.«120018_j30030411333999_2_alg».proof.Proof.SortIdeal

/-!
# The host side of the program before the call, at the extended reals

Before the call the program normalises the rows of its two matrices, counts for every row the zero labels,
marks the rows with more than 32 of them, counts the marked rows, sorts the rows so that the marked ones come
first, and stacks the two normalised matrices with their rows in that order.  This file names each of these
values as a function of the three inputs and reads the buffers the call and the later stretches use:
the one-word table (the number of marked rows), the stack (row `p` of slab `w` is row `σ p` of the `w`-th
normalised matrix, `σ` the sorting permutation), the number of (marked, unmarked) pairs, and the positive term.
-/

set_option maxRecDepth 16384

noncomputable section

namespace Cert.KernelIdeal.Prefix

open Cert.KernelIdeal Cert.KernelIdeal.Gen Cert.KernelIdeal.Region
open Idealize.ShloMosaic Idealize.ShloMosaic.TcCoe Idealize.ShloMosaic.Tactic
open Idealize.ShloMosaic.ValueIdx

/-! ## The values, staged -/

/-- A 4096 × 4096 matrix of extended reals; the 4096 × 64 labels. -/
abbrev Mat : Type := FVec Ideal S4096x4096 .f32
abbrev Lab : Type := IVec S4096x64 32

/-- The Euclidean norm of every row, as a column. -/
def rowNorm (x : Mat) : FVec Ideal S4096x1 .f32 :=
  Host.sqrt (broadcastInDim S4096x1 ![0] bcast_S4096_S4096x1_0
    (Host.reduceAdd (mulf x x) (constant (F := Ideal) S_ .f32 0x00000000#32) reducesTo_S4096x4096_S4096_d1 h_S_))

/-- Every row divided by its norm. -/
def normRows (x : Mat) : Mat :=
  Host.divf x (broadcastInDim S4096x4096 ![0, 1] bcast_S4096x1_S4096x4096_0_1 (rowNorm x))

/-- The number of zero labels of every row. -/
def zeroCount (lab : Lab) : IVec S4096 32 :=
  Host.reduce IntOp.addi (extui 32 (cmpi .eq lab (broadcastInDim S4096x64 ![] bcast_S_S4096x64 (constantI S_ 32 0#32))) natLt_1_32)
    (constantI S_ 32 0#32) reducesTo_S4096x64_S4096_d1 h_S_

/-- The marked rows: more than 32 zero labels. -/
def markedVec (lab : Lab) : IVec S4096 1 :=
  cmpi .sgt (zeroCount lab) (broadcastInDim S4096 ![] bcast_S_S4096 (constantI S_ 32 32#32))

/-- The number of marked rows, as a rank-0 array and as a word. -/
def countVec (lab : Lab) : IVec S_ 32 :=
  Host.reduce IntOp.addi (extui 32 (markedVec lab) natLt_1_32) (constantI S_ 32 0#32) reducesTo_S4096_S_d0 h_S_
def countWord (lab : Lab) : BitVec 32 := countVec lab ValueIdx.ix0

/-- The sort key: 0 on a marked row, 1 on the others. -/
def sortKey (lab : Lab) : IVec S4096 32 :=
  select (markedVec lab) (broadcastInDim S4096 ![] bcast_S_S4096 (constantI S_ 32 0#32))
    (broadcastInDim S4096 ![] bcast_S_S4096 (constantI S_ 32 1#32))

/-- The argsort of a key: the row numbers in sorted order. -/
def permOf (key : IVec S4096 32) : IVec S4096 32 :=
  (Host.sort2 S4096 0 comparator_i32_i32_d0 key (iotaInDim S4096 32 0)).2
def perm (lab : Lab) : IVec S4096 32 := permOf (sortKey lab)

/-- The sorted order spelt out. -/
theorem perm_def (lab : Lab) :
    perm lab = (Host.sort2 S4096 0 comparator_i32_i32_d0 (sortKey lab) (iotaInDim S4096 32 0)).2 := rfl

/-- A row number made non-negative the way an index is: 4096 added to a negative one. -/
def normIdx (pm : IVec S4096 32) : IVec S4096 32 :=
  select (cmpi .slt pm (broadcastInDim S4096 ![] bcast_S_S4096 (constantI S_ 32 0#32)))
    (addi pm (broadcastInDim S4096 ![] bcast_S_S4096 (constantI S_ 32 4096#32))) pm

/-- The rows of `z`, narrowed, taken in the order `pm`. -/
def gatherRows (z : Mat) (pm : IVec S4096 32) : FVec Ideal S4096x4096 .bf16 :=
  Host.gather gather_S4096x4096_S4096x1_S4096x4096_1_0_n_n_0_1_14096 (truncf .bf16 z bitsLt_bf16_f32)
    (broadcastInDim S4096x1 ![0] bcast_S4096_S4096x1_0 (normIdx pm))

/-- One slab of the stack. -/
def slab (z : Mat) (pm : IVec S4096 32) : FVec Ideal S1x4096x4096 .bf16 :=
  broadcastInDim S1x4096x4096 ![1, 2] bcast_S4096x4096_S1x4096x4096_1_2 (gatherRows z pm)

/-- The positive term: the mean over the rows of exp((1 − ⟨x̂ᵢ, ŷᵢ⟩) / τ). -/
def posTerm (x y : Mat) : FVec Ideal S_ .f32 :=
  Host.divf
    (Host.reduceAdd
      (Host.exp (Host.divf
        (subf (broadcastInDim S4096 ![] bcast_S_S4096 (constant (F := Ideal) S_ .f32 0x3F800000#32))
          (Host.reduceAdd (mulf (normRows x) (normRows y)) (constant (F := Ideal) S_ .f32 0x00000000#32) reducesTo_S4096x4096_S4096_d1 h_S_))
        (broadcastInDim S4096 ![] bcast_S_S4096 (constant (F := Ideal) S_ .f32 0x3DCCCCCD#32))))
      (constant (F := Ideal) S_ .f32 0x00000000#32) reducesTo_S4096_S_d0 h_S_)
    (constant (F := Ideal) S_ .f32 0x45800000#32)

/-! ## The buffers when the call is entered -/

variable (m : (ℓ : Loc nD τ sig) → Buf (Elt Ideal) ℓ)

/-- The three inputs on core `c`. -/
abbrev argX (c : Dev nD) : Mat := m (c, Proc.devRef .tc main_arg0)
abbrev argY (c : Dev nD) : Mat := m (c, Proc.devRef .tc main_arg1)
abbrev argL (c : Dev nD) : Lab := m (c, Proc.devRef .tc main_arg2)

/-- One buffer's contents after the eight stretches before the call: the composition of the operations that lead to it. -/
local macro "read_prefix" : tactic =>
  `(tactic| (dsimp only [V, V0]
             simp only [preOps, hostOps0, hostOps0_1, hostOps0_2, hostOps0_3, hostOps0_4, hostOps0_5, hostOps0_6, hostOps0_7,
               List.flatten_cons, List.flatten_nil, List.append_nil, List.cons_append, List.nil_append]
             after_results_simp))

set_option maxHeartbeats 400000 in
/-- The table: the count of marked rows, reshaped to one element. -/
theorem table_eq (c : Dev nD) :
    V (F := Ideal) m c main_v44 = fun i => shapeCast main_v44.ty.shape (countVec (argL m c)) shapeCasts_S_S1 i := by
  read_prefix
  rfl

set_option maxHeartbeats 400000 in
/-- The number of (marked, unmarked) pairs. -/
theorem pairs_eq (c : Dev nD) :
    V (F := Ideal) m c main_v24 = muli (countVec (argL m c)) (subi (constantI S_ 32 4096#32) (countVec (argL m c))) := by
  read_prefix
  rfl

set_option maxHeartbeats 400000 in
/-- The positive term. -/
theorem pos_eq (c : Dev nD) : V (F := Ideal) m c main_v14 = posTerm (argX m c) (argY m c) := by
  read_prefix
  rfl

set_option maxHeartbeats 400000 in
/-- The two normalised matrices. -/
theorem norm0_eq (c : Dev nD) : V (F := Ideal) m c main_v2 = normRows (argX m c) := by
  read_prefix
  rfl

set_option maxHeartbeats 400000 in
theorem norm1_eq (c : Dev nD) : V (F := Ideal) m c main_v5 = normRows (argY m c) := by
  read_prefix
  rfl

set_option maxRecDepth 1000000 in
set_option maxHeartbeats 400000 in
/-- The sort key. -/
theorem key_eq (c : Dev nD) : V (F := Ideal) m c main_v25 = sortKey (argL m c) := by
  read_prefix
  rfl

set_option maxRecDepth 1000000 in
set_option maxHeartbeats 400000 in
/-- The sorted order, from the key's buffer. -/
theorem perm_raw (c : Dev nD) : V (F := Ideal) m c main_v27 = permOf (V (F := Ideal) m c main_v25) := by
  read_prefix
  rfl

theorem perm_eq (c : Dev nD) : V (F := Ideal) m c main_v27 = perm (argL m c) := by
  rw [perm_raw, key_eq]; rfl

set_option maxHeartbeats 400000 in
/-- The two slabs, from the normalised matrices' buffers and the order's. -/
theorem slab0_raw (c : Dev nD) :
    V (F := Ideal) m c main_v45 = slab (V (F := Ideal) m c main_v2) (V (F := Ideal) m c main_v27) := by
  read_prefix
  rfl

set_option maxHeartbeats 400000 in
theorem slab1_raw (c : Dev nD) :
    V (F := Ideal) m c main_v46 = slab (V (F := Ideal) m c main_v5) (V (F := Ideal) m c main_v27) := by
  read_prefix
  rfl

theorem slab0_eq (c : Dev nD) : V (F := Ideal) m c main_v45 = slab (normRows (argX m c)) (perm (argL m c)) := by
  rw [slab0_raw, norm0_eq, perm_eq]

theorem slab1_eq (c : Dev nD) : V (F := Ideal) m c main_v46 = slab (normRows (argY m c)) (perm (argL m c)) := by
  rw [slab1_raw, norm1_eq, perm_eq]

/-! ## Reading the stack at an index -/

local notation "gatherD" => gather_S4096x4096_S4096x1_S4096x4096_1_0_n_n_0_1_14096

/-- The row gather read at `(p, k)`: row `idx[p, 0]` (read signed, clamped into the rows) of the operand, at
column `k`. -/
theorem gather_rows_apply {α : Type} {w : Nat} (x : S4096x4096.Idx → α) (idx : IVec S4096x1 w) (p k : Fin 4096) :
    Host.gather gatherD x idx (ValueIdx.ix2 p k)
      = x (ValueIdx.ix2 (⟨min (idx (ValueIdx.ix2 p (0 : Fin 1))).toInt.toNat 4095, by omega⟩ : Fin 4096) k) := by
  unfold Host.gather
  refine congrArg x (funext fun a => Fin.ext ?_)
  match a with
  | ⟨0, _⟩ =>
    show GatherDims.start gatherD (ValueIdx.ix2 p k) idx 0 + GatherDims.batchCoord gatherD (ValueIdx.ix2 p k) 0 + GatherDims.offCoord gatherD (ValueIdx.ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gatherD from List.mem_singleton.mpr rfl)]
    have hsi : GatherDims.siIdx gatherD (ValueIdx.ix2 p k) ⟨List.idxOf (0 : Fin 2) (GatherDims.startIndexMap gatherD),
        List.idxOf_lt_length_iff.2 (List.mem_singleton.mpr rfl)⟩ = ValueIdx.ix2 p (0 : Fin 1) := by
      funext b; refine Fin.ext ?_
      match b with
      | ⟨0, _⟩ => rfl
      | ⟨1, _⟩ => rfl
    rw [hsi]
    rfl
  | ⟨1, _⟩ =>
    show GatherDims.start gatherD (ValueIdx.ix2 p k) idx 1 + GatherDims.batchCoord gatherD (ValueIdx.ix2 p k) 1 + GatherDims.offCoord gatherD (ValueIdx.ix2 p k) 1 = _
    rw [GatherDims.batchCoord_eq_zero _ _ _ List.not_mem_nil]
    unfold GatherDims.start
    rw [dif_neg (show (1 : Fin 2) ∉ GatherDims.startIndexMap gatherD from by decide)]
    unfold GatherDims.offCoord
    rw [dif_pos (show (1 : Fin 2) ∈ GatherDims.sKept gatherD from by decide), Nat.zero_add]
    rfl

/-- A number below 4096, as a 32-bit word, reads back signed as itself. -/
theorem toInt_ofNat_lt (s : Nat) (hs : s < 4096) : (BitVec.ofNat 32 s).toInt = (s : Int) := by
  rw [BitVec.toInt_eq_toNat_cond, BitVec.toNat_ofNat, Nat.mod_eq_of_lt (by omega : s < 2 ^ 32)]
  split <;> omega

/-- … and is not negative. -/
theorem slt_zero_ofNat_lt (s : Nat) (hs : s < 4096) : IntOp.cmpi .slt (BitVec.ofNat 32 s) 0#32 = 0#1 := by
  have h : (BitVec.ofNat 32 s).slt 0#32 = false := by
    simp only [BitVec.slt, toInt_ofNat_lt s hs, BitVec.toInt_zero, decide_eq_false_iff_not, not_lt]
    exact Int.natCast_nonneg s
  show BitVec.ofBool ((BitVec.ofNat 32 s).slt 0#32) = 0#1
  rw [h]; rfl

/-- The index normalisation leaves a row number below 4096 as it is. -/
theorem normIdx_apply (pm : IVec S4096 32) (i : S4096.Idx) (s : Nat) (hs : s < 4096) (h : pm i = BitVec.ofNat 32 s) :
    normIdx pm i = BitVec.ofNat 32 s := by
  show Scalar.select (IntOp.cmpi .slt (pm i) (broadcastInDim S4096 ![] bcast_S_S4096 (constantI S_ 32 0#32) i)) _ (pm i) = _
  rw [broadcastInDim_scalar_apply, h]
  show Scalar.select (IntOp.cmpi .slt (BitVec.ofNat 32 s) 0#32) _ _ = _
  rw [slt_zero_ofNat_lt s hs, select_zero]

/-- The row the gather takes at position `p`, when the order's entry there is the row number `s`. -/
theorem rowWord_apply (pm : IVec S4096 32) (p s : Fin 4096) (h : pm (ValueIdx.ix1 p) = BitVec.ofNat 32 s.val) :
    min ((broadcastInDim S4096x1 ![0] bcast_S4096_S4096x1_0 (normIdx pm)) (ValueIdx.ix2 p (0 : Fin 1))).toInt.toNat 4095 = s.val := by
  rw [broadcastInDim_apply ![0] bcast_S4096_S4096x1_0 (normIdx pm) (ValueIdx.ix2 p (0 : Fin 1)) (ValueIdx.ix1 p)
      (fun a => match a with | ⟨0, _⟩ => rfl),
    normIdx_apply pm _ s.val s.isLt h, toInt_ofNat_lt s.val s.isLt, Int.toNat_natCast]
  exact Nat.min_eq_left (by have := s.isLt; omega)

/-- One slab read at `(0, p, k)`: row `σ p` of the matrix at column `k`, when the order is `σ` as words. -/
theorem slab_apply (z : Mat) (pm : IVec S4096 32) (σ : Fin 4096 ≃ Fin 4096)
    (hpm : ∀ p : Fin 4096, pm (ValueIdx.ix1 p) = BitVec.ofNat 32 (σ p).val) (u : Fin 1) (p k : Fin 4096) :
    slab z pm (ValueIdx.ix3 u p k) = z (ValueIdx.ix2 (σ p) k) := by
  unfold slab
  refine (broadcastInDim_apply ![1, 2] bcast_S4096x4096_S1x4096x4096_1_2 (gatherRows z pm) (ValueIdx.ix3 u p k) (ValueIdx.ix2 p k)
    (fun a => match a with | ⟨0, _⟩ => rfl | ⟨1, _⟩ => rfl)).trans ?_
  unfold gatherRows
  refine (gather_rows_apply _ _ p k).trans ?_
  refine (truncf_apply z bitsLt_bf16_f32 _).trans ?_
  exact congrArg (fun r : Fin 4096 => z (ValueIdx.ix2 r k)) (Fin.ext (rowWord_apply pm p (σ p) (hpm p)))

/-! ## The table and the pair count at their one index -/

/-- The table's one word is the number of marked rows. -/
theorem table_apply (c : Dev nD) :
    (V (F := Ideal) m c main_v44 : IVec S1 32) (ValueIdx.ix1 (0 : Fin 1)) = countWord (argL m c) := by
  rw [table_eq]
  exact shapeCast_apply (countVec (argL m c)) shapeCasts_S_S1 (ValueIdx.ix1 (0 : Fin 1)) ValueIdx.ix0 rfl

/-- The number of (marked, unmarked) pairs, as the program computes it in 32-bit words. -/
theorem pairs_apply (c : Dev nD) :
    (V (F := Ideal) m c main_v24 : IVec S_ 32) ValueIdx.ix0
      = IntOp.muli (countWord (argL m c)) (IntOp.subi 4096#32 (countWord (argL m c))) := by
  rw [pairs_eq]; rfl

/-! ## The stack -/

set_option maxHeartbeats 400000 in
/-- The stack is the two slabs, one after the other. -/
theorem stack_eq (c : Dev nD) :
    V (F := Ideal) m c main_v47
      = concatenate S2x4096x4096 0 [⟨S1x4096x4096, V (F := Ideal) m c main_v45⟩, ⟨S1x4096x4096, V (F := Ideal) m c main_v46⟩]
          concatenates_S1x4096x4096_S1x4096x4096_S2x4096x4096_d0 := by
  dsimp only [V, V0]
  simp only [preOps, hostOps0, hostOps0_1, hostOps0_2, hostOps0_3, hostOps0_4, hostOps0_5, hostOps0_6, hostOps0_7,
    List.flatten_cons, List.flatten_nil, List.append_nil, List.cons_append, List.nil_append]
  simp only [StableHlo.after_cons, StableHlo.after_nil]
  rw [StableHlo.binary_result]
  rw [StableHlo.binary_result_ne (y := main_v47) (r := main_v45) (h := by decide),
    StableHlo.binary_result_ne (y := main_v47) (r := main_v46) (h := by decide)]
  all_goals rfl

/-- Every entry of the sort key is 0 or 1. -/
theorem sortKey_zero_one (lab : Lab) (i : S4096.Idx) : sortKey lab i = 0#32 ∨ sortKey lab i = 1#32 := by
  unfold sortKey
  rw [select_apply, broadcastInDim_scalar_apply, broadcastInDim_scalar_apply]
  by_cases h : markedVec lab i = 1#1
  · left; rw [h, select_one]; rfl
  · right; rw [eq_zero_of_ne_one h, select_zero]; rfl

set_option maxRecDepth 1000000 in
/-- The stack, with the slabs named. -/
theorem stack_slabs (c : Dev nD) :
    V (F := Ideal) m c main_v47
      = concatenate S2x4096x4096 0
          [⟨S1x4096x4096, slab (normRows (argX m c)) (perm (argL m c))⟩, ⟨S1x4096x4096, slab (normRows (argY m c)) (perm (argL m c))⟩]
          concatenates_S1x4096x4096_S1x4096x4096_S2x4096x4096_d0 := by
  rw [stack_eq, slab0_eq, slab1_eq]

set_option maxRecDepth 1000000 in
/-- The stack read at `(0, p, k)`: row `σ p` of the first normalised matrix at column `k`, when the sorted order is `σ`
as words. -/
theorem stack_apply_zero (c : Dev nD) (σ : Fin 4096 ≃ Fin 4096)
    (hσ : ∀ p : Fin 4096, perm (argL m c) (ValueIdx.ix1 p) = BitVec.ofNat 32 (σ p).val) (p k : Fin 4096) :
    (V (F := Ideal) m c main_v47 : FVec Ideal S2x4096x4096 .bf16) (ValueIdx.ix3 (0 : Fin 2) p k)
      = normRows (argX m c) (ValueIdx.ix2 (σ p) k) := by
  rw [stack_slabs]
  exact (concatenate_pair_apply_left (0 : Fin 3) (slab (normRows (argX m c)) (perm (argL m c))) (slab (normRows (argY m c)) (perm (argL m c)))
    concatenates_S1x4096x4096_S1x4096x4096_S2x4096x4096_d0
    (ValueIdx.ix3 (0 : Fin 2) p k) rfl (ValueIdx.ix3 (0 : Fin 1) p k)
    (fun b => match b with | ⟨0, _⟩ => rfl | ⟨1, _⟩ => rfl | ⟨2, _⟩ => rfl)).trans (slab_apply _ _ σ hσ 0 p k)

set_option maxRecDepth 1000000 in
/-- The stack read at `(1, p, k)`: the same row of the second normalised matrix. -/
theorem stack_apply_one (c : Dev nD) (σ : Fin 4096 ≃ Fin 4096)
    (hσ : ∀ p : Fin 4096, perm (argL m c) (ValueIdx.ix1 p) = BitVec.ofNat 32 (σ p).val) (p k : Fin 4096) :
    (V (F := Ideal) m c main_v47 : FVec Ideal S2x4096x4096 .bf16) (ValueIdx.ix3 (1 : Fin 2) p k)
      = normRows (argY m c) (ValueIdx.ix2 (σ p) k) := by
  rw [stack_slabs]
  exact (concatenate_pair_apply_right (0 : Fin 3) (slab (normRows (argX m c)) (perm (argL m c))) (slab (normRows (argY m c)) (perm (argL m c)))
    concatenates_S1x4096x4096_S1x4096x4096_S2x4096x4096_d0
    (ValueIdx.ix3 (1 : Fin 2) p k) rfl rfl (ValueIdx.ix3 (0 : Fin 1) p k)
    (fun b hb => match b, hb with | ⟨0, _⟩, hb => absurd rfl hb | ⟨1, _⟩, _ => rfl | ⟨2, _⟩, _ => rfl) rfl).trans (slab_apply _ _ σ hσ 0 p k)

/-- The stack read at `(w, p, k)`. -/
theorem stack_apply (c : Dev nD) (σ : Fin 4096 ≃ Fin 4096)
    (hσ : ∀ p : Fin 4096, perm (argL m c) (ValueIdx.ix1 p) = BitVec.ofNat 32 (σ p).val) (w : Fin 2) (p k : Fin 4096) :
    (V (F := Ideal) m c main_v47 : FVec Ideal S2x4096x4096 .bf16) (ValueIdx.ix3 w p k)
      = (if w = 0 then normRows (argX m c) else normRows (argY m c)) (ValueIdx.ix2 (σ p) k) := by
  by_cases hw : w = 0
  · subst hw
    rw [if_pos rfl]
    exact stack_apply_zero m c σ hσ p k
  · have hw1 : w = 1 := Fin.ext (by have := w.isLt; have : w.val ≠ 0 := fun h => hw (Fin.ext h); omega)
    subst hw1
    rw [if_neg (by decide)]
    exact stack_apply_one m c σ hσ p k

set_option maxRecDepth 1000000 in
/-- The sorted order is a permutation `σ` of the rows with the marked rows (key 0) first, and the stack holds the
normalised matrices with their rows in that order. -/
theorem stack_sorted (c : Dev nD) :
    ∃ σ : Fin 4096 ≃ Fin 4096,
      (∀ p : Fin 4096, perm (argL m c) (ValueIdx.ix1 p) = BitVec.ofNat 32 (σ p).val)
      ∧ (∀ p : Fin 4096, p.val < (Finset.univ.filter fun i : Fin 4096 => sortKey (argL m c) (ValueIdx.ix1 i) = 0#32).card
            ↔ sortKey (argL m c) (ValueIdx.ix1 (σ p)) = 0#32)
      ∧ (∀ (w : Fin 2) (p k : Fin 4096),
          (V (F := Ideal) m c main_v47 : FVec Ideal S2x4096x4096 .bf16) (ValueIdx.ix3 w p k)
            = (if w = 0 then normRows (argX m c) else normRows (argY m c)) (ValueIdx.ix2 (σ p) k)) := by
  obtain ⟨σ, h₁, h₂⟩ := Sorted.argsort_zero_one_ix1 (sortKey (argL m c)) (sortKey_zero_one (argL m c))
  have h₁' : ∀ p : Fin 4096, perm (argL m c) (ValueIdx.ix1 p) = BitVec.ofNat 32 (σ p).val := fun p => by
    rw [perm_def]; exact h₁ p
  exact ⟨σ, h₁', h₂, fun w p k => stack_apply m c σ h₁' w p k⟩

/-! ## The marked rows counted -/

/-- Rank-1 indices of 4096 entries are the numbers below 4096. -/
def idxEquiv1 : Fin 4096 ≃ S4096.Idx where
  toFun := ValueIdx.ix1
  invFun j := j 0
  left_inv _ := rfl
  right_inv j := (ValueIdx.eq_ix1 j).symm

theorem card_idx1 (P : S4096.Idx → Prop) [DecidablePred P] :
    (Finset.univ.filter P).card = (Finset.univ.filter fun i : Fin 4096 => P (ValueIdx.ix1 i)).card := by
  rw [Finset.card_filter, Finset.card_filter]
  exact (Equiv.sum_comp idxEquiv1 (fun j => if P j then 1 else 0)).symm

/-- The number of marked rows. -/
def nMarked (lab : Lab) : ℕ := (Finset.univ.filter fun i : Fin 4096 => markedVec lab (ValueIdx.ix1 i) = 1#1).card

/-- The count the program computes, the 32-bit sum of the marks, is the word of the number of marked rows. -/
theorem countVec_apply (lab : Lab) (j : S_.Idx) :
    countVec lab j = BitVec.ofNat 32 (Finset.univ.filter fun q : S4096.Idx => markedVec lab q = 1#1).card := by
  unfold countVec
  rw [Host.reduce_eq_fold]
  have hall : (Finset.univ.filter fun i : S4096.Idx => reducesTo_S4096_S_d0.drop i = j) = Finset.univ :=
    Finset.filter_true_of_mem fun i _ => funext fun b => b.elim0
  rw [hall]
  show (Finset.univ : Finset S4096.Idx).fold IntOp.addi 0#32 (fun q => (markedVec lab q).setWidth 32) = _
  rw [IndicatorCount.fold_addi_setWidth_eq_card]

theorem countWord_eq (lab : Lab) : countWord lab = BitVec.ofNat 32 (nMarked lab) := by
  unfold countWord nMarked
  rw [countVec_apply, card_idx1]

theorem nMarked_le (lab : Lab) : nMarked lab ≤ 4096 := Sorted.card_filter_le_size _

/-- The key is 0 exactly on the marked rows. -/
theorem sortKey_eq_zero_iff (lab : Lab) (i : S4096.Idx) : sortKey lab i = 0#32 ↔ markedVec lab i = 1#1 := by
  unfold sortKey
  rw [select_apply, broadcastInDim_scalar_apply, broadcastInDim_scalar_apply]
  by_cases h : markedVec lab i = 1#1
  · rw [h, select_one]; exact iff_of_true rfl rfl
  · rw [eq_zero_of_ne_one h, select_zero]; exact iff_of_false (by decide) (by decide)

/-- What the call finds: a permutation `σ` of the rows with the marked rows first — position `p` holds a marked row exactly
when `p` is below their number —, that number as the table's word, and the stack holding the two normalised matrices with
their rows in the order `σ`. -/
theorem stack_marked (c : Dev nD) :
    ∃ σ : Fin 4096 ≃ Fin 4096,
      (∀ p : Fin 4096, p.val < nMarked (argL m c) ↔ markedVec (argL m c) (ValueIdx.ix1 (σ p)) = 1#1)
      ∧ (V (F := Ideal) m c main_v44 : IVec S1 32) (ValueIdx.ix1 (0 : Fin 1)) = BitVec.ofNat 32 (nMarked (argL m c))
      ∧ (∀ (w : Fin 2) (p k : Fin 4096),
          (V (F := Ideal) m c main_v47 : FVec Ideal S2x4096x4096 .bf16) (ValueIdx.ix3 w p k)
            = (if w = 0 then normRows (argX m c) else normRows (argY m c)) (ValueIdx.ix2 (σ p) k)) := by
  obtain ⟨σ, _, h₂, h₃⟩ := stack_sorted m c
  have hc : (Finset.univ.filter fun i : Fin 4096 => sortKey (argL m c) (ValueIdx.ix1 i) = 0#32)
      = Finset.univ.filter fun i : Fin 4096 => markedVec (argL m c) (ValueIdx.ix1 i) = 1#1 :=
    Finset.filter_congr fun i _ => sortKey_eq_zero_iff (argL m c) (ValueIdx.ix1 i)
  have hk : nMarked (argL m c) = (Finset.univ.filter fun i : Fin 4096 => sortKey (argL m c) (ValueIdx.ix1 i) = 0#32).card :=
    (congrArg Finset.card hc).symm
  refine ⟨σ, fun p => ?_, ?_, h₃⟩
  · rw [hk]; exact (h₂ p).trans (sortKey_eq_zero_iff (argL m c) _)
  · rw [table_apply, countWord_eq]

/-! ## The pair count as a number -/

/-- On 32-bit words, 4096 less a number up to 4096 is the word of the difference. -/
theorem word_sub (n : ℕ) (hn : n ≤ 4096) : IntOp.subi 4096#32 (BitVec.ofNat 32 n) = BitVec.ofNat 32 (4096 - n) := by
  show 4096#32 - BitVec.ofNat 32 n = _
  apply BitVec.eq_of_toNat_eq
  rw [BitVec.toNat_sub, BitVec.toNat_ofNat, BitVec.toNat_ofNat, BitVec.toNat_ofNat]
  omega

/-- … and the product of two numbers' words is the word of the product. -/
theorem word_mul (a b : ℕ) : IntOp.muli (BitVec.ofNat 32 a) (BitVec.ofNat 32 b) = BitVec.ofNat 32 (a * b) := by
  show BitVec.ofNat 32 a * BitVec.ofNat 32 b = _
  rw [← BitVec.ofNat_mul]

/-- The pair count the program computes is the word of (marked rows) × (unmarked rows). -/
theorem pairs_word (c : Dev nD) :
    (V (F := Ideal) m c main_v24 : IVec S_ 32) ValueIdx.ix0
      = BitVec.ofNat 32 (nMarked (argL m c) * (4096 - nMarked (argL m c))) := by
  rw [pairs_apply, countWord_eq, word_sub _ (nMarked_le _), word_mul]

end Cert.KernelIdeal.Prefix

end
-- ==== Proof.LibLivePairs.lean ====
import Mathlib.Algebra.BigOperators.Ring.Finset
import Mathlib.Algebra.BigOperators.Group.Finset.Piecewise
import Mathlib.Data.Fintype.Fin
import Mathlib.Data.Fintype.BigOperators

/-!
# Sums over (marked, unmarked) pairs of rows

Some of the `n` rows are marked.  When the rows are listed so that the marked ones come first,
the pairs (marked row, unmarked row) are exactly the pairs of positions in the rectangle
(positions below `k`) × (positions from `k` on), where `k` is the number of marked rows.
This file states that as an identity of finite sums, counts the pairs, and identifies `k`.
-/

namespace Cert.Lib.LivePairs
open scoped BigOperators

/-- In the sorted order, position `(p, q)` lies in the rectangle (below `k`) × (from `k` on)
exactly when row `σ p` is marked and row `σ q` is not. -/
theorem rect_iff {n : ℕ} (σ : Fin n ≃ Fin n) (neg : Fin n → Prop) (k : ℕ)
    (hσ : ∀ p : Fin n, p.val < k ↔ neg (σ p)) (p q : Fin n) :
    (p.val < k ∧ k ≤ q.val) ↔ (neg (σ p) ∧ ¬ neg (σ q)) := by
  rw [← hσ p, ← hσ q, not_lt]

/-- Rows permuted so that the marked ones come first — position p holds a marked row exactly when
p < k. Then a sum over the rectangle (positions below k) × (positions from k on) of a function of
the two ROWS is the sum over all pairs (marked row, unmarked row). -/
theorem sum_sorted_rect {n : ℕ} {M : Type*} [AddCommMonoid M] (σ : Fin n ≃ Fin n)
    (neg : Fin n → Prop) [DecidablePred neg] (k : ℕ)
    (hσ : ∀ p : Fin n, p.val < k ↔ neg (σ p)) (f : Fin n → Fin n → M) :
    (∑ p : Fin n, ∑ q : Fin n, if p.val < k ∧ k ≤ q.val then f (σ p) (σ q) else 0)
      = ∑ i : Fin n, ∑ j : Fin n, if neg i ∧ ¬ neg j then f i j else 0 := by
  -- the summand as a function of the two rows
  let g : Fin n → Fin n → M := fun i j => if neg i ∧ ¬ neg j then f i j else 0
  calc (∑ p : Fin n, ∑ q : Fin n, if p.val < k ∧ k ≤ q.val then f (σ p) (σ q) else 0)
      = ∑ p : Fin n, ∑ q : Fin n, g (σ p) (σ q) :=
        Finset.sum_congr rfl fun p _ => Finset.sum_congr rfl fun q _ =>
          if_congr (rect_iff σ neg k hσ p q) rfl rfl
    _ = ∑ i : Fin n, ∑ q : Fin n, g i (σ q) :=
        Equiv.sum_comp σ (fun i => ∑ q : Fin n, g i (σ q))
    _ = ∑ i : Fin n, ∑ j : Fin n, g i j :=
        Finset.sum_congr rfl fun i _ => Equiv.sum_comp σ (g i)

/-- The number of (marked, unmarked) pairs is the product of the two counts. -/
theorem card_pairs {n : ℕ} (neg : Fin n → Prop) [DecidablePred neg] :
    (∑ i : Fin n, ∑ j : Fin n, if neg i ∧ ¬ neg j then (1 : ℕ) else 0)
      = (Finset.univ.filter neg).card * (n - (Finset.univ.filter neg).card) := by
  -- the indicator of a pair is the product of the two indicators
  have hprod : ∀ i j : Fin n, (if neg i ∧ ¬ neg j then (1 : ℕ) else 0)
      = (if neg i then 1 else 0) * (if ¬ neg j then 1 else 0) := by
    intro i j
    by_cases hi : neg i <;> by_cases hj : neg j <;> simp [hi, hj]
  -- the unmarked rows are the rest
  have hrest : (Finset.univ.filter fun j : Fin n => ¬ neg j).card
      = n - (Finset.univ.filter neg).card := by
    have h := Finset.card_filter_add_card_filter_not (s := (Finset.univ : Finset (Fin n))) neg
    rw [Finset.card_univ, Fintype.card_fin] at h
    omega
  calc (∑ i : Fin n, ∑ j : Fin n, if neg i ∧ ¬ neg j then (1 : ℕ) else 0)
      = ∑ i : Fin n, ∑ j : Fin n, (if neg i then 1 else 0) * (if ¬ neg j then 1 else 0) :=
        Finset.sum_congr rfl fun i _ => Finset.sum_congr rfl fun j _ => hprod i j
    _ = (∑ i : Fin n, if neg i then 1 else 0) * ∑ j : Fin n, if ¬ neg j then 1 else 0 :=
        (Finset.sum_mul_sum _ _ _ _).symm
    _ = (Finset.univ.filter neg).card * (Finset.univ.filter fun j : Fin n => ¬ neg j).card := by
        rw [Finset.sum_boole, Finset.sum_boole]; rfl
    _ = (Finset.univ.filter neg).card * (n - (Finset.univ.filter neg).card) := by rw [hrest]

/-- In the sorted order the number of positions below k holding a marked row is all the marked
rows: k is their count. -/
theorem count_of_sorted {n : ℕ} (σ : Fin n ≃ Fin n) (neg : Fin n → Prop) [DecidablePred neg]
    (k : ℕ) (hk : k ≤ n) (hσ : ∀ p : Fin n, p.val < k ↔ neg (σ p)) :
    (Finset.univ.filter neg).card = k := by
  calc (Finset.univ.filter neg).card
      = ∑ i : Fin n, if neg i then 1 else 0 := Finset.card_filter neg Finset.univ
    _ = ∑ p : Fin n, if neg (σ p) then 1 else 0 :=
        (Equiv.sum_comp σ (fun i => if neg i then 1 else 0)).symm
    _ = ∑ p : Fin n, if p.val < k then 1 else 0 :=
        Finset.sum_congr rfl fun p _ => if_congr (hσ p).symm rfl rfl
    _ = (Finset.univ.filter fun p : Fin n => p.val < k).card :=
        (Finset.card_filter (fun p : Fin n => p.val < k) Finset.univ).symm
    _ = min n k := Fin.card_filter_val_lt
    _ = k := Nat.min_eq_right hk

end Cert.Lib.LivePairs
-- ==== Proof.RefValue.lean ====
/-
  The reference's run with its result named, and the result as a composition of stages.

  The reference is 88 host operations in order. Several intermediates are read three or four times each (the two arrays of
  normalised rows, the pair mask, the pair count), so the result's term over the arguments, written out, is a large tree.
  Here the result is a composition of named functions, one per shared intermediate, and the fold of the operations is
  computed piece by piece: the list is cut into seven consecutive pieces, each piece's fold is read at the few buffers later
  pieces use, over ANY contents it starts from, and the seven readings are chained. No step compares two composed trees.
-/
import proofs.«120018_j30030411333999_2_alg».proof.Proof.RefRun
import Idealize.ShloMosaic.Lib.StableHlo.Run
import Idealize.ShloMosaic.Lib.Pipeline.Frame
import Idealize.ShloMosaic.PureOps.Ideal

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! ## The stages

The reference's value is written as a composition of named stages, one per intermediate that several later
operations read: the normalised rows, the positive term, the marked rows, the pair mask, the pair count and the
negative term of one normalised array. -/

/-- Each row divided by its Euclidean norm: the square root of the row's sum of squares, copied along the row. -/
def rows (x : (⟨S4096x4096, .f32⟩ : BufTy).Contents (Elt F)) : (⟨S4096x4096, .f32⟩ : BufTy).Contents (Elt F) :=
  Host.divf x (broadcastInDim S4096x4096 ![0, 1] bcast_S4096x1_S4096x4096_0_1 (Host.sqrt (broadcastInDim S4096x1 ![0] bcast_S4096_S4096x1_0 (Host.reduceAdd (mulf x x) (constant S_ .f32 0x00000000#32) reducesTo_S4096x4096_S4096_d1 h_S_))))

/-- The positive term of two arrays of rows: the sum over the rows i of exp ((1 − ⟨a i, b i⟩) / D), divided by 4096;
    D is the word 0x3DCCCCCD, 4096 the word 0x45800000. -/
def posTerm (a b : (⟨S4096x4096, .f32⟩ : BufTy).Contents (Elt F)) : (⟨S_, .f32⟩ : BufTy).Contents (Elt F) :=
  Host.divf (Host.reduceAdd (Host.exp (Host.divf (subf (broadcastInDim S4096 ![] bcast_S_S4096 (constant S_ .f32 0x3F800000#32)) (Host.reduceAdd (mulf a b) (constant S_ .f32 0x00000000#32) reducesTo_S4096x4096_S4096_d1 h_S_)) (broadcastInDim S4096 ![] bcast_S_S4096 (constant S_ .f32 0x3DCCCCCD#32)))) (constant S_ .f32 0x00000000#32) reducesTo_S4096_S_d0 h_S_) (constant S_ .f32 0x45800000#32)

/-- Row i is marked when more than 32 of its 64 labels are 0: the one-bit word of "the count of zero labels, as a signed
    32-bit sum, is greater than 32". -/
def marked (lab : (⟨S4096x64, .i32⟩ : BufTy).Contents (Elt F)) : (⟨S4096, .i1⟩ : BufTy).Contents (Elt F) :=
  cmpi .sgt (Host.reduce IntOp.addi (extui 32 (cmpi .eq lab (broadcastInDim S4096x64 ![] bcast_S_S4096x64 (constantI S_ 32 0#32))) natLt_1_32) (constantI S_ 32 0#32) reducesTo_S4096x64_S4096_d1 h_S_) (broadcastInDim S4096 ![] bcast_S_S4096 (constantI S_ 32 32#32))

/-- The pair mask of a vector of marks: at (i, j), "i is marked and j is not". -/
def pairMask (mk : (⟨S4096, .i1⟩ : BufTy).Contents (Elt F)) : (⟨S4096x4096, .i1⟩ : BufTy).Contents (Elt F) :=
  andi (broadcastInDim S4096x4096 ![0, 1] bcast_S4096x1_S4096x4096_0_1 (broadcastInDim S4096x1 ![0] bcast_S4096_S4096x1_0 mk)) (broadcastInDim S4096x4096 ![0, 1] bcast_S1x4096_S4096x4096_0_1 (broadcastInDim S1x4096 ![1] bcast_S4096_S1x4096_1 (noti mk)))

/-- The number of pairs of a mask: the 32-bit sum of its bits. -/
def pairCount (M : (⟨S4096x4096, .i1⟩ : BufTy).Contents (Elt F)) : (⟨S_, .i32⟩ : BufTy).Contents (Elt F) :=
  Host.reduce IntOp.addi (extui 32 M natLt_1_32) (constantI S_ 32 0#32) reducesTo_S4096x4096_S_d0_1 h_S_

/-- The negative term of one array of rows z under a mask M with count cnt: when cnt > 0, the sum over the pairs (i, j) of
    exp (⟨z i, z j⟩ / D) times the mask's bit as a float, divided by the float of max cnt 1; otherwise 0. -/
def negTerm (z : (⟨S4096x4096, .f32⟩ : BufTy).Contents (Elt F)) (M : (⟨S4096x4096, .i1⟩ : BufTy).Contents (Elt F))
    (cnt : (⟨S_, .i32⟩ : BufTy).Contents (Elt F)) : (⟨S_, .f32⟩ : BufTy).Contents (Elt F) :=
  select (cmpi .sgt cnt (constantI S_ 32 0#32)) (Host.divf (Host.reduceAdd (mulf (Host.exp (Host.divf (Host.dotGeneral dot_S4096x4096_S4096x4096_S4096x4096_1_0_0_1_n_n none z (transpose S4096x4096 [1, 0] z transposes_S4096x4096_S4096x4096_1_0)) (broadcastInDim S4096x4096 ![] bcast_S_S4096x4096 (constant S_ .f32 0x3DCCCCCD#32)))) (uitofp .f32 M)) (constant S_ .f32 0x00000000#32) reducesTo_S4096x4096_S_d0_1 h_S_) (sitofp .f32 (maxsi cnt (constantI S_ 32 1#32)))) (constant S_ .f32 0x00000000#32)

/-- The last three operations: the positive term plus 1.0 times the sum of the two negative terms. -/
def total (p n₁ n₂ : (⟨S_, .f32⟩ : BufTy).Contents (Elt F)) : (⟨S_, .f32⟩ : BufTy).Contents (Elt F) :=
  addf p (mulf (constant S_ .f32 0x3F800000#32) (addf n₁ n₂))

/-- The reference's result as a function of its three argument arrays. -/
def result (x y : (⟨S4096x4096, .f32⟩ : BufTy).Contents (Elt F)) (lab : (⟨S4096x64, .i32⟩ : BufTy).Contents (Elt F)) :
    (⟨S_, .f32⟩ : BufTy).Contents (Elt F) :=
  total (posTerm (rows x) (rows y))
    (negTerm (rows x) (pairMask (marked lab)) (pairCount (pairMask (marked lab))))
    (negTerm (rows y) (pairMask (marked lab)) (pairCount (pairMask (marked lab))))

/-! ## The operations in seven consecutive pieces

Operations 0-6 and 7-13 normalise the two arrays, 14-27 compute the positive term, 28-45 the mask and its count,
46-64 and 65-83 the two negative terms, 84-87 the total. -/

def p1 : List (HloOp τ sig (Elt F)) := (ops (F := F)).take 7
def p2 : List (HloOp τ sig (Elt F)) := ((ops (F := F)).drop 7).take 7
def p3 : List (HloOp τ sig (Elt F)) := ((ops (F := F)).drop 14).take 14
def p4 : List (HloOp τ sig (Elt F)) := ((ops (F := F)).drop 28).take 18
def p5 : List (HloOp τ sig (Elt F)) := ((ops (F := F)).drop 46).take 19
def p6 : List (HloOp τ sig (Elt F)) := ((ops (F := F)).drop 65).take 19
def p7 : List (HloOp τ sig (Elt F)) := (ops (F := F)).drop 84

set_option maxRecDepth 8192 in
theorem ops_split : (ops : List (HloOp τ sig (Elt F))) = p1 ++ (p2 ++ (p3 ++ (p4 ++ (p5 ++ (p6 ++ p7))))) := rfl

/-- Brings a piece to its literal list, computes the fold at one reference, and closes what is left by unfolding. -/
local macro "piece_read" : tactic =>
  `(tactic| (simp only [p1, p2, p3, p4, p5, p6, p7, ops, List.take_succ_cons, List.take_zero, List.drop_succ_cons, List.drop_zero]
             after_results_simp
             try rfl))
set_option maxRecDepth 8192 in
theorem p1_v2 (W : Valuation τ sig (Elt F)) :
    after p1 W (Proc.devRef .tc main_v2) = rows (W (Proc.devRef .tc main_arg0)) := by piece_read
set_option maxRecDepth 8192 in
theorem p1_arg1 (W : Valuation τ sig (Elt F)) :
    after p1 W (Proc.devRef .tc main_arg1) = W (Proc.devRef .tc main_arg1) := by piece_read
set_option maxRecDepth 8192 in
theorem p1_arg2 (W : Valuation τ sig (Elt F)) :
    after p1 W (Proc.devRef .tc main_arg2) = W (Proc.devRef .tc main_arg2) := by piece_read
set_option maxRecDepth 8192 in
theorem p2_v5 (W : Valuation τ sig (Elt F)) :
    after p2 W (Proc.devRef .tc main_v5) = rows (W (Proc.devRef .tc main_arg1)) := by piece_read
set_option maxRecDepth 8192 in
theorem p2_v2 (W : Valuation τ sig (Elt F)) :
    after p2 W (Proc.devRef .tc main_v2) = W (Proc.devRef .tc main_v2) := by piece_read
set_option maxRecDepth 8192 in
theorem p2_arg2 (W : Valuation τ sig (Elt F)) :
    after p2 W (Proc.devRef .tc main_arg2) = W (Proc.devRef .tc main_arg2) := by piece_read
set_option maxRecDepth 8192 in
theorem p3_v14 (W : Valuation τ sig (Elt F)) :
    after p3 W (Proc.devRef .tc main_v14) = posTerm (W (Proc.devRef .tc main_v2)) (W (Proc.devRef .tc main_v5)) := by piece_read
set_option maxRecDepth 8192 in
theorem p3_v2 (W : Valuation τ sig (Elt F)) :
    after p3 W (Proc.devRef .tc main_v2) = W (Proc.devRef .tc main_v2) := by piece_read
set_option maxRecDepth 8192 in
theorem p3_v5 (W : Valuation τ sig (Elt F)) :
    after p3 W (Proc.devRef .tc main_v5) = W (Proc.devRef .tc main_v5) := by piece_read
set_option maxRecDepth 8192 in
theorem p3_arg2 (W : Valuation τ sig (Elt F)) :
    after p3 W (Proc.devRef .tc main_arg2) = W (Proc.devRef .tc main_arg2) := by piece_read
set_option maxRecDepth 8192 in
theorem p4_v26 (W : Valuation τ sig (Elt F)) :
    after p4 W (Proc.devRef .tc main_v26) = pairMask (marked (W (Proc.devRef .tc main_arg2))) := by piece_read
set_option maxRecDepth 8192 in
theorem p4_v28 (W : Valuation τ sig (Elt F)) :
    after p4 W (Proc.devRef .tc main_v28) = pairCount (pairMask (marked (W (Proc.devRef .tc main_arg2)))) := by piece_read
set_option maxRecDepth 8192 in
theorem p4_v2 (W : Valuation τ sig (Elt F)) :
    after p4 W (Proc.devRef .tc main_v2) = W (Proc.devRef .tc main_v2) := by piece_read
set_option maxRecDepth 8192 in
theorem p4_v5 (W : Valuation τ sig (Elt F)) :
    after p4 W (Proc.devRef .tc main_v5) = W (Proc.devRef .tc main_v5) := by piece_read
set_option maxRecDepth 8192 in
theorem p4_v14 (W : Valuation τ sig (Elt F)) :
    after p4 W (Proc.devRef .tc main_v14) = W (Proc.devRef .tc main_v14) := by piece_read
set_option maxRecDepth 8192 in
theorem p5_v41 (W : Valuation τ sig (Elt F)) :
    after p5 W (Proc.devRef .tc main_v41) = negTerm (W (Proc.devRef .tc main_v2)) (W (Proc.devRef .tc main_v26)) (W (Proc.devRef .tc main_v28)) := by piece_read
set_option maxRecDepth 8192 in
theorem p5_v5 (W : Valuation τ sig (Elt F)) :
    after p5 W (Proc.devRef .tc main_v5) = W (Proc.devRef .tc main_v5) := by piece_read
set_option maxRecDepth 8192 in
theorem p5_v14 (W : Valuation τ sig (Elt F)) :
    after p5 W (Proc.devRef .tc main_v14) = W (Proc.devRef .tc main_v14) := by piece_read
set_option maxRecDepth 8192 in
theorem p5_v26 (W : Valuation τ sig (Elt F)) :
    after p5 W (Proc.devRef .tc main_v26) = W (Proc.devRef .tc main_v26) := by piece_read
set_option maxRecDepth 8192 in
theorem p5_v28 (W : Valuation τ sig (Elt F)) :
    after p5 W (Proc.devRef .tc main_v28) = W (Proc.devRef .tc main_v28) := by piece_read
set_option maxRecDepth 8192 in
theorem p6_v54 (W : Valuation τ sig (Elt F)) :
    after p6 W (Proc.devRef .tc main_v54) = negTerm (W (Proc.devRef .tc main_v5)) (W (Proc.devRef .tc main_v26)) (W (Proc.devRef .tc main_v28)) := by piece_read
set_option maxRecDepth 8192 in
theorem p6_v14 (W : Valuation τ sig (Elt F)) :
    after p6 W (Proc.devRef .tc main_v14) = W (Proc.devRef .tc main_v14) := by piece_read
set_option maxRecDepth 8192 in
theorem p6_v41 (W : Valuation τ sig (Elt F)) :
    after p6 W (Proc.devRef .tc main_v41) = W (Proc.devRef .tc main_v41) := by piece_read
set_option maxRecDepth 8192 in
theorem p7_v57 (W : Valuation τ sig (Elt F)) :
    after p7 W (Proc.devRef .tc main_v57) = total (W (Proc.devRef .tc main_v14)) (W (Proc.devRef .tc main_v41)) (W (Proc.devRef .tc main_v54)) := by piece_read

/-- The fold of all 88 operations at the result's buffer, from any contents: the staged result of the three arguments. -/
theorem after_ops_v57 (V : Valuation τ sig (Elt F)) :
    after ops V (Proc.devRef .tc main_v57)
      = result (V (Proc.devRef .tc main_arg0)) (V (Proc.devRef .tc main_arg1)) (V (Proc.devRef .tc main_arg2)) := by
  rw [ops_split]
  simp only [after_append]
  rw [p7_v57, p6_v14, p6_v41, p6_v54, p5_v14, p5_v41, p5_v5, p5_v26, p5_v28, p4_v14, p4_v2, p4_v26, p4_v28, p4_v5,
    p3_v14, p3_v2, p3_v5, p3_arg2, p2_v2, p2_v5, p2_arg2, p1_v2, p1_arg1, p1_arg2]
  rfl

/-! ## The run -/

set_option maxRecDepth 8192 in
set_option maxHeartbeats 35200000 in
/-- On every device, from any memory with zero counters: every weakly fair execution of the reference's @main terminates,
    nothing faulting, with the result's buffer at `result` of the three argument arrays and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v57)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v57).trans (after_ops_v57 (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefValue

end
-- ==== Proof.RefStages.lean ====
/-
  The stages of the reference's value, each read at an index over the extended reals.

  At the extended reals every operation of the stages reads, at an index, as the plain operation on the elements, and each
  reduction is a finite sum: the positive term is a sum over the rows of an exponential of a row-by-row product; a negative
  term is a double sum over the pairs of rows of an exponential of a product of two rows, counted where the first row is
  marked and the second is not. The normalised rows, the marks and the pair count stay named functions.
-/
import proofs.«120018_j30030411333999_2_alg».proof.Proof.RefValue
import Idealize.ShloMosaic.Lib.IdealHost
import Idealize.ShloMosaic.Lib.Pipeline.Value

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

section AtIdeal
open Idealize.ShloMosaic.ValueIdx
open scoped BigOperators

/-- The reference's divisor: the extended real its printed word 0x3DCCCCCD denotes. -/
def D : EReal := Ideal.ofBits .f32 0x3DCCCCCD#32

/-- A sum over the indices of a rank-1 shape is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ fun i => congrArg f (eq_ix1 i)

/-- The sum along each row of the elementwise product of two arrays: at row i, the sum over k of a i k * b i k. -/
theorem rowDot_apply (a b : FVec Ideal S4096x4096 .f32) (i : Fin 4096) :
    Host.reduceAdd (F := Ideal) (mulf a b) (constant S_ .f32 0x00000000#32) reducesTo_S4096x4096_S4096_d1 h_S_ (ix1 i)
      = ∑ k : Fin 4096, a (ix2 i k) * b (ix2 i k) := by
  have hR : S4096x4096.Reduces [1] S4096 := by decide
  rw [hostReduceAdd_apply, Ideal.hostReduceAdd_single _ hR]
  show Ideal.ofBits .f32 0x00000000#32 + (∑ k : Fin 4096, mulf a b (hR.lift (ix1 i) k)) = _
  rw [Ideal.ofBits_zero_f32, zero_add]
  refine Finset.sum_congr rfl fun k _ => ?_
  have e : hR.lift (ix1 i) k = ix2 i k := by
    funext c; match c with | ⟨0, _⟩ => rfl | ⟨1, _⟩ => rfl
  rw [e]; rfl

/-- The positive term at its index: the sum over the rows i of exp ((1 − ∑ k, a i k * b i k) / D), divided by what the
    word 0x45800000 denotes. -/
theorem posTerm_apply (a b : FVec Ideal S4096x4096 .f32) (j : S_.Idx) :
    (posTerm (F := Ideal) a b j : EReal)
      = Ideal.div (∑ i : Fin 4096, Ideal.exp (Ideal.div (1 - ∑ k : Fin 4096, a (ix2 i k) * b (ix2 i k)) D))
          (Ideal.ofBits .f32 0x45800000#32) := by
  unfold posTerm
  show Ideal.div (Host.reduceAdd (F := Ideal) _ _ reducesTo_S4096_S_d0 h_S_ j) _ = _
  rw [hostReduceAdd_apply, Ideal.hostReduceAdd_total _ (fun b => b.elim0)]
  show Ideal.div (Ideal.ofBits .f32 0x00000000#32 + _) _ = _
  rw [Ideal.ofBits_zero_f32, zero_add, sum_idx1]
  refine congrArg (fun s => Ideal.div s _) (Finset.sum_congr rfl fun i _ => ?_)
  show Ideal.exp (Ideal.div (Ideal.ofBits .f32 0x3F800000#32 - Host.reduceAdd (F := Ideal) (mulf a b) _ _ _ (ix1 i)) D) = _
  rw [rowDot_apply, Ideal.ofBits_one_f32]

/-- The product of an array of rows with its own transpose, at (i, j): the sum over k of z i k * z j k. -/
theorem gram_apply (z : FVec Ideal S4096x4096 .f32) (i j : Fin 4096) :
    Host.dotGeneral (F := Ideal) dot_S4096x4096_S4096x4096_S4096x4096_1_0_0_1_n_n none z
        (transpose S4096x4096 [1, 0] z transposes_S4096x4096_S4096x4096_1_0) (ix2 i j)
      = ∑ k : Fin 4096, z (ix2 i k) * z (ix2 j k) := by
  simp only [Host.dotGeneral]
  rw [Ideal.dotGeneral_apply,
    ← Equiv.sum_comp (contrEquiv1 dot_S4096x4096_S4096x4096_S4096x4096_1_0_0_1_n_n 4096 rfl rfl).symm]
  refine Finset.sum_congr rfl fun k _ => ?_
  have hk : (((contrEquiv1 dot_S4096x4096_S4096x4096_S4096x4096_1_0_0_1_n_n 4096 rfl rfl).symm k) ⟨0, by decide⟩ : ℕ) = k.val :=
    contrEquiv1_symm_val _ 4096 rfl rfl k
  have hl : dot_S4096x4096_S4096x4096_S4096x4096_1_0_0_1_n_n.lhsIdx (ix2 i j)
      ((contrEquiv1 dot_S4096x4096_S4096x4096_S4096x4096_1_0_0_1_n_n 4096 rfl rfl).symm k) = ix2 i k := by
    funext c; refine Fin.ext ?_
    match c with
    | ⟨0, _⟩ => rfl
    | ⟨1, _⟩ => exact hk
  have hr : dot_S4096x4096_S4096x4096_S4096x4096_1_0_0_1_n_n.rhsIdx (ix2 i j)
      ((contrEquiv1 dot_S4096x4096_S4096x4096_S4096x4096_1_0_0_1_n_n 4096 rfl rfl).symm k) = ix2 k j := by
    funext c; refine Fin.ext ?_
    match c with
    | ⟨0, _⟩ => exact hk
    | ⟨1, _⟩ => rfl
  rw [hl, hr, transpose_apply [1, 0] z transposes_S4096x4096_S4096x4096_1_0 (ix2 k j) (ix2 j k)
    (fun b => match b with | ⟨0, _⟩ => rfl | ⟨1, _⟩ => rfl)]

/-- The pair mask at (i, j): the bit of i and the complement of the bit of j. -/
theorem pairMask_apply (mk : IVec S4096 1) (i j : Fin 4096) :
    pairMask (F := Ideal) mk (ix2 i j) = IntOp.andi (mk (ix1 i)) (~~~ (mk (ix1 j))) := by
  unfold pairMask
  show IntOp.andi (broadcastInDim S4096x4096 ![0, 1] bcast_S4096x1_S4096x4096_0_1 (broadcastInDim S4096x1 ![0] bcast_S4096_S4096x1_0 mk) (ix2 i j))
      (broadcastInDim S4096x4096 ![0, 1] bcast_S1x4096_S4096x4096_0_1 (broadcastInDim S1x4096 ![1] bcast_S4096_S1x4096_1 (noti mk)) (ix2 i j)) = _
  rw [broadcastInDim_apply ![0, 1] bcast_S4096x1_S4096x4096_0_1 _ (ix2 i j) (ix2 i (0 : Fin 1))
      (fun a => match a with | ⟨0, _⟩ => rfl | ⟨1, _⟩ => rfl),
    broadcastInDim_apply ![0] bcast_S4096_S4096x1_0 mk (ix2 i (0 : Fin 1)) (ix1 i)
      (fun a => match a with | ⟨0, _⟩ => rfl),
    broadcastInDim_apply ![0, 1] bcast_S1x4096_S4096x4096_0_1 _ (ix2 i j) (ix2 (0 : Fin 1) j)
      (fun a => match a with | ⟨0, _⟩ => rfl | ⟨1, _⟩ => rfl),
    broadcastInDim_apply ![1] bcast_S4096_S1x4096_1 (noti mk) (ix2 (0 : Fin 1) j) (ix1 j)
      (fun a => match a with | ⟨0, _⟩ => rfl)]
  rfl

/-- A one-bit word "a and not b", read as a number: 1 when a is set and b is not, else 0. -/
theorem toNat_andi_not (a b : BitVec 1) :
    (((IntOp.andi a (~~~ b)).toNat : ℝ) : EReal) = if a = 1#1 ∧ ¬ b = 1#1 then 1 else 0 := by
  rcases BitVec.eq_zero_or_eq_one a with rfl | rfl <;> rcases BitVec.eq_zero_or_eq_one b with rfl | rfl <;>
    simp [IntOp.andi]

/-- The negative term at its index: when the count is above zero (as a signed word), the sum over the pairs (i, j) of
    exp ((∑ k, z i k * z j k) / D), counted where i is marked and j is not, divided by the count, at least 1, read as a
    signed integer; otherwise 0. -/
theorem negTerm_apply (z : FVec Ideal S4096x4096 .f32) (mk : IVec S4096 1) (cnt : IVec S_ 32) (j : S_.Idx) :
    (negTerm (F := Ideal) z (pairMask (F := Ideal) mk) cnt j : EReal)
      = Scalar.select (IntOp.cmpi .sgt (cnt j) 0#32)
          (Ideal.div (∑ i : Fin 4096, ∑ j' : Fin 4096,
              Ideal.exp (Ideal.div (∑ k : Fin 4096, z (ix2 i k) * z (ix2 j' k)) D)
                * (if mk (ix1 i) = 1#1 ∧ ¬ mk (ix1 j') = 1#1 then 1 else 0))
            (((IntOp.maxsi (cnt j) 1#32).toInt : ℝ) : EReal))
          0 := by
  unfold negTerm
  show Scalar.select (IntOp.cmpi .sgt (cnt j) 0#32)
      (Ideal.div (Host.reduceAdd (F := Ideal) _ _ reducesTo_S4096x4096_S_d0_1 h_S_ j) (((IntOp.maxsi (cnt j) 1#32).toInt : ℝ) : EReal))
      (Ideal.ofBits .f32 0x00000000#32) = _
  rw [hostReduceAdd_apply, Ideal.hostReduceAdd_total _ (fun b => b.elim0)]
  show Scalar.select _ (Ideal.div (Ideal.ofBits .f32 0x00000000#32 + _) _) _ = _
  rw [Ideal.ofBits_zero_f32, zero_add, sum_idx2]
  refine congrArg (fun s => Scalar.select _ (Ideal.div s _) _) (Finset.sum_congr rfl fun i _ => Finset.sum_congr rfl fun j' _ => ?_)
  show Ideal.exp (Ideal.div (Host.dotGeneral (F := Ideal) dot_S4096x4096_S4096x4096_S4096x4096_1_0_0_1_n_n none z
        (transpose S4096x4096 [1, 0] z transposes_S4096x4096_S4096x4096_1_0) (ix2 i j')) D)
      * (((pairMask (F := Ideal) mk (ix2 i j')).toNat : ℝ) : EReal) = _
  rw [gram_apply, pairMask_apply, toNat_andi_not]

/-- The reference's result at its one index: the positive term of the two arrays of normalised rows plus what the word
    0x3F800000 denotes, 1, times the sum of their two negative terms. -/
theorem result_apply (x y : FVec Ideal S4096x4096 .f32) (lab : IVec S4096x64 32) (j : S_.Idx) :
    (result (F := Ideal) x y lab j : EReal)
      = posTerm (F := Ideal) (rows x) (rows y) j
        + 1 * (negTerm (F := Ideal) (rows x) (pairMask (marked (F := Ideal) lab)) (pairCount (F := Ideal) (pairMask (marked (F := Ideal) lab))) j
              + negTerm (F := Ideal) (rows y) (pairMask (marked (F := Ideal) lab)) (pairCount (F := Ideal) (pairMask (marked (F := Ideal) lab))) j) := by
  unfold result total
  rw [addf_apply, mulf_apply, addf_apply, constant_apply, Ideal.ofBits_one_f32]

/-- The result at its index as plain sums over Fin 4096 (the normalised rows a named function): the mean term
    (∑ i, exp ((1 − ∑ k, xn i k * yn i k) / D)) / 4096-as-printed, plus 1 times the sum over z ∈ {xn, yn} of: when the pair count
    is above zero, (∑ i j, exp ((∑ k, z i k * z j k) / D) * [i marked and j not]) / (the count, at least 1), else 0. -/
theorem result_apply_sums (x y : FVec Ideal S4096x4096 .f32) (lab : IVec S4096x64 32) (j : S_.Idx) :
    (result (F := Ideal) x y lab j : EReal)
      = Ideal.div (∑ i : Fin 4096, Ideal.exp (Ideal.div (1 - ∑ k : Fin 4096, rows (F := Ideal) x (ix2 i k) * rows (F := Ideal) y (ix2 i k)) D))
          (Ideal.ofBits .f32 0x45800000#32)
        + 1 * (Scalar.select (IntOp.cmpi .sgt (pairCount (F := Ideal) (pairMask (marked (F := Ideal) lab)) j) 0#32)
              (Ideal.div (∑ i : Fin 4096, ∑ j' : Fin 4096,
                  Ideal.exp (Ideal.div (∑ k : Fin 4096, rows (F := Ideal) x (ix2 i k) * rows (F := Ideal) x (ix2 j' k)) D)
                    * (if marked (F := Ideal) lab (ix1 i) = 1#1 ∧ ¬ marked (F := Ideal) lab (ix1 j') = 1#1 then 1 else 0))
                (((IntOp.maxsi (pairCount (F := Ideal) (pairMask (marked (F := Ideal) lab)) j) 1#32).toInt : ℝ) : EReal))
              0
            + Scalar.select (IntOp.cmpi .sgt (pairCount (F := Ideal) (pairMask (marked (F := Ideal) lab)) j) 0#32)
              (Ideal.div (∑ i : Fin 4096, ∑ j' : Fin 4096,
                  Ideal.exp (Ideal.div (∑ k : Fin 4096, rows (F := Ideal) y (ix2 i k) * rows (F := Ideal) y (ix2 j' k)) D)
                    * (if marked (F := Ideal) lab (ix1 i) = 1#1 ∧ ¬ marked (F := Ideal) lab (ix1 j') = 1#1 then 1 else 0))
                (((IntOp.maxsi (pairCount (F := Ideal) (pairMask (marked (F := Ideal) lab)) j) 1#32).toInt : ℝ) : EReal))
              0) := by
  rw [result_apply, posTerm_apply, negTerm_apply, negTerm_apply]

/-- The divisor is the real 13421773 / 134217728, the f32 nearest one tenth. -/
theorem D_eq : D = ((13421773 / 134217728 : ℝ) : EReal) := by
  unfold D
  simp [Ideal.ofBits, Ideal.ieee, -EReal.coe_mul]; norm_num

/-- The word 0x45800000 denotes 4096. -/
theorem ofBits_4096 : Ideal.ofBits .f32 0x45800000#32 = ((4096 : ℝ) : EReal) := by
  simp [Ideal.ofBits, Ideal.ieee, -EReal.coe_mul]; norm_num

end AtIdeal

end Cert.ReferenceIdeal.RefValue

end
-- ==== Proof.BridgeIdeal.lean ====
/-
  The kernel's output rows summed, against the reference's double sum over pairs of rows.

  The region's output entry for row tile i and row r is the sum over the eight column tiles of the tile's masked row sum,
  taken where the body finds the tile live. The rows of the stack are the rows of z listed so that the marked ones come
  first, k of them. Entry (r, c) of tile (i, j) is then the exponential of the scaled inner product of rows σ p and σ q,
  p = 1024 i + r, q = 512 j + c, kept exactly where p < k ≤ q; a dead tile has no such entry, so the liveness test drops out;
  the scale by the reciprocal constant is the division by the reference's divisor; and summing over all tiles and entries
  is summing over all pairs of positions, which the sorted order turns into the sum over the pairs (marked row, unmarked row).

  Before that, two readings of the reference's integer side that the comparison of the two counts needs: a row's mark as
  "more than 32 zero labels", and the pair count as the product of the numbers of marked and unmarked rows.
-/
import proofs.«120018_j30030411333999_2_alg».proof.Proof.OutSpecIdeal
import proofs.«120018_j30030411333999_2_alg».proof.Proof.LibLivePairs
import proofs.«120018_j30030411333999_2_alg».proof.Proof.RefStages
import Idealize.ShloMosaic.Lib.WordArith
import Idealize.ShloMosaic.Lib.IndicatorCount

noncomputable section

/-! ## The reference's marks and pair count as counts

Row i of the labels is marked when more than 32 of its 64 labels are zero; the pair count of the mask of a vector of marks
with n marked rows is the word of n * (4096 − n). -/

namespace Cert.ReferenceIdeal.RefValue

open Cert.ReferenceIdeal Cert.ReferenceIdeal.Gen Idealize.ShloMosaic Idealize.ShloMosaic.ValueIdx
open scoped BigOperators

/-- The number of zero labels of row i. -/
def zeroCount (lab : IVec S4096x64 32) (i : Fin 4096) : ℕ := (Finset.univ.filter fun k : Fin 64 => lab (ix2 i k) = 0#32).card

/-- Row i's mark: the bit of "the number of its zero labels, as a 32-bit word read signed, is greater than 32". -/
theorem marked_apply (lab : IVec S4096x64 32) (i : Fin 4096) :
    marked (F := Ideal) lab (ix1 i) = IntOp.cmpi .sgt (BitVec.ofNat 32 (zeroCount lab i)) 32#32 := by
  have hR : S4096x64.Reduces [1] S4096 := by decide
  unfold marked zeroCount
  show IntOp.cmpi .sgt (Host.reduce IntOp.addi (extui 32 (cmpi .eq lab (broadcastInDim S4096x64 ![] bcast_S_S4096x64 (constantI S_ 32 0#32))) natLt_1_32)
      (constantI S_ 32 0#32) reducesTo_S4096x64_S4096_d1 h_S_ (ix1 i)) 32#32 = _
  rw [Host.reduce_eq_fold_single IntOp.addi _ _ reducesTo_S4096x64_S4096_d1 hR]
  show IntOp.cmpi .sgt ((Finset.univ : Finset (Fin 64)).fold IntOp.addi 0#32
      (fun k => (IntOp.cmpi .eq (lab (hR.lift (ix1 i) k)) 0#32).setWidth 32)) 32#32 = _
  refine (congrArg (fun w => IntOp.cmpi .sgt w 32#32) (IndicatorCount.fold_addi_setWidth_eq_card _ _)).trans ?_
  refine congrArg (fun n => IntOp.cmpi .sgt (BitVec.ofNat 32 n) 32#32) (congrArg Finset.card (Finset.filter_congr fun k _ => ?_))
  have e : hR.lift (ix1 i) k = ix2 i k := by
    funext c; match c with | ⟨0, _⟩ => rfl | ⟨1, _⟩ => rfl
  rw [e]
  show BitVec.ofBool (lab (ix2 i k) == 0#32) = 1#1 ↔ _
  rw [WordArith.ofBool_eq_one_iff, beq_iff_eq]

/-- A row is marked exactly when more than 32 of its 64 labels are zero. -/
theorem marked_eq_one_iff (lab : IVec S4096x64 32) (i : Fin 4096) :
    marked (F := Ideal) lab (ix1 i) = 1#1 ↔ 32 < zeroCount lab i := by
  have hle : zeroCount lab i ≤ 64 := by
    unfold zeroCount
    exact (Finset.card_filter_le _ _).trans (by simp)
  rw [marked_apply]
  show BitVec.ofBool ((32#32).slt (BitVec.ofNat 32 (zeroCount lab i))) = 1#1 ↔ _
  rw [WordArith.ofBool_eq_one_iff, BitVec.slt_iff_toInt_lt, WordArith.toInt_ofNat_small 32 (by omega),
    WordArith.toInt_ofNat_small (zeroCount lab i) (by omega)]
  omega

/-- The pair count of a mask is the number of its set bits, as a 32-bit word. -/
theorem pairCount_apply (M : IVec S4096x4096 1) (j : S_.Idx) :
    pairCount (F := Ideal) M j = BitVec.ofNat 32 (Finset.univ.filter fun q : S4096x4096.Idx => M q = 1#1).card := by
  unfold pairCount
  rw [Host.reduce_eq_fold]
  have hall : (Finset.univ.filter fun i : S4096x4096.Idx => reducesTo_S4096x4096_S_d0_1.drop i = j) = Finset.univ :=
    Finset.filter_true_of_mem fun i _ => funext fun b => b.elim0
  rw [hall]
  show (Finset.univ : Finset S4096x4096.Idx).fold IntOp.addi 0#32 (fun q => (M q).setWidth 32) = _
  rw [IndicatorCount.fold_addi_setWidth_eq_card]

/-- The number of marked rows of a vector of marks. -/
def nMarked (mk : IVec S4096 1) : ℕ := (Finset.univ.filter fun i : Fin 4096 => mk (ix1 i) = 1#1).card

/-- The pair mask's bit at (i, j) is set exactly when i is marked and j is not. -/
theorem pairMask_eq_one_iff (mk : IVec S4096 1) (i j : Fin 4096) :
    pairMask (F := Ideal) mk (ix2 i j) = 1#1 ↔ mk (ix1 i) = 1#1 ∧ ¬ mk (ix1 j) = 1#1 := by
  rw [pairMask_apply]
  rcases BitVec.eq_zero_or_eq_one (mk (ix1 i)) with h | h <;>
    rcases BitVec.eq_zero_or_eq_one (mk (ix1 j)) with h' | h' <;> rw [h, h'] <;> decide

/-- The mask's set pairs are the marked rows times the unmarked rows: n * (4096 − n) of them for n marked rows. -/
theorem card_pairMask (mk : IVec S4096 1) :
    (Finset.univ.filter fun q : S4096x4096.Idx => pairMask (F := Ideal) mk q = 1#1).card = nMarked mk * (4096 - nMarked mk) := by
  classical
  have h : (Finset.univ.filter fun q : S4096x4096.Idx => pairMask (F := Ideal) mk q = 1#1)
      = (((Finset.univ.filter fun i : Fin 4096 => mk (ix1 i) = 1#1) ×ˢ (Finset.univ.filter fun i : Fin 4096 => mk (ix1 i) = 1#1)ᶜ).map
          (idxEquiv2 (n0 := 4096) (n1 := 4096)).symm.toEmbedding) := by
    ext q
    simp only [Finset.mem_filter, Finset.mem_univ, true_and, Finset.mem_map_equiv, Equiv.symm_symm, Finset.mem_product,
      Finset.mem_compl]
    exact (iff_of_eq (congrArg (fun r => pairMask (F := Ideal) mk r = 1#1) (eq_ix2 q))).trans
      (pairMask_eq_one_iff mk (q 0) (q 1))
  rw [h, Finset.card_map, Finset.card_product, Finset.card_compl, Fintype.card_fin]
  rfl

/-- So the pair count of the mask of a vector of marks with n marked rows is the word of n * (4096 − n). -/
theorem pairCount_pairMask (mk : IVec S4096 1) (j : S_.Idx) :
    pairCount (F := Ideal) (pairMask (F := Ideal) mk) j = BitVec.ofNat 32 (nMarked mk * (4096 - nMarked mk)) := by
  rw [pairCount_apply, card_pairMask]

end Cert.ReferenceIdeal.RefValue

namespace Cert.KernelIdeal.Bridge

open Cert.KernelIdeal Cert.KernelIdeal.Gen Cert.KernelIdeal.Payload Cert.KernelIdeal.OutSpec
open Idealize.ShloMosaic Idealize.ShloMosaic.ValueIdx
open scoped BigOperators

/-! ## Words: sums and products of small numbers, and their signed comparisons -/

/-- A product plus a number, computed on 32-bit words of numbers, is the word of the numbers' result. -/
theorem word_mul_add (a b c : ℕ) :
    IntOp.addi (Scalar.muli (BitVec.ofNat 32 a) (BitVec.ofNat 32 b)) (BitVec.ofNat 32 c) = BitVec.ofNat 32 (a * b + c) := by
  show BitVec.ofNat 32 a * BitVec.ofNat 32 b + BitVec.ofNat 32 c = _
  rw [← BitVec.ofNat_mul, ← BitVec.ofNat_add]

/-- Below 2³¹ the signed "less than" of two numbers' words is the numbers'. -/
theorem slt_ofNat_iff (p k : ℕ) (hp : p < 2 ^ 31) (hk : k < 2 ^ 31) :
    IntOp.cmpi .slt (BitVec.ofNat 32 p) (BitVec.ofNat 32 k) = 1#1 ↔ p < k := by
  show BitVec.ofBool ((BitVec.ofNat 32 p).slt (BitVec.ofNat 32 k)) = 1#1 ↔ _
  rw [WordArith.ofBool_eq_one_iff, BitVec.slt_iff_toInt_lt, WordArith.toInt_ofNat_small p hp, WordArith.toInt_ofNat_small k hk]
  omega

/-- … the signed "greater than" likewise … -/
theorem sgt_ofNat_iff (a k : ℕ) (ha : a < 2 ^ 31) (hk : k < 2 ^ 31) :
    IntOp.cmpi .sgt (BitVec.ofNat 32 a) (BitVec.ofNat 32 k) = 1#1 ↔ k < a := by
  show BitVec.ofBool ((BitVec.ofNat 32 k).slt (BitVec.ofNat 32 a)) = 1#1 ↔ _
  rw [WordArith.ofBool_eq_one_iff, BitVec.slt_iff_toInt_lt, WordArith.toInt_ofNat_small k hk, WordArith.toInt_ofNat_small a ha]
  omega

/-- … and the signed "greater or equal". -/
theorem sge_ofNat_iff (q k : ℕ) (hq : q < 2 ^ 31) (hk : k < 2 ^ 31) :
    IntOp.cmpi .sge (BitVec.ofNat 32 q) (BitVec.ofNat 32 k) = 1#1 ↔ k ≤ q := by
  show BitVec.ofBool ((BitVec.ofNat 32 k).sle (BitVec.ofNat 32 q)) = 1#1 ↔ _
  rw [WordArith.ofBool_eq_one_iff, BitVec.sle_iff_toInt_le, WordArith.toInt_ofNat_small k hk, WordArith.toInt_ofNat_small q hq]
  omega

/-- The conjunction of two bits is set exactly when both are. -/
theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-- A bit widened to 32 bits and tested against zero is the bit. -/
theorem ne_zero_extui (b : BitVec 1) : IntOp.cmpi .ne (b.setWidth 32) 0#32 = b := by
  rcases BitVec.eq_zero_or_eq_one b with rfl | rfl <;> decide

/-! ## The tile's row and column numbers, its liveness test and its mask -/

/-- The stack position of row r of row tile i, and of row c of column tile j. -/
def rowOf (i : Fin 4) (r : Fin 1024) : Fin 4096 := ⟨i.val * 1024 + r.val, by have := i.isLt; have := r.isLt; omega⟩
def colOf (j : Fin 8) (c : Fin 512) : Fin 4096 := ⟨j.val * 512 + c.val, by have := j.isLt; have := c.isLt; omega⟩

theorem rowWord_pt (w : Fin 2) (i : Fin 4) (j : Fin 8) (r : Fin 1024) :
    rowWord (pt w i j) r = BitVec.ofNat 32 (rowOf i r).val := by
  unfold rowWord
  exact word_mul_add i.val 1024 r.val

theorem colWord_pt (w : Fin 2) (i : Fin 4) (j : Fin 8) (c : Fin 512) :
    colWord (pt w i j) c = BitVec.ofNat 32 (colOf j c).val := by
  unfold colWord
  exact word_mul_add j.val 512 c.val

/-- The body's liveness test of tile (i, j) at the count k: the tile's first row is below k and its last column is not. -/
theorem cond2_iff (w : Fin 2) (i : Fin 4) (j : Fin 8) (k : ℕ) (hk : k ≤ 4096) :
    k0_cond2 (pt w i j) (BitVec.ofNat 32 k) = 1#1 ↔ (i.val * 1024 < k ∧ k < j.val * 512 + 512) := by
  have hi := i.isLt
  have hj := j.isLt
  have e : k0_cond2 (pt w i j) (BitVec.ofNat 32 k)
      = IntOp.andi (IntOp.cmpi .slt (BitVec.ofNat 32 (i.val * 1024)) (BitVec.ofNat 32 k))
          (IntOp.cmpi .sgt (BitVec.ofNat 32 (j.val * 512 + 512)) (BitVec.ofNat 32 k)) := by
    unfold k0_cond2
    dsimp only
    show IntOp.cmpi .ne ((IntOp.andi (IntOp.cmpi .slt (BitVec.ofNat 32 i.val * BitVec.ofNat 32 1024) _)
        (IntOp.cmpi .sgt (BitVec.ofNat 32 j.val * BitVec.ofNat 32 512 + BitVec.ofNat 32 512) _)).setWidth 32) 0#32 = _
    rw [ne_zero_extui, ← BitVec.ofNat_mul, ← BitVec.ofNat_mul, ← BitVec.ofNat_add]
  rw [e, andi_eq_one_iff, slt_ofNat_iff _ _ (by omega) (by omega), sgt_ofNat_iff _ _ (by omega) (by omega)]

/-- The mask bit of entry (r, c) of tile (i, j) at the count k: the entry's row is below k and its column is not. -/
theorem tileCond_iff (w : Fin 2) (i : Fin 4) (j : Fin 8) (r : Fin 1024) (c : Fin 512) (k : ℕ) (hk : k ≤ 4096) :
    IntOp.andi (IntOp.cmpi .slt (rowWord (pt w i j) r) (BitVec.ofNat 32 k)) (IntOp.cmpi .sge (colWord (pt w i j) c) (BitVec.ofNat 32 k)) = 1#1
      ↔ ((rowOf i r).val < k ∧ k ≤ (colOf j c).val) := by
  have hp := (rowOf i r).isLt
  have hq := (colOf j c).isLt
  rw [rowWord_pt, colWord_pt, andi_eq_one_iff, slt_ofNat_iff _ _ (by omega) (by omega), sge_ofNat_iff _ _ (by omega) (by omega)]

/-! ## The scale, and one entry of a tile -/

/-- Multiplying by the kernel's constant is dividing by the reference's divisor, on every extended real. -/
theorem mul_invTau (x : EReal) : x * invTau = Ideal.div x Cert.ReferenceIdeal.RefValue.D := by
  have e : (1 / (13421773 / 134217728 : ℝ)) = (134217728 / 13421773 : ℝ) := by norm_num
  rw [Cert.ReferenceIdeal.RefValue.D_eq, Ideal.div_coe (by norm_num : (13421773 / 134217728 : ℝ) ≠ 0), e]
  rfl

/-- The term of a pair of rows (a, b) of z: the exponential of their inner product over the divisor. -/
def pairTerm (z : FVec Ideal S4096x4096 .f32) (a b : Fin 4096) : EReal :=
  Ideal.exp (Ideal.div (∑ kk : Fin 4096, z (ix2 a kk) * z (ix2 b kk)) Cert.ReferenceIdeal.RefValue.D)

/-- Entry (r, c) of tile (i, j), the stack's array w holding the rows of z in the order σ: the pair term of rows σ p and σ q
    where p < k ≤ q, zero elsewhere. -/
theorem tileAt_eq (z : FVec Ideal S4096x4096 .f32) (σ : Fin 4096 ≃ Fin 4096) (k : ℕ) (hk : k ≤ 4096)
    (Z : FVec Ideal S2x4096x4096 .bf16) (w : Fin 2) (hZ : ∀ (p kk : Fin 4096), Z (ix3 w p kk) = z (ix2 (σ p) kk))
    (i : Fin 4) (j : Fin 8) (r : Fin 1024) (c : Fin 512) :
    tileAt (pt w i j) (BitVec.ofNat 32 k) (rowBlk Z w i) (colBlk Z w j) r c
      = if (rowOf i r).val < k ∧ k ≤ (colOf j c).val then pairTerm z (σ (rowOf i r)) (σ (colOf j c)) else 0 := by
  unfold tileAt Scalar.select
  refine if_congr (tileCond_iff w i j r c k hk) ?_ rfl
  unfold pairTerm
  rw [simAt_eq, mul_invTau]
  refine congrArg (fun s => Ideal.exp (Ideal.div s _)) (Finset.sum_congr rfl fun kk _ => ?_)
  exact congrArg₂ (· * ·) (hZ (rowOf i r) kk) (hZ (colOf j c) kk)

/-- The output entry of row tile i, row r: the liveness test dropped, since a dead tile has no entry with p < k ≤ q. -/
theorem outAt_eq (z : FVec Ideal S4096x4096 .f32) (σ : Fin 4096 ≃ Fin 4096) (k : ℕ) (hk : k ≤ 4096)
    (Z : FVec Ideal S2x4096x4096 .bf16) (w : Fin 2) (hZ : ∀ (p kk : Fin 4096), Z (ix3 w p kk) = z (ix2 (σ p) kk))
    (i : Fin 4) (r : Fin 1024) :
    outAt Z (BitVec.ofNat 32 k) w i r
      = ∑ j : Fin 8, ∑ c : Fin 512,
          if (rowOf i r).val < k ∧ k ≤ (colOf j c).val then pairTerm z (σ (rowOf i r)) (σ (colOf j c)) else 0 := by
  unfold outAt
  refine Finset.sum_congr rfl fun j _ => ?_
  by_cases h : k0_cond2 (pt w i j) (BitVec.ofNat 32 k) = 1#1
  · rw [if_pos h]
    exact Finset.sum_congr rfl fun c _ => tileAt_eq z σ k hk Z w hZ i j r c
  · rw [if_neg h]
    refine (Finset.sum_eq_zero fun c _ => if_neg fun hpq => h ?_).symm
    rw [cond2_iff w i j k hk]
    have hc := c.isLt
    have h1 : (rowOf i r).val = i.val * 1024 + r.val := rfl
    have h2 : (colOf j c).val = j.val * 512 + c.val := rfl
    omega

/-! ## All tiles and entries are all pairs of positions -/

/-- The rows of the four row tiles are all the positions. -/
theorem sum_rows {M : Type*} [AddCommMonoid M] (g : Fin 4096 → M) :
    ∑ i : Fin 4, ∑ r : Fin 1024, g (rowOf i r) = ∑ p : Fin 4096, g p := by
  rw [← Fintype.sum_prod_type']
  exact Fintype.sum_equiv (finProdFinEquiv (m := 4) (n := 1024)) _ _ fun x => congrArg g (Fin.ext (by
    show x.1.val * 1024 + x.2.val = x.2.val + 1024 * x.1.val
    omega))

/-- The rows of the eight column tiles are all the positions. -/
theorem sum_cols {M : Type*} [AddCommMonoid M] (g : Fin 4096 → M) :
    ∑ j : Fin 8, ∑ c : Fin 512, g (colOf j c) = ∑ q : Fin 4096, g q := by
  rw [← Fintype.sum_prod_type']
  exact Fintype.sum_equiv (finProdFinEquiv (m := 8) (n := 512)) _ _ fun x => congrArg g (Fin.ext (by
    show x.1.val * 512 + x.2.val = x.2.val + 512 * x.1.val
    omega))

/-- The output rows of array w summed: the sum over the pairs (marked row a, unmarked row b) of z of the pair terms. -/
theorem rows_total (z : FVec Ideal S4096x4096 .f32) (mk : IVec S4096 1) (σ : Fin 4096 ≃ Fin 4096) (k : ℕ) (hk : k ≤ 4096)
    (hσ : ∀ p : Fin 4096, p.val < k ↔ mk (ix1 (σ p)) = 1#1)
    (n : BitVec 32) (hn : n = BitVec.ofNat 32 k)
    (Z : FVec Ideal S2x4096x4096 .bf16) (w : Fin 2) (hZ : ∀ (p kk : Fin 4096), Z (ix3 w p kk) = z (ix2 (σ p) kk)) :
    (∑ i : Fin 4, ∑ r : Fin 1024, OutSpec.outAt Z n w i r)
      = ∑ a : Fin 4096, ∑ b : Fin 4096,
          Ideal.exp (Ideal.div (∑ kk : Fin 4096, z (ix2 a kk) * z (ix2 b kk)) Cert.ReferenceIdeal.RefValue.D)
            * (if mk (ix1 a) = 1#1 ∧ ¬ mk (ix1 b) = 1#1 then 1 else 0) := by
  subst hn
  calc (∑ i : Fin 4, ∑ r : Fin 1024, OutSpec.outAt Z (BitVec.ofNat 32 k) w i r)
      = ∑ i : Fin 4, ∑ r : Fin 1024, ∑ q : Fin 4096,
          (if (rowOf i r).val < k ∧ k ≤ q.val then pairTerm z (σ (rowOf i r)) (σ q) else 0) :=
        Finset.sum_congr rfl fun i _ => Finset.sum_congr rfl fun r _ =>
          (outAt_eq z σ k hk Z w hZ i r).trans
            (sum_cols fun q => if (rowOf i r).val < k ∧ k ≤ q.val then pairTerm z (σ (rowOf i r)) (σ q) else 0)
    _ = ∑ p : Fin 4096, ∑ q : Fin 4096, (if p.val < k ∧ k ≤ q.val then pairTerm z (σ p) (σ q) else 0) :=
        sum_rows fun p => ∑ q : Fin 4096, if p.val < k ∧ k ≤ q.val then pairTerm z (σ p) (σ q) else 0
    _ = ∑ a : Fin 4096, ∑ b : Fin 4096, (if mk (ix1 a) = 1#1 ∧ ¬ mk (ix1 b) = 1#1 then pairTerm z a b else 0) :=
        Cert.Lib.LivePairs.sum_sorted_rect σ (fun a => mk (ix1 a) = 1#1) k hσ (pairTerm z)
    _ = _ := Finset.sum_congr rfl fun a _ => Finset.sum_congr rfl fun b _ => by
        unfold pairTerm
        rw [mul_ite, mul_one, mul_zero]

end Cert.KernelIdeal.Bridge

end
-- ==== Proof.SameIdeal.lean ====
/-
  The two programs compute the normalised rows, the marks and the positive term by the same operations: the staged functions
  read off the kernel's host lines and those read off the reference are one function each.
-/
import proofs.«120018_j30030411333999_2_alg».proof.Proof.PrefixIdeal
import proofs.«120018_j30030411333999_2_alg».proof.Proof.RefStages

noncomputable section

namespace Cert.KernelIdeal.Same

open Cert.KernelIdeal Idealize.ShloMosaic

/-- The normalised rows. -/
theorem rows_eq (x : Prefix.Mat) : Cert.ReferenceIdeal.RefValue.rows (F := Ideal) x = Prefix.normRows x := rfl

/-- The marks. -/
theorem marked_eq (lab : Prefix.Lab) : Cert.ReferenceIdeal.RefValue.marked (F := Ideal) lab = Prefix.markedVec lab := rfl

/-- The positive term. -/
theorem pos_eq (x y : Prefix.Mat) :
    Cert.ReferenceIdeal.RefValue.posTerm (F := Ideal) (Cert.ReferenceIdeal.RefValue.rows (F := Ideal) x) (Cert.ReferenceIdeal.RefValue.rows (F := Ideal) y)
      = Prefix.posTerm x y := rfl

end Cert.KernelIdeal.Same

end
-- ==== Proof.GlueIdeal.lean ====
/-
  Small identities joining the pieces. The word the body loads from the table's buffer is that buffer's one entry. In 32-bit
  words, for a count k ≤ 4096, k · (4096 − k) is the word of the natural number k · (4096 − k): nothing overflows before the
  product, and words multiply modulo 2^32 as naturals do.
-/
import proofs.«120018_j30030411333999_2_alg».proof.Proof.ExactDataIdeal
import Idealize.ShloMosaic.Lib.ValueIdx

noncomputable section

namespace Cert.KernelIdeal.Glue

open Cert.KernelIdeal Cert.KernelIdeal.Gen Cert.KernelIdeal.Region Cert.KernelIdeal.Exact
open Idealize.ShloMosaic Idealize.ShloMosaic.TcCoe Idealize.ShloMosaic.ValueIdx

/-- The loaded word is the table buffer's one entry. -/
theorem word_apply (c : Dev nD) (f : Body.TbBuf (F := Ideal) c) : Body.word c f = f (ix1 (0 : Fin 1)) := by
  show f _ = f _
  congr 1
  funext a
  apply Fin.ext
  fin_cases a
  rfl

/-- k · (4096 − k) in words. -/
theorem pairs_word (k : ℕ) (hk : k ≤ 4096) :
    IntOp.muli (BitVec.ofNat 32 k) (IntOp.subi 4096#32 (BitVec.ofNat 32 k)) = BitVec.ofNat 32 (k * (4096 - k)) := by
  show BitVec.ofNat 32 k * (4096#32 - BitVec.ofNat 32 k) = _
  have hs : (4096#32 - BitVec.ofNat 32 k : BitVec 32) = BitVec.ofNat 32 (4096 - k) := by
    apply BitVec.eq_of_toNat_eq
    simp only [BitVec.toNat_sub, BitVec.toNat_ofNat]
    omega
  rw [hs]
  apply BitVec.eq_of_toNat_eq
  simp only [BitVec.toNat_mul, BitVec.toNat_ofNat]
  have h1 : k % 2 ^ 32 = k := Nat.mod_eq_of_lt (by omega)
  have h2 : (4096 - k) % 2 ^ 32 = 4096 - k := Nat.mod_eq_of_lt (by omega)
  rw [h1, h2]

set_option maxRecDepth 1000000 in
/-- The count the body loads is the table buffer's entry as the call finds it. -/
theorem nW_eq (m : (ℓ : Loc nD τ sig) → Buf (Elt Ideal) ℓ) (c : Dev nD) :
    nW m c = (V m c main_v44 : IVec S1 32) (ix1 (0 : Fin 1)) := by
  obtain rfl : c = 0 := Subsingleton.elim _ _
  have h1 : nW m 0 = ((adm m).1 0) (ix1 (0 : Fin 1)) := word_apply 0 _
  rw [h1]
  rfl

end Cert.KernelIdeal.Glue

end
-- ==== Proof.FinalIdeal.lean ====
/-
  The two results are equal. The kernel's result is the positive term plus 1 times the two guarded quotients: one array's
  output column summed, over the pair count. The output column's total regroups by row tile, each entry is the region's
  formula, and the bridge turns the total into the masked double sum the reference computes — with the argsort's permutation
  as the re-indexing, the count of marked rows as the threshold, and the stack's rows as the normalised rows in sorted order.
  The pair count in words is the word of k·(4096 − k) on both sides; the normalised rows, the marks and the positive term are
  the same functions in the two programs.
-/
import proofs.«120018_j30030411333999_2_alg».proof.Proof.ExactOutIdeal
import proofs.«120018_j30030411333999_2_alg».proof.Proof.TailIdeal
import proofs.«120018_j30030411333999_2_alg».proof.Proof.PrefixIdeal
import proofs.«120018_j30030411333999_2_alg».proof.Proof.BridgeIdeal
import proofs.«120018_j30030411333999_2_alg».proof.Proof.SameIdeal
import proofs.«120018_j30030411333999_2_alg».proof.Proof.GlueIdeal

set_option maxRecDepth 16384

noncomputable section

namespace Cert.KernelIdeal.Final

open Cert.KernelIdeal Cert.KernelIdeal.Gen Cert.KernelIdeal.Region
open Idealize.ShloMosaic Idealize.ShloMosaic.TcCoe Idealize.ShloMosaic.ValueIdx
open Cert.ReferenceIdeal.RefValue (D rows marked posTerm pairMask pairCount result)

variable (m : (ℓ : Loc nD τ sig) → Buf (Elt Ideal) ℓ)

/-- The output array after the region, as a [2, 4096, 1] value. -/
abbrev outF (c : Dev nD) : FVec Ideal S2x4096x1 .f32 := Exact.outArr m c

/-- The contents the lines after the call run from: as the call was entered, the output array at its exact contents. -/
abbrev W (c : Dev nD) : Valuation τ sig (Elt Ideal) := Pipeline.withArrays Run.winO c (V0 m c) (fun _ => Exact.outArr m c)

theorem W_out (c : Dev nD) : W m c (Proc.devRef .tc main_v48) = Exact.outArr m c :=
  Pipeline.withArrays_arr Run.winO Run.winO_inj c (V0 m c) (fun _ => Exact.outArr m c) 0
theorem W_cnt (c : Dev nD) : W m c (Proc.devRef .tc main_v24) = V m c main_v24 :=
  Pipeline.withArrays_of_ne Run.winO c (V0 m c) (fun _ => Exact.outArr m c) main_v24
    (fun w e => by obtain rfl : w = 0 := Subsingleton.elim _ _; exact absurd e (by decide))
theorem W_pos (c : Dev nD) : W m c (Proc.devRef .tc main_v14) = V m c main_v14 :=
  Pipeline.withArrays_of_ne Run.winO c (V0 m c) (fun _ => Exact.outArr m c) main_v14
    (fun w e => by obtain rfl : w = 0 := Subsingleton.elim _ _; exact absurd e (by decide))

/-- An entry of the output array is the region's formula. -/
theorem outF_apply (c : Dev nD) (w : Fin 2) (i : Fin 4) (r : Fin 1024) :
    outF m c (ix3 w (Bridge.rowOf i r) (0 : Fin 1)) = OutSpec.outAt (V m c main_v47) (Exact.nW m c) w i r :=
  (congrArg (outF m c) (Exact.emb_last_eq m w i r)).symm.trans (Exact.outArr_apply m c w i r)

/-- One output column's total is the reference's masked double sum for that array's normalised rows. -/
theorem col_total (c : Dev nD) (w : Fin 2) (z : Prefix.Mat) (σ : Fin 4096 ≃ Fin 4096)
    (hσ : ∀ p : Fin 4096, p.val < Prefix.nMarked (Prefix.argL m c) ↔ Prefix.markedVec (Prefix.argL m c) (ix1 (σ p)) = 1#1)
    (hword : (V (F := Ideal) m c main_v44 : IVec S1 32) (ix1 (0 : Fin 1)) = BitVec.ofNat 32 (Prefix.nMarked (Prefix.argL m c)))
    (hZ : ∀ (p kk : Fin 4096), (V (F := Ideal) m c main_v47 : FVec Ideal S2x4096x4096 .bf16) (ix3 w p kk) = z (ix2 (σ p) kk)) :
    (∑ p : Fin 4096, outF m c (ix3 w p (0 : Fin 1)))
      = ∑ a : Fin 4096, ∑ b : Fin 4096, Ideal.exp (Ideal.div (∑ kk : Fin 4096, z (ix2 a kk) * z (ix2 b kk)) D)
          * (if Prefix.markedVec (Prefix.argL m c) (ix1 a) = 1#1 ∧ ¬ Prefix.markedVec (Prefix.argL m c) (ix1 b) = 1#1 then 1 else 0) := by
  rw [← Bridge.sum_rows (fun p => outF m c (ix3 w p (0 : Fin 1)))]
  show (∑ i : Fin 4, ∑ r : Fin 1024, outF m c (ix3 w (Bridge.rowOf i r) (0 : Fin 1))) = _
  have h : (∑ i : Fin 4, ∑ r : Fin 1024, outF m c (ix3 w (Bridge.rowOf i r) (0 : Fin 1)))
      = ∑ i : Fin 4, ∑ r : Fin 1024, OutSpec.outAt (V m c main_v47) (Exact.nW m c) w i r :=
    Finset.sum_congr rfl fun i _ => Finset.sum_congr rfl fun r _ => outF_apply m c w i r
  rw [h]
  exact Bridge.rows_total z (Prefix.markedVec (Prefix.argL m c)) σ (Prefix.nMarked (Prefix.argL m c)) (Prefix.nMarked_le _) hσ
    (Exact.nW m c) ((Glue.nW_eq m c).trans hword) (V m c main_v47) w hZ

/-- The pair count, in words, as the reference computes it. -/
theorem cnt_eq (c : Dev nD) (j : S_.Idx) :
    (V (F := Ideal) m c main_v24 : IVec S_ 32) j = pairCount (F := Ideal) (pairMask (F := Ideal) (marked (F := Ideal) (Prefix.argL m c))) j := by
  rw [eq_ix0 j, Prefix.pairs_apply, Prefix.countWord_eq, Glue.pairs_word _ (Prefix.nMarked_le _),
    Cert.ReferenceIdeal.RefValue.pairCount_pairMask, Same.marked_eq]
  rfl

set_option maxHeartbeats 1000000 in
/-- THE VALUES AGREE: what the lines after the call compute from the exact output array is the reference's result of the
    same three arguments. -/
theorem value_eq (c : Dev nD) :
    Exact.afterTail m c (V0 m c) (Exact.outArr m c) (Proc.devRef .tc main_v65)
      = result (F := Ideal) (Prefix.argX m c) (Prefix.argY m c) (Prefix.argL m c) := by
  obtain ⟨σ, hσ, hword, hstack⟩ := Prefix.stack_marked m c
  funext j
  show StableHlo.after (tailOps (F := Ideal)).flatten (W m c) (Proc.devRef .tc main_v65) j = _
  rw [Tail.tail_eq, W_out, W_cnt, W_pos]
  refine (Tail.tailVal_apply (outF m c) (V m c main_v24) (V m c main_v14) j).trans ?_
  rw [col_total m c 0 (Prefix.normRows (Prefix.argX m c)) σ hσ hword (fun p kk => (hstack 0 p kk).trans (congrFun (if_pos rfl) _)),
    col_total m c 1 (Prefix.normRows (Prefix.argY m c)) σ hσ hword (fun p kk => (hstack 1 p kk).trans (congrFun (if_neg (by decide)) _))]
  rw [cnt_eq m c j, Prefix.pos_eq, ← Same.pos_eq, Cert.ReferenceIdeal.RefValue.result_apply_sums,
    Cert.ReferenceIdeal.RefValue.posTerm_apply, Same.rows_eq, Same.rows_eq, Same.marked_eq]

end Cert.KernelIdeal.Final

end
-- ==== Proof.lean ====
/-
  The claim: the kernel (at words and at the extended reals) and the reference each run to the end without a fault and leave
  their three arguments unchanged; the idealized kernel is the kernel's sanctioned idealization; and the two idealized
  programs compute the same scalar.

  The kernel multiplies each similarity by a constant before the exponential where the reference divides by the temperature.
  The kernel's constant is named as the exact reciprocal of the reference's own divisor (the table's one entry), so that over
  the extended reals the two are one function; `preserves` is that entry's statement.

  The frames. The kernel's one region reads a stack of the two normalised row arrays through TWO windows and accumulates row
  sums into a third; its table is the count of marked rows, which only clamps dead tiles' block indices, so the table is
  admissible whatever it holds. The region is entered holding the stack's two halves, one per window, and the host lines
  after it never touch the stack; no line writes an argument. The reference has no region: its run is its host operations in
  order.

  The values. The rows are sorted so that the marked ones come first (the argsort of a 0/1 key is a permutation with the zeros
  first, and the count of marked rows is the threshold). The region's output entry for a row is the sum over the column tiles
  of the tile's masked exponentials, a dead tile contributing nothing; summed over the rows it is the sum over the rectangle
  (positions below the count) × (positions from the count on), which re-indexed by the permutation is the reference's sum over
  (marked row, unmarked row) pairs. The number of such pairs is count · (4096 − count), in 32-bit words on both sides. The
  normalised rows, the marks and the positive term are computed by the same operations in both programs.
-/
import proofs.«120018_j30030411333999_2_alg».proof.Defs
import proofs.«120018_j30030411333999_2_alg».proof.Proof.Gen.Kernel
import proofs.«120018_j30030411333999_2_alg».proof.Proof.Gen.KernelIdeal
import proofs.«120018_j30030411333999_2_alg».proof.Proof.Gen.ReferenceIdeal
import proofs.«120018_j30030411333999_2_alg».proof.Proof.Gen.Pre_finite_inputs
import proofs.«120018_j30030411333999_2_alg».proof.Proof.RunBits
import proofs.«120018_j30030411333999_2_alg».proof.Proof.RunIdeal
import proofs.«120018_j30030411333999_2_alg».proof.Proof.RefRun
import proofs.«120018_j30030411333999_2_alg».proof.Proof.FinalIdeal
import Idealize.ShloMosaic.Adequacy
import Idealize.ShloMosaic.Init

noncomputable section

namespace Cert.Proof

open Idealize.ShloMosaic Idealize.SL.Sem

/-- The kernel as printed: it runs, and its arguments end unchanged. -/
theorem frame_k : Cert.frame_Kernel := fun m ρ _ => Cert.Kernel.Run.frame (F := Bits) m ρ

/-- The same of its idealization. -/
theorem frame_ki : Cert.frame_KernelIdeal := fun m ρ _ => Cert.KernelIdeal.Run.frame (F := Ideal) m ρ

/-- The reference is host operations only: its run, the arguments unchanged. -/
theorem frame_ri : Cert.frame_ReferenceIdeal := fun m ρ _ => Cert.ReferenceIdeal.Value.run (F := Ideal) m ρ

/-- The table's one entry: the constant the kernel multiplies by denotes the reciprocal of the reference's divisor. -/
theorem preserves : Cert.preserves_Kernel_KernelIdeal :=
  IdealRules.named_const.statement Cert.KernelIdeal.κ "inv_tau" .f32 0x41200000#32 ((134217728 / 13421773 : ℝ) : EReal) rfl

/-- The two idealized programs end with equal results: the kernel's is what the lines after its call compute from the
    region's exact output, and that is the reference's result of the same arguments. -/
theorem algebraic : Cert.algebraic_KernelIdeal_ReferenceIdeal := by
  intro m g m' g' _ hagree
  refine ⟨fun c => Cert.KernelIdeal.Exact.afterTail m c (Cert.KernelIdeal.Region.V0 m c) (Cert.KernelIdeal.Exact.outArr m c)
      (Proc.devRef .tc Cert.KernelIdeal.main_v65), Cert.KernelIdeal.Exact.run_exact (F := Ideal) m g, ?_⟩
  refine (θ_run _ _ _).mono (fun r h c => ?_) (Cert.ReferenceIdeal.RefValue.run_value m' g')
  obtain ⟨h57, ha0, ha1, ha2⟩ := h c
  obtain ⟨e0, e1, e2⟩ := hagree c
  refine ⟨h57.trans ?_, ha0, ha1, ha2⟩
  rw [e0, e1, e2]
  exact (Cert.KernelIdeal.Final.value_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
